-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S512x1024 : Shape := ⟨2, ![512, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x1 : Shape := ⟨3, ![1, 1024, 1]⟩
abbrev S1x1024x512 : Shape := ⟨3, ![1, 1024, 512]⟩

abbrev nBuf : Space → Nat
  | .hbm => 21
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1x1024x1, .f32⟩
  | .local _ .vmem, ⟨23, _⟩ => ⟨S1x1024x1, .f32⟩
  | .local _ .vmem, ⟨24, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x1024x512_S1x1024 : S1x1024x512.Reduces [2] S1x1024
  shapeCasts_S1x1024_S1x1024x1 : S1x1024.ShapeCasts S1x1024x1
  broadcasts_S1x1024x1_S1x1024x512 : S1x1024x1.Broadcasts S1x1024x512
  broadcasts_S1x1024x1_S1x1024x1024 : S1x1024x1.Broadcasts S1x1024x1024
  dot_S512x1024_S1024x1024_S512x1024_1_0_0_1_n_n_wf : DotDims.WF S512x1024 S1024x1024 S512x1024 [1] [0] [0] [1] [] []
  dot_S1x1024x1024_S1x512x1024_S1x1024x512_2_2_1_1_0_0_wf : DotDims.WF S1x1024x1024 S1x512x1024 S1x1024x512 [2] [2] [1] [1] [0] [0]
  dot_S1x1024x512_S1x512x1024_S1x1024x1024_2_1_1_2_0_0_wf : DotDims.WF S1x1024x512 S1x512x1024 S1x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x1024x1024_S1x512x1024_S1x1024x512_2_2_1_1_0_0 : DotDims S1x1024x1024 S1x512x1024 S1x1024x512 where
  lhsContracting := [2]
  rhsContracting := [2]
  lhsNonContracting := [1]
  rhsNonContracting := [1]
  lhsBatch := [0]
  rhsBatch := [0]
  wf := dot_S1x1024x1024_S1x512x1024_S1x1024x512_2_2_1_1_0_0_wf
def dot_S1x1024x512_S1x512x1024_S1x1024x1024_2_1_1_2_0_0 : DotDims S1x1024x512 S1x512x1024 S1x1024x1024 where
  lhsContracting := [2]
  rhsContracting := [1]
  lhsNonContracting := [1]
  rhsNonContracting := [2]
  lhsBatch := [0]
  rhsBatch := [0]
  wf := dot_S1x1024x512_S1x512x1024_S1x1024x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Reference.lean ====
/-
  The reference's frame. The reference is a host program with no kernel launch: its run read back gives, for every
  weakly fair execution, termination without a fault, the result at the operations' composed term, and every
  argument array as launched. Dropping the result's conjunct leaves exactly the frame claim.
-/
import proofs.«159669_j21612275434249_2_alg».proof.Defs
import proofs.«159669_j21612275434249_2_alg».proof.Proof.Gen.ReferenceIdeal
import proofs.«159669_j21612275434249_2_alg».proof.Proof.Gen.Pre_finite_inputs
import proofs.«159669_j21612275434249_2_alg».proof.Proof.Gen.ReferenceIdeal.Run
import proofs.«159669_j21612275434249_2_alg».proof.Proof.Gen.ReferenceIdeal.Read

noncomputable section

open Idealize.ShloMosaic Idealize.ShloMosaic.TcCoe Idealize.SL.Sem

namespace Cert.Proof.Reference

/-- Every weakly fair execution of the reference terminates, faults nowhere, and leaves its seven arguments unchanged. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.Reference

end
-- ==== Proof.ProjBodyIdeal.lean ====
/-
  The projection body at one grid point.

  A point holds a tile of 512 rows of x, the three weight matrices (already transposed, resident across the grid) and
  the three bias rows. The body reads them whole and stores three whole tiles: the x-tile times a weight plus the bias
  broadcast down the rows, once each for queries, keys and values. Each output tile after the body is therefore the
  canon of a single store that covers it.
-/
import proofs.«159669_j21612275434249_2_alg».proof.Proof.Gen.KernelIdeal.Launch
import proofs.«159669_j21612275434249_2_alg».proof.Proof.Gen.KernelIdeal.Skeleton
import proofs.«159669_j21612275434249_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.ProjIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The whole 512 × 1024 tile, -/
abbrev tileRect : Rect S512x1024 := Rect.unit (s := S512x1024) ![0, 0] S512x1024.size inb_S512x1024_S512x1024_0_0
/-- the whole 1024 × 1024 weight, -/
abbrev weightRect : Rect S1024x1024 := Rect.unit (s := S1024x1024) ![0, 0] S1024x1024.size inb_S1024x1024_S1024x1024_0_0
/-- the whole bias row. -/
abbrev biasRect : Rect S1024 := Rect.unit (s := S1024) ![0] S1024.size inb_S1024_S1024_0

/-- The query tile after the body: x-tile · Wq + bq, stored whole. -/
def tileQ (x : Vec F S512x1024 .f32) (w : Vec F S1024x1024 .bf16) (b : Vec F S1024 .f32) : Vec F S512x1024 .bf16 :=
  View.canon [⟨tileRect, k0_pay2 (View.ld x tileRect) (View.ld w weightRect) (View.ld b biasRect)⟩]
/-- The key tile after the body: x-tile · Wk + bk, stored whole. -/
def tileK (x : Vec F S512x1024 .f32) (w : Vec F S1024x1024 .bf16) (b : Vec F S1024 .f32) : Vec F S512x1024 .bf16 :=
  View.canon [⟨tileRect, k0_pay3 (View.ld x tileRect) (View.ld w weightRect) (View.ld b biasRect)⟩]
/-- The value tile after the body: x-tile · Wv + bv, stored whole. -/
def tileV (x : Vec F S512x1024 .f32) (w : Vec F S1024x1024 .bf16) (b : Vec F S1024 .f32) : Vec F S512x1024 .bf16 :=
  View.canon [⟨tileRect, k0_pay4 (View.ld x tileRect) (View.ld w weightRect) (View.ld b biasRect)⟩]

/-- One store of the whole tile covers the tile. -/
theorem tile_covered (p : Vec F S512x1024 .bf16) (y : S512x1024.Idx) :
    ∃ pc ∈ ([⟨tileRect, p⟩] : List (View.Piece (Elt F) S512x1024 .bf16)), y ∈ pc.1.set :=
  View.cover_of_tiled [⟨tileRect, p⟩] S512x1024.size (by rfl) y

set_option maxHeartbeats 1000000 in
/-- THE BODY. With the seven input tiles held at their read contents and the three output tiles held at anything,
    the body runs to its return; the inputs are as they were and the outputs are the three projection tiles. -/
theorem proj_body (c : Dev nD) (E : Set ℕ) (i : grid0.Coords)
    (aX : Memref sig .tc .vmem S512x1024 .f32) (hX : aX.IsWhole)
    (aWq : Memref sig .tc .vmem S1024x1024 .bf16) (hWq : aWq.IsWhole) (aBq : Memref sig .tc .vmem S1024 .f32) (hBq : aBq.IsWhole)
    (aWk : Memref sig .tc .vmem S1024x1024 .bf16) (hWk : aWk.IsWhole) (aBk : Memref sig .tc .vmem S1024 .f32) (hBk : aBk.IsWhole)
    (aWv : Memref sig .tc .vmem S1024x1024 .bf16) (hWv : aWv.IsWhole) (aBv : Memref sig .tc .vmem S1024 .f32) (hBv : aBv.IsWhole)
    (aQ : Memref sig .tc .vmem S512x1024 .bf16) (hQ : aQ.IsWhole) (aK : Memref sig .tc .vmem S512x1024 .bf16) (hK : aK.IsWhole)
    (aV : Memref sig .tc .vmem S512x1024 .bf16) (hV : aV.IsWhole)
    (x : Vec F S512x1024 .f32) (wq : Vec F S1024x1024 .bf16) (bq : Vec F S1024 .f32) (wk : Vec F S1024x1024 .bf16) (bk : Vec F S1024 .f32)
    (wv : Vec F S1024x1024 .bf16) (bv : Vec F S1024 .f32) (Kont : PUnit → sProp 𝕄) :
    iprop(owns (c : Thread nD τ) aX fullShare x ∗ owns (c : Thread nD τ) aWq fullShare wq ∗ owns (c : Thread nD τ) aBq fullShare bq ∗ owns (c : Thread nD τ) aWk fullShare wk ∗ owns (c : Thread nD τ) aBk fullShare bk ∗ owns (c : Thread nD τ) aWv fullShare wv ∗ owns (c : Thread nD τ) aBv fullShare bv
        ∗ (∃ d, owns (c : Thread nD τ) aQ fullShare d) ∗ (∃ d, owns (c : Thread nD τ) aK fullShare d) ∗ (∃ d, owns (c : Thread nD τ) aV fullShare d)
        ∗ (iprop(owns (c : Thread nD τ) aX fullShare x ∗ owns (c : Thread nD τ) aWq fullShare wq ∗ owns (c : Thread nD τ) aBq fullShare bq ∗ owns (c : Thread nD τ) aWk fullShare wk ∗ owns (c : Thread nD τ) aBk fullShare bk ∗ owns (c : Thread nD τ) aWv fullShare wv ∗ owns (c : Thread nD τ) aBv fullShare bv
            ∗ owns (c : Thread nD τ) aQ fullShare (tileQ x wq bq) ∗ owns (c : Thread nD τ) aK fullShare (tileK x wk bk) ∗ owns (c : Thread nD τ) aV fullShare (tileV x wv bv)) -∗ Kont ⟨⟩))
      ⊢ wp frame (wpE (defs₀ (F := F)) Variants.none c none) E
          (cc0_qkv_proj_kernel i aX hX aWq hWq aBq hBq aWk hWk aBk hBk aWv hWv aBv hBv aQ hQ aK hK aV hV) Kont := by
  simp only [cc0_qkv_proj_kernel_eq_skeleton]; unfold cc0_qkv_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_covered _)
  isplitl [H8]
  · iexists _; isplitr
    swap; · iexact H8
    ipureintro
    exact View.read_writes_eq_canon _ _ _ (tile_covered _)
  iexists _; isplitr
  swap; · iexact H9
  ipureintro
  exact View.read_writes_eq_canon _ _ _ (tile_covered _)

end Cert.Proof.ProjIdeal

end
-- ==== Proof.ProjRegionIdeal.lean ====
/-
  The projection region's proof data.

  The region runs the projection body at 16 points, one tile of 512 rows of x each; the weights and biases are
  resident (their block index never moves). At a point every input window's buffer holds its block of the array as
  the region found it, and after the body the three output windows hold the three projection tiles of that point;
  the body keeps nothing between points, so the invariant is the class's (the scratch and the generator register,
  untouched).
-/
import proofs.«159669_j21612275434249_2_alg».proof.Proof.ProjBodyIdeal

set_option maxRecDepth 16384

noncomputable section

namespace Cert.Proof.ProjIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's buffer holds its block at every point, fetched there or not

For any proof data whose array is the entry contents and whose body leaves the block in place: where the window is
not fetched its block index has not moved since the last fetch. -/

theorem held_in0_of {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_in1_of {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_in2_of {c : Dev nD} (dat : Dat τ (Elt F) Unit ℕ (Pipeline.UD sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_in3_of {c : Dev nD} (dat : Dat τ (Elt F) Unit ℕ (Pipeline.UD sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_in4_of {c : Dev nD} (dat : Dat τ (Elt F) Unit ℕ (Pipeline.UD sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_in5_of {c : Dev nD} (dat : Dat τ (Elt F) Unit ℕ (Pipeline.UD sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_in6_of {c : Dev nD} (dat : Dat τ (Elt F) Unit ℕ (Pipeline.UD sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The proof data -/

/-- On core `c`: the arrays as the region finds them; after the body at point `t` each input at its block and each
    output at its projection tile of the input blocks; the class's invariant; nothing owed; full shares. -/
def projData (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => tileQ (blockAt V c 0 t) (blockAt V c 1 t) (blockAt V c 2 t)
    | ⟨8, _⟩ => tileK (blockAt V c 0 t) (blockAt V c 3 t) (blockAt V c 4 t)
    | ⟨9, _⟩ => tileV (blockAt V c 0 t) (blockAt V c 5 t) (blockAt V c 6 t)
  Φ _ := Pipeline.ΦA spec0 c
  q _ := fullShare
  owed _ := 0

theorem entry_eq (c : Dev nD) (w : Fin cfg0.W) : (projData V c).A w = V c (Pipeline.arrRef spec0 w) := by
  dsimp only [projData]

theorem after_in0 (c : Dev nD) (t : Fin cfg0.N) : (projData V c).after 0 t = blockAt V c 0 t := by dsimp only [projData]
theorem after_in1 (c : Dev nD) (t : Fin cfg0.N) : (projData V c).after 1 t = blockAt V c 1 t := by dsimp only [projData]
theorem after_in2 (c : Dev nD) (t : Fin cfg0.N) : (projData V c).after 2 t = blockAt V c 2 t := by dsimp only [projData]
theorem after_in3 (c : Dev nD) (t : Fin cfg0.N) : (projData V c).after 3 t = blockAt V c 3 t := by dsimp only [projData]
theorem after_in4 (c : Dev nD) (t : Fin cfg0.N) : (projData V c).after 4 t = blockAt V c 4 t := by dsimp only [projData]
theorem after_in5 (c : Dev nD) (t : Fin cfg0.N) : (projData V c).after 5 t = blockAt V c 5 t := by dsimp only [projData]
theorem after_in6 (c : Dev nD) (t : Fin cfg0.N) : (projData V c).after 6 t = blockAt V c 6 t := by dsimp only [projData]
theorem after_q (c : Dev nD) (t : Fin cfg0.N) : (projData V c).after 7 t = tileQ (blockAt V c 0 t) (blockAt V c 1 t) (blockAt V c 2 t) := by dsimp only [projData]
theorem after_k (c : Dev nD) (t : Fin cfg0.N) : (projData V c).after 8 t = tileK (blockAt V c 0 t) (blockAt V c 3 t) (blockAt V c 4 t) := by dsimp only [projData]
theorem after_v (c : Dev nD) (t : Fin cfg0.N) : (projData V c).after 9 t = tileV (blockAt V c 0 t) (blockAt V c 5 t) (blockAt V c 6 t) := by dsimp only [projData]

theorem held_in0 (c : Dev nD) (t : Fin cfg0.N) (d) : (projData V c).before 0 t d = blockAt V c 0 t :=
  held_in0_of V (projData V c) (entry_eq V c 0) (after_in0 V c) t d
theorem held_in1 (c : Dev nD) (t : Fin cfg0.N) (d) : (projData V c).before 1 t d = blockAt V c 1 t :=
  held_in1_of V (projData V c) (entry_eq V c 1) (after_in1 V c) t d
theorem held_in2 (c : Dev nD) (t : Fin cfg0.N) (d) : (projData V c).before 2 t d = blockAt V c 2 t :=
  held_in2_of V (projData V c) (entry_eq V c 2) (after_in2 V c) t d
theorem held_in3 (c : Dev nD) (t : Fin cfg0.N) (d) : (projData V c).before 3 t d = blockAt V c 3 t :=
  held_in3_of V (projData V c) (entry_eq V c 3) (after_in3 V c) t d
theorem held_in4 (c : Dev nD) (t : Fin cfg0.N) (d) : (projData V c).before 4 t d = blockAt V c 4 t :=
  held_in4_of V (projData V c) (entry_eq V c 4) (after_in4 V c) t d
theorem held_in5 (c : Dev nD) (t : Fin cfg0.N) (d) : (projData V c).before 5 t d = blockAt V c 5 t :=
  held_in5_of V (projData V c) (entry_eq V c 5) (after_in5 V c) t d
theorem held_in6 (c : Dev nD) (t : Fin cfg0.N) (d) : (projData V c).before 6 t d = blockAt V c 6 t :=
  held_in6_of V (projData V c) (entry_eq V c 6) (after_in6 V c) t d

/-! ## The body obligation -/

/-- What the body is called with at point `t`, the windows one by one, -/
def projPre (c : Dev nD) (t : Fin cfg0.N) : sProp 𝕄 :=
  iprop((projData V c).Φ t.castSucc ∗ (projData V c).owesAt () t.castSucc
    ∗ (∃ d, owns (c : Thread nD τ) (st0_0 t) fullShare ((projData V c).before 0 t d))
    ∗ (∃ d, owns (c : Thread nD τ) (st0_1 t) fullShare ((projData V c).before 1 t d))
    ∗ (∃ d, owns (c : Thread nD τ) (st0_2 t) fullShare ((projData V c).before 2 t d))
    ∗ (∃ d, owns (c : Thread nD τ) (st0_3 t) fullShare ((projData V c).before 3 t d))
    ∗ (∃ d, owns (c : Thread nD τ) (st0_4 t) fullShare ((projData V c).before 4 t d))
    ∗ (∃ d, owns (c : Thread nD τ) (st0_5 t) fullShare ((projData V c).before 5 t d))
    ∗ (∃ d, owns (c : Thread nD τ) (st0_6 t) fullShare ((projData V c).before 6 t d))
    ∗ (∃ d, owns (c : Thread nD τ) (st0_7 t) fullShare ((projData V c).before 7 t d))
    ∗ (∃ d, owns (c : Thread nD τ) (st0_8 t) fullShare ((projData V c).before 8 t d))
    ∗ (∃ d, owns (c : Thread nD τ) (st0_9 t) fullShare ((projData V c).before 9 t d)))

/-- and what it returns. -/
def projPost (c : Dev nD) (t : Fin cfg0.N) : sProp 𝕄 :=
  iprop((projData V c).Φ t.succ ∗ (projData V c).owesAt () t.succ
    ∗ owns (c : Thread nD τ) (st0_0 t) fullShare ((projData V c).after 0 t)
    ∗ owns (c : Thread nD τ) (st0_1 t) fullShare ((projData V c).after 1 t)
    ∗ owns (c : Thread nD τ) (st0_2 t) fullShare ((projData V c).after 2 t)
    ∗ owns (c : Thread nD τ) (st0_3 t) fullShare ((projData V c).after 3 t)
    ∗ owns (c : Thread nD τ) (st0_4 t) fullShare ((projData V c).after 4 t)
    ∗ owns (c : Thread nD τ) (st0_5 t) fullShare ((projData V c).after 5 t)
    ∗ owns (c : Thread nD τ) (st0_6 t) fullShare ((projData V c).after 6 t)
    ∗ owns (c : Thread nD τ) (st0_7 t) fullShare ((projData V c).after 7 t)
    ∗ owns (c : Thread nD τ) (st0_8 t) fullShare ((projData V c).after 8 t)
    ∗ owns (c : Thread nD τ) (st0_9 t) fullShare ((projData V c).after 9 t))

/-- The body at any point: the inputs hold their blocks, so the body's triple applies; the invariant and the core's
    `owes` pass through unread. -/
theorem proj_point (c : Dev nD) (t : Fin cfg0.N) :
    projPre V c t ⊢ wp frame (wpE (defs₀ (F := F)) Variants.none c none) Set.univ (bodyAt0 t) (fun _ => projPost V c t) := by
  unfold projPre projPost bodyAt0
  simp only [held_in0, held_in1, held_in2, held_in3, held_in4, held_in5, held_in6]
  rw [show (projData V c).Φ t.succ = (projData V c).Φ t.castSucc from rfl,
    show (projData V c).owesAt () t.succ = (projData V c).owesAt () t.castSucc from rfl,
    after_in0, after_in1, after_in2, after_in3, after_in4, after_in5, after_in6, after_q, after_k, after_v]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (proj_body c Set.univ (grid0.coords t) _ _ _ _ _ _ _ _ _ _ _ _ _ _ _ _ _ _ _ _
    (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem proj_obligation (c : Dev nD) : BodyObligation (projData (F := F) V c) (defs₀ (F := F)) Variants.none () Set.univ := fun t => by
  rw [bigSep_W0, bigSep_W0]
  exact proj_point V c t

end Cert.Proof.ProjIdeal

end
-- ==== Proof.FlashRunsIdeal.lean ====
/-
  The attention body at one grid point, in each of its three control cases.

  A point is (batch, query tile, key tile). The body keeps, per query row, a reference point m, a denominator l and
  a numerator row acc in three scratch buffers across the four key tiles of a query tile:
    * at the first key tile it first resets them (m := -∞, l := 0, acc := 0);
    * at every key tile it reads the query tile, the key tile and the value tile, forms the scaled scores,
      moves the reference point to the larger of the old one and the tile's row maximum, rescales l and acc by
      exp (old - new) and adds the tile's exponentials (times the values, for acc);
    * at the last key tile it also stores acc / l into the output tile; at the other key tiles the output tile is
      left untouched and not written back.
  So there are three cases: first (A), middle (B), last (C). In each, the run finds the pieces every written buffer
  ends with.
-/
import proofs.«159669_j21612275434249_2_alg».proof.Proof.ProjRegionIdeal

set_option maxRecDepth 16384

noncomputable section

namespace Cert.Proof.FlashIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions, in closed form over the grid -/

/-- "This is the first key tile", as the body computes it from the third grid coordinate. -/
abbrev isFirst (i : grid1.Coords) : Prop := (Scalar.cmpi .ne (Scalar.extui (Scalar.cmpi .eq (BitVec.ofNat 32 (i 2).val) 0#32)) 0#32) = 1#1
/-- It holds at the points ≡ 0 (mod 4): the key tile is the fastest axis of the grid. -/
theorem isFirst_iff : ∀ t : Fin cfg1.N, isFirst (grid1.coords t) ↔ t.val % 4 = 0 :=
  (by decide +kernel : ∀ t : Fin grid1.N, isFirst (grid1.coords t) ↔ t.val % 4 = 0)

/-- "This is the last key tile". -/
abbrev isLast (i : grid1.Coords) : Prop := k1_cond2 i = 1#1
/-- It holds at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Away from the last key tile nothing is stored into the output tile: the window is idle there, -/
theorem idle_out : ∀ t : Fin cfg1.N, ¬isLast (grid1.coords t) → cfg1.idle 3 (grid1.coords t) = true := by decide +kernel
/-- and not written back. -/
theorem noFlush_out : ∀ t : Fin cfg1.N, ¬isLast (grid1.coords t) → (cfg1.win 3).flush t = false := by decide +kernel
/-- At the last key tile it is live. -/
theorem live_out : ∀ t : Fin cfg1.N, isLast (grid1.coords t) → cfg1.idle 3 (grid1.coords t) = false := by decide +kernel

/-! ## The memrefs the body is called with -/

abbrev stQ (t : Fin cfg1.N) : Memref sig .tc .vmem S1x1024x1024 .bf16 := win1_0.stage (cfg1.slots t 0)
abbrev hstQ (t : Fin cfg1.N) : (stQ t).IsWhole := hstage1_0 ((cfg1.slots t 0).cast nbuf1_0)
abbrev stK (t : Fin cfg1.N) : Memref sig .tc .vmem S1x512x1024 .bf16 := win1_1.stage (cfg1.slots t 1)
abbrev hstK (t : Fin cfg1.N) : (stK t).IsWhole := hstage1_1 ((cfg1.slots t 1).cast nbuf1_1)
abbrev stV (t : Fin cfg1.N) : Memref sig .tc .vmem S1x512x1024 .bf16 := win1_2.stage (cfg1.slots t 2)
abbrev hstV (t : Fin cfg1.N) : (stV t).IsWhole := hstage1_2 ((cfg1.slots t 2).cast nbuf1_2)
abbrev stO (t : Fin cfg1.N) : Memref sig .tc .vmem S1x1024x1024 .f32 := win1_3.stage (cfg1.slots t 3)
abbrev hstO (t : Fin cfg1.N) : (stO t).IsWhole := hstage1_3 ((cfg1.slots t 3).cast nbuf1_3)
/-- The three scratch buffers: the reference point, the denominator, the numerator. -/
abbrev scM : Memref sig .tc .vmem S1x1024x1 .f32 := Memref.whole cc1_scratch0
abbrev scL : Memref sig .tc .vmem S1x1024x1 .f32 := Memref.whole cc1_scratch1
abbrev scA : Memref sig .tc .vmem S1x1024x1024 .f32 := Memref.whole cc1_scratch2
/-- Views through which the contents of the output tile and of the scratch are stated. -/
abbrev viewO : View sig .tc .vmem S1x1024x1024 .f32 := (Memref.whole cc1_stg3_0 : Memref sig .tc .vmem S1x1024x1024 .f32).view
abbrev viewM : View sig .tc .vmem S1x1024x1 .f32 := scM.view
abbrev viewL : View sig .tc .vmem S1x1024x1 .f32 := scL.view
abbrev viewA : View sig .tc .vmem S1x1024x1024 .f32 := scA.view

/-- Every other scoped buffer of the core (the projection region's staging buffers): carried along unopened. -/
abbrev others (c : Dev nD) : sProp 𝕄 :=
  Pipeline.scopedRestBut (Ix := Unit) (Name := ℕ) (U := Pipeline.UD sig nD τ) (Lvl := ℕ) (Val := Elt F) spec1 c [cc1_scratch0, cc1_scratch1, cc1_scratch2]

/-- The class's invariant with the three scratch buffers as memrefs owned at some contents. -/
theorem classInv_eq (c : Dev nD) :
    (Pipeline.ΦA spec1 c : sProp 𝕄)
      = iprop(iprop(((∃ d, owns (c : Thread nD τ) scM fullShare d) ∗ (∃ d, owns (c : Thread nD τ) scL fullShare d) ∗ (∃ d, owns (c : Thread nD τ) scA fullShare d)) ∗ others c) ∗ (∃ r, prngReg c r)) := by
  unfold Pipeline.ΦA
  rw [Pipeline.scopedRest_split_of_list spec1 c [cc1_scratch0, cc1_scratch1, cc1_scratch2] (by decide) (by decide)]
  simp only [scM, scL, scA, owns_whole, BI.bigSepL]
  rfl

/-! ## The body's triple, case by case -/

set_option maxHeartbeats 4000000 in
/-- FIRST key tile. The inputs at their contents, the output tile at contents handed back untouched, the scratch at anything: the body runs to its return with the three scratch buffers at the pieces it wrote (the reset, then the update). -/
noncomputable def runFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) :
    Σ' (LO : List (View.Piece (Elt F) S1x1024x1024 .f32)) (LM : List (View.Piece (Elt F) S1x1024x1 .f32)) (LL : List (View.Piece (Elt F) S1x1024x1 .f32)), { LA : List (View.Piece (Elt F) S1x1024x1024 .f32) //
      ∀ (xo : Vec F S1x1024x1024 .f32) (E : Set ℕ) (K : PUnit → sProp 𝕄),
        iprop(owns (c : Thread nD τ) aQ fullShare xq ∗ owns (c : Thread nD τ) aK fullShare xk ∗ owns (c : Thread nD τ) aV fullShare xv ∗ owns (c : Thread nD τ) aO fullShare xo ∗ (∃ d, owns (c : Thread nD τ) aM fullShare d) ∗ (∃ d, owns (c : Thread nD τ) aL fullShare d) ∗ (∃ d, owns (c : Thread nD τ) aA fullShare d)
            ∗ (iprop(owns (c : Thread nD τ) aQ fullShare xq ∗ owns (c : Thread nD τ) aK fullShare xk ∗ owns (c : Thread nD τ) aV fullShare xv ∗ owns (c : Thread nD τ) aO fullShare xo ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1_flash_attn_kernel i aQ hQ aK hK aV hV aO hO aM hM aL hL aA hA) K } := by
  refine ⟨[], ?_, ?_, ?_, fun xo E K => ?run⟩
  case run =>
    simp only [cc1_flash_attn_kernel_eq_skeleton]; unfold cc1_flash_attn_kernel_skel
    unfold owns
    iintro ⟨⟨%f0, %hf0, H0⟩, ⟨%f1, %hf1, H1⟩, ⟨%f2, %hf2, H2⟩, ⟨%f3, %hf3, H3⟩, ⟨%dm, %fm, -, HM⟩, ⟨%dl, %fl, -, HL⟩, ⟨%da, %fa, -, HA⟩, Hk⟩
    obtain rfl := hQ.eq_unread hf0; obtain rfl := hK.eq_unread hf1; obtain rfl := hV.eq_unread hf2; obtain rfl := hO.eq_unread hf3
    sl_exec (disch := first | exact h1 | exact h2)
    sl_step
    iapply Hk
    isplitl [H0]
    · iexists _; isplitr; · ipureintro; exact hQ.read_unread _
      iexact H0
    isplitl [H1]
    · iexists _; isplitr; · ipureintro; exact hK.read_unread _
      iexact H1
    isplitl [H2]
    · iexists _; isplitr; · ipureintro; exact hV.read_unread _
      iexact H2
    isplitl [H3]
    · iexists _; isplitr; · ipureintro; exact hO.read_unread _
      iexact H3
    isplitl [HM]; · iexists _; iexact HM
    isplitl [HL]; · iexists _; iexact HL
    iexists _; iexact HA

set_option maxHeartbeats 4000000 in
/-- MIDDLE key tile. As the first, but the scratch enters at what the key tile before left. -/
noncomputable def runMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16)
    (xm : Vec F S1x1024x1 .f32) (xl : Vec F S1x1024x1 .f32) (xa : Vec F S1x1024x1024 .f32) :
    Σ' (LO : List (View.Piece (Elt F) S1x1024x1024 .f32)) (LM : List (View.Piece (Elt F) S1x1024x1 .f32)) (LL : List (View.Piece (Elt F) S1x1024x1 .f32)), { LA : List (View.Piece (Elt F) S1x1024x1024 .f32) //
      ∀ (xo : Vec F S1x1024x1024 .f32) (E : Set ℕ) (K : PUnit → sProp 𝕄),
        iprop(owns (c : Thread nD τ) aQ fullShare xq ∗ owns (c : Thread nD τ) aK fullShare xk ∗ owns (c : Thread nD τ) aV fullShare xv ∗ owns (c : Thread nD τ) aO fullShare xo ∗ owns (c : Thread nD τ) aM fullShare xm ∗ owns (c : Thread nD τ) aL fullShare xl ∗ owns (c : Thread nD τ) aA fullShare xa
            ∗ (iprop(owns (c : Thread nD τ) aQ fullShare xq ∗ owns (c : Thread nD τ) aK fullShare xk ∗ owns (c : Thread nD τ) aV fullShare xv ∗ owns (c : Thread nD τ) aO fullShare xo ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1_flash_attn_kernel i aQ hQ aK hK aV hV aO hO aM hM aL hL aA hA) K } := by
  refine ⟨[], ?_, ?_, ?_, fun xo E K => ?run⟩
  case run =>
    simp only [cc1_flash_attn_kernel_eq_skeleton]; unfold cc1_flash_attn_kernel_skel
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%fa, %hfa, HA⟩, Hk⟩
    obtain rfl := hQ.eq_unread hf0; obtain rfl := hK.eq_unread hf1; obtain rfl := hV.eq_unread hf2; obtain rfl := hO.eq_unread hf3
    obtain rfl := hM.eq_unread hfm; obtain rfl := hL.eq_unread hfl; obtain rfl := hA.eq_unread hfa
    sl_exec (disch := first | exact h1 | exact h2)
    sl_step
    iapply Hk
    isplitl [H0]
    · iexists _; isplitr; · ipureintro; exact hQ.read_unread _
      iexact H0
    isplitl [H1]
    · iexists _; isplitr; · ipureintro; exact hK.read_unread _
      iexact H1
    isplitl [H2]
    · iexists _; isplitr; · ipureintro; exact hV.read_unread _
      iexact H2
    isplitl [H3]
    · iexists _; isplitr; · ipureintro; exact hO.read_unread _
      iexact H3
    isplitl [HM]; · iexists _; iexact HM
    isplitl [HL]; · iexists _; iexact HL
    iexists _; iexact HA

set_option maxHeartbeats 4000000 in
/-- LAST key tile. The scratch enters at what the key tile before left and the output tile at anything; the body also stores the quotient into the output tile. -/
noncomputable def runLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16)
    (xm : Vec F S1x1024x1 .f32) (xl : Vec F S1x1024x1 .f32) (xa : Vec F S1x1024x1024 .f32) :
    Σ' (LO : List (View.Piece (Elt F) S1x1024x1024 .f32)) (LM : List (View.Piece (Elt F) S1x1024x1 .f32)) (LL : List (View.Piece (Elt F) S1x1024x1 .f32)), { LA : List (View.Piece (Elt F) S1x1024x1024 .f32) //
      ∀ (E : Set ℕ) (K : PUnit → sProp 𝕄),
        iprop(owns (c : Thread nD τ) aQ fullShare xq ∗ owns (c : Thread nD τ) aK fullShare xk ∗ owns (c : Thread nD τ) aV fullShare xv ∗ (∃ d, owns (c : Thread nD τ) aO fullShare d) ∗ owns (c : Thread nD τ) aM fullShare xm ∗ owns (c : Thread nD τ) aL fullShare xl ∗ owns (c : Thread nD τ) aA fullShare xa
            ∗ (iprop(owns (c : Thread nD τ) aQ fullShare xq ∗ owns (c : Thread nD τ) aK fullShare xk ∗ owns (c : Thread nD τ) aV fullShare xv ∗ (∃ f, aO.view.loc (c : Thread nD τ) ↦[aO.view.set]{fullShare} aO.view.writes (Elt F) f LO) ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1_flash_attn_kernel i aQ hQ aK hK aV hV aO hO aM hM aL hL aA hA) K } := by
  refine ⟨?_, ?_, ?_, ?_, fun E K => ?run⟩
  case run =>
    simp only [cc1_flash_attn_kernel_eq_skeleton]; unfold cc1_flash_attn_kernel_skel
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%fa, %hfa, HA⟩, Hk⟩
    obtain rfl := hQ.eq_unread hf0; obtain rfl := hK.eq_unread hf1; obtain rfl := hV.eq_unread hf2
    obtain rfl := hM.eq_unread hfm; obtain rfl := hL.eq_unread hfl; obtain rfl := hA.eq_unread hfa
    sl_exec (disch := first | exact h1 | exact h2)
    sl_step
    iapply Hk
    isplitl [H0]
    · iexists _; isplitr; · ipureintro; exact hQ.read_unread _
      iexact H0
    isplitl [H1]
    · iexists _; isplitr; · ipureintro; exact hK.read_unread _
      iexact H1
    isplitl [H2]
    · iexists _; isplitr; · ipureintro; exact hV.read_unread _
      iexact H2
    isplitl [H3]; · iexists _; iexact H3
    isplitl [HM]; · iexists _; iexact HM
    isplitl [HL]; · iexists _; iexact HL
    iexists _; iexact HA

end Cert.Proof.FlashIdeal

end
-- ==== Proof.FlashRegionIdeal.lean ====
/-
  The attention region's proof data.

  The region runs the attention body at 32 points (batch, query tile, key tile), the key tile fastest. What the
  four written buffers hold after each point — the output tile, the reference point m, the denominator l and the
  numerator acc — is defined by recursion on the point: the first key tile of a query tile starts afresh, every
  later one continues from what the point before left in the scratch. Between points the scratch is held at
  exactly those contents (before the very first point, at anything).
-/
import proofs.«159669_j21612275434249_2_alg».proof.Proof.FlashRunsIdeal

set_option maxRecDepth 16384

noncomputable section

namespace Cert.Proof.FlashIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- What the first-tile run leaves in the output tile: its pieces read back (none: a placeholder nothing consults, the window being idle there). -/
def oFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) : Vec F S1x1024x1024 .f32 :=
  viewO.read (Elt F) (viewO.writes (Elt F) viewO.junk (runFirst c i aQ hQ aK hK aV hV aO hO aM hM aL hL aA hA h1 h2 xq xk xv).1)

/-- The pieces the first-tile run wrote into the reference point tile it, so they cover it. -/
theorem cover_mFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) (y : S1x1024x1.Idx) :
    ∃ pc ∈ (runFirst c i aQ hQ aK hK aV hV aO hO aM hM aL hL aA hA h1 h2 xq xk xv).2.1, y ∈ pc.1.set :=
  View.cover_of_tiledL (runFirst c i aQ hQ aK hK aV hV aO hO aM hM aL hL aA hA h1 h2 xq xk xv).2.1 S1x1024x1.size (by sl_kernel_rfl) y
/-- What the first-tile run leaves in the reference point: its pieces read back. -/
def mFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) : Vec F S1x1024x1 .f32 :=
  viewM.read (Elt F) (viewM.writes (Elt F) viewM.junk (runFirst c i aQ hQ aK hK aV hV aO hO aM hM aL hL aA hA h1 h2 xq xk xv).2.1)

/-- The pieces the first-tile run wrote into the denominator tile it, so they cover it. -/
theorem cover_lFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) (y : S1x1024x1.Idx) :
    ∃ pc ∈ (runFirst c i aQ hQ aK hK aV hV aO hO aM hM aL hL aA hA h1 h2 xq xk xv).2.2.1, y ∈ pc.1.set :=
  View.cover_of_tiledL (runFirst c i aQ hQ aK hK aV hV aO hO aM hM aL hL aA hA h1 h2 xq xk xv).2.2.1 S1x1024x1.size (by sl_kernel_rfl) y
/-- What the first-tile run leaves in the denominator: its pieces read back. -/
def lFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) : Vec F S1x1024x1 .f32 :=
  viewL.read (Elt F) (viewL.writes (Elt F) viewL.junk (runFirst c i aQ hQ aK hK aV hV aO hO aM hM aL hL aA hA h1 h2 xq xk xv).2.2.1)

/-- The pieces the first-tile run wrote into the numerator tile it, so they cover it. -/
theorem cover_aFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) (y : S1x1024x1024.Idx) :
    ∃ pc ∈ (runFirst c i aQ hQ aK hK aV hV aO hO aM hM aL hL aA hA h1 h2 xq xk xv).2.2.2.1, y ∈ pc.1.set :=
  View.cover_of_tiledL (runFirst c i aQ hQ aK hK aV hV aO hO aM hM aL hL aA hA h1 h2 xq xk xv).2.2.2.1 S1x1024x1024.size (by sl_kernel_rfl) y
/-- What the first-tile run leaves in the numerator: its pieces read back. -/
def aFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) : Vec F S1x1024x1024 .f32 :=
  viewA.read (Elt F) (viewA.writes (Elt F) viewA.junk (runFirst c i aQ hQ aK hK aV hV aO hO aM hM aL hL aA hA h1 h2 xq xk xv).2.2.2.1)

/-- What the middle-tile run leaves in the output tile: its pieces read back (none: a placeholder nothing consults, the window being idle there). -/
def oMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1024 .f32 :=
  viewO.read (Elt F) (viewO.writes (Elt F) viewO.junk (runMiddle c i aQ hQ aK hK aV hV aO hO aM hM aL hL aA hA h1 h2 xq xk xv xm xl xa).1)

/-- The pieces the middle-tile run wrote into the reference point tile it, so they cover it. -/
theorem cover_mMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1.Idx) :
    ∃ pc ∈ (runMiddle c i aQ hQ aK hK aV hV aO hO aM hM aL hL aA hA h1 h2 xq xk xv xm xl xa).2.1, y ∈ pc.1.set :=
  View.cover_of_tiledL (runMiddle c i aQ hQ aK hK aV hV aO hO aM hM aL hL aA hA h1 h2 xq xk xv xm xl xa).2.1 S1x1024x1.size (by sl_kernel_rfl) y
/-- What the middle-tile run leaves in the reference point: its pieces read back. -/
def mMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1 .f32 :=
  viewM.read (Elt F) (viewM.writes (Elt F) viewM.junk (runMiddle c i aQ hQ aK hK aV hV aO hO aM hM aL hL aA hA h1 h2 xq xk xv xm xl xa).2.1)

/-- The pieces the middle-tile run wrote into the denominator tile it, so they cover it. -/
theorem cover_lMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1.Idx) :
    ∃ pc ∈ (runMiddle c i aQ hQ aK hK aV hV aO hO aM hM aL hL aA hA h1 h2 xq xk xv xm xl xa).2.2.1, y ∈ pc.1.set :=
  View.cover_of_tiledL (runMiddle c i aQ hQ aK hK aV hV aO hO aM hM aL hL aA hA h1 h2 xq xk xv xm xl xa).2.2.1 S1x1024x1.size (by sl_kernel_rfl) y
/-- What the middle-tile run leaves in the denominator: its pieces read back. -/
def lMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1 .f32 :=
  viewL.read (Elt F) (viewL.writes (Elt F) viewL.junk (runMiddle c i aQ hQ aK hK aV hV aO hO aM hM aL hL aA hA h1 h2 xq xk xv xm xl xa).2.2.1)

/-- The pieces the middle-tile run wrote into the numerator tile it, so they cover it. -/
theorem cover_aMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1024.Idx) :
    ∃ pc ∈ (runMiddle c i aQ hQ aK hK aV hV aO hO aM hM aL hL aA hA h1 h2 xq xk xv xm xl xa).2.2.2.1, y ∈ pc.1.set :=
  View.cover_of_tiledL (runMiddle c i aQ hQ aK hK aV hV aO hO aM hM aL hL aA hA h1 h2 xq xk xv xm xl xa).2.2.2.1 S1x1024x1024.size (by sl_kernel_rfl) y
/-- What the middle-tile run leaves in the numerator: its pieces read back. -/
def aMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1024 .f32 :=
  viewA.read (Elt F) (viewA.writes (Elt F) viewA.junk (runMiddle c i aQ hQ aK hK aV hV aO hO aM hM aL hL aA hA h1 h2 xq xk xv xm xl xa).2.2.2.1)

/-- The pieces the last-tile run wrote into the output tile tile it, so they cover it. -/
theorem cover_oLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1024.Idx) :
    ∃ pc ∈ (runLast c i aQ hQ aK hK aV hV aO hO aM hM aL hL aA hA h1 h2 xq xk xv xm xl xa).1, y ∈ pc.1.set :=
  View.cover_of_tiledL (runLast c i aQ hQ aK hK aV hV aO hO aM hM aL hL aA hA h1 h2 xq xk xv xm xl xa).1 S1x1024x1024.size (by sl_kernel_rfl) y
/-- What the last-tile run leaves in the output tile: its pieces read back. -/
def oLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1024 .f32 :=
  viewO.read (Elt F) (viewO.writes (Elt F) viewO.junk (runLast c i aQ hQ aK hK aV hV aO hO aM hM aL hL aA hA h1 h2 xq xk xv xm xl xa).1)

/-- The pieces the last-tile run wrote into the reference point tile it, so they cover it. -/
theorem cover_mLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1.Idx) :
    ∃ pc ∈ (runLast c i aQ hQ aK hK aV hV aO hO aM hM aL hL aA hA h1 h2 xq xk xv xm xl xa).2.1, y ∈ pc.1.set :=
  View.cover_of_tiledL (runLast c i aQ hQ aK hK aV hV aO hO aM hM aL hL aA hA h1 h2 xq xk xv xm xl xa).2.1 S1x1024x1.size (by sl_kernel_rfl) y
/-- What the last-tile run leaves in the reference point: its pieces read back. -/
def mLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1 .f32 :=
  viewM.read (Elt F) (viewM.writes (Elt F) viewM.junk (runLast c i aQ hQ aK hK aV hV aO hO aM hM aL hL aA hA h1 h2 xq xk xv xm xl xa).2.1)

/-- The pieces the last-tile run wrote into the denominator tile it, so they cover it. -/
theorem cover_lLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1.Idx) :
    ∃ pc ∈ (runLast c i aQ hQ aK hK aV hV aO hO aM hM aL hL aA hA h1 h2 xq xk xv xm xl xa).2.2.1, y ∈ pc.1.set :=
  View.cover_of_tiledL (runLast c i aQ hQ aK hK aV hV aO hO aM hM aL hL aA hA h1 h2 xq xk xv xm xl xa).2.2.1 S1x1024x1.size (by sl_kernel_rfl) y
/-- What the last-tile run leaves in the denominator: its pieces read back. -/
def lLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1 .f32 :=
  viewL.read (Elt F) (viewL.writes (Elt F) viewL.junk (runLast c i aQ hQ aK hK aV hV aO hO aM hM aL hL aA hA h1 h2 xq xk xv xm xl xa).2.2.1)

/-- The pieces the last-tile run wrote into the numerator tile it, so they cover it. -/
theorem cover_aLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1024.Idx) :
    ∃ pc ∈ (runLast c i aQ hQ aK hK aV hV aO hO aM hM aL hL aA hA h1 h2 xq xk xv xm xl xa).2.2.2.1, y ∈ pc.1.set :=
  View.cover_of_tiledL (runLast c i aQ hQ aK hK aV hV aO hO aM hM aL hL aA hA h1 h2 xq xk xv xm xl xa).2.2.2.1 S1x1024x1024.size (by sl_kernel_rfl) y
/-- What the last-tile run leaves in the numerator: its pieces read back. -/
def aLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1024 .f32 :=
  viewA.read (Elt F) (viewA.writes (Elt F) viewA.junk (runLast c i aQ hQ aK hK aV hV aO hO aM hM aL hL aA hA h1 h2 xq xk xv xm xl xa).2.2.2.1)

-- the TensorCore's buffer contents when the region is entered
variable (V : (c : Dev nD) → (b : Ref sig .tc) → Buf (Elt F) ((c : Thread nD τ).loc b))

/-- Window `w`'s block at point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem held1_in0_of {c : Dev nD} (dat : Dat τ (Elt F) Unit ℕ (Pipeline.UD sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
theorem held1_in1_of {c : Dev nD} (dat : Dat τ (Elt F) Unit ℕ (Pipeline.UD sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
theorem held1_in2_of {c : Dev nD} (dat : Dat τ (Elt F) Unit ℕ (Pipeline.UD sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-! ## The state after each point -/

/-- (output tile, m, l, acc) after the body at position `n`: the case the position is in, run at the point's memrefs
    and input blocks, the scratch entering at what position `n - 1` left. -/
def stateAt (c : Dev nD) : (n : ℕ) → n < cfg1.N → Vec F S1x1024x1024 .f32 × Vec F S1x1024x1 .f32 × Vec F S1x1024x1 .f32 × Vec F S1x1024x1024 .f32
  | 0, hn => (oFirst c (grid1.coords ⟨0, hn⟩) (stQ ⟨0, hn⟩) (hstQ ⟨0, hn⟩) (stK ⟨0, hn⟩) (hstK ⟨0, hn⟩) (stV ⟨0, hn⟩) (hstV ⟨0, hn⟩) (stO ⟨0, hn⟩) (hstO ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blockAt1 V c 0 ⟨0, hn⟩) (blockAt1 V c 1 ⟨0, hn⟩) (blockAt1 V c 2 ⟨0, hn⟩),
          mFirst c (grid1.coords ⟨0, hn⟩) (stQ ⟨0, hn⟩) (hstQ ⟨0, hn⟩) (stK ⟨0, hn⟩) (hstK ⟨0, hn⟩) (stV ⟨0, hn⟩) (hstV ⟨0, hn⟩) (stO ⟨0, hn⟩) (hstO ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blockAt1 V c 0 ⟨0, hn⟩) (blockAt1 V c 1 ⟨0, hn⟩) (blockAt1 V c 2 ⟨0, hn⟩),
          lFirst c (grid1.coords ⟨0, hn⟩) (stQ ⟨0, hn⟩) (hstQ ⟨0, hn⟩) (stK ⟨0, hn⟩) (hstK ⟨0, hn⟩) (stV ⟨0, hn⟩) (hstV ⟨0, hn⟩) (stO ⟨0, hn⟩) (hstO ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blockAt1 V c 0 ⟨0, hn⟩) (blockAt1 V c 1 ⟨0, hn⟩) (blockAt1 V c 2 ⟨0, hn⟩),
          aFirst c (grid1.coords ⟨0, hn⟩) (stQ ⟨0, hn⟩) (hstQ ⟨0, hn⟩) (stK ⟨0, hn⟩) (hstK ⟨0, hn⟩) (stV ⟨0, hn⟩) (hstV ⟨0, hn⟩) (stO ⟨0, hn⟩) (hstO ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blockAt1 V c 0 ⟨0, hn⟩) (blockAt1 V c 1 ⟨0, hn⟩) (blockAt1 V c 2 ⟨0, hn⟩))
  | n + 1, hn =>
    if h0 : (n + 1) % 4 = 0 then
      if h3 : (n + 1) % 4 = 3 then
        False.elim (by omega)
      else
        (oFirst c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) ((isFirst_iff ⟨n + 1, hn⟩).mpr h0) (fun h => h3 ((isLast_iff ⟨n + 1, hn⟩).mp h)) (blockAt1 V c 0 ⟨n + 1, hn⟩) (blockAt1 V c 1 ⟨n + 1, hn⟩) (blockAt1 V c 2 ⟨n + 1, hn⟩),
          mFirst c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) ((isFirst_iff ⟨n + 1, hn⟩).mpr h0) (fun h => h3 ((isLast_iff ⟨n + 1, hn⟩).mp h)) (blockAt1 V c 0 ⟨n + 1, hn⟩) (blockAt1 V c 1 ⟨n + 1, hn⟩) (blockAt1 V c 2 ⟨n + 1, hn⟩),
          lFirst c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) ((isFirst_iff ⟨n + 1, hn⟩).mpr h0) (fun h => h3 ((isLast_iff ⟨n + 1, hn⟩).mp h)) (blockAt1 V c 0 ⟨n + 1, hn⟩) (blockAt1 V c 1 ⟨n + 1, hn⟩) (blockAt1 V c 2 ⟨n + 1, hn⟩),
          aFirst c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) ((isFirst_iff ⟨n + 1, hn⟩).mpr h0) (fun h => h3 ((isLast_iff ⟨n + 1, hn⟩).mp h)) (blockAt1 V c 0 ⟨n + 1, hn⟩) (blockAt1 V c 1 ⟨n + 1, hn⟩) (blockAt1 V c 2 ⟨n + 1, hn⟩))
    else
      if h3 : (n + 1) % 4 = 3 then
        (oLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h3) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          mLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h3) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          lLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h3) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          aLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h3) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2)
      else
        (oMiddle c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) (fun h => h3 ((isLast_iff ⟨n + 1, hn⟩).mp h)) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          mMiddle c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) (fun h => h3 ((isLast_iff ⟨n + 1, hn⟩).mp h)) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          lMiddle c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) (fun h => h3 ((isLast_iff ⟨n + 1, hn⟩).mp h)) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          aMiddle c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) (fun h => h3 ((isLast_iff ⟨n + 1, hn⟩).mp h)) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2)

theorem stateAt_first (c : Dev nD) (t : Fin cfg1.N) (h0 : t.val % 4 = 0) (h3 : ¬t.val % 4 = 3) :
    stateAt V c t.val t.isLt = (oFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t),
          mFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t),
          lFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t),
          aFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t)) := by
  obtain ⟨n, hn⟩ := t
  cases n with
  | zero => exact rfl
  | succ n => exact (dif_pos h0).trans ((dif_neg h3).trans rfl)

theorem stateAt_middle (c : Dev nD) (t : Fin cfg1.N) (h0 : ¬t.val % 4 = 0) (h3 : ¬t.val % 4 = 3) :
    stateAt V c t.val t.isLt = (oMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          mMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          lMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          aMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2) := by
  obtain ⟨n, hn⟩ := t
  cases n with
  | zero => exact (by exfalso; (try dsimp only at h0); exact absurd (Nat.zero_mod _) h0)
  | succ n => exact (dif_neg h0).trans ((dif_neg h3).trans rfl)

theorem stateAt_last (c : Dev nD) (t : Fin cfg1.N) (h0 : ¬t.val % 4 = 0) (h3 : t.val % 4 = 3) :
    stateAt V c t.val t.isLt = (oLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          mLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          lLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          aLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2) := by
  obtain ⟨n, hn⟩ := t
  cases n with
  | zero => exact (by exfalso; (try dsimp only at h0); exact absurd (Nat.zero_mod _) h0)
  | succ n => exact (dif_neg h0).trans ((dif_pos h3).trans rfl)

/-! ## The invariant between points -/

/-- Before position `n`: at the start the class's invariant (the scratch at anything); afterwards the three scratch
    buffers at what position `n - 1` left, every other scoped buffer at some contents, the generator register at some state. -/
def carried (c : Dev nD) : (n : ℕ) → n ≤ cfg1.N → sProp 𝕄
  | 0, _ => Pipeline.ΦA spec1 c
  | n + 1, hn => iprop(iprop((owns (c : Thread nD τ) scM fullShare (stateAt V c n hn).2.1 ∗ owns (c : Thread nD τ) scL fullShare (stateAt V c n hn).2.2.1 ∗ owns (c : Thread nD τ) scA fullShare (stateAt V c n hn).2.2.2) ∗ others c) ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop(iprop((owns (c : Thread nD τ) scM fullShare (stateAt V c n hn).2.1 ∗ owns (c : Thread nD τ) scL fullShare (stateAt V c n hn).2.2.1 ∗ owns (c : Thread nD τ) scA fullShare (stateAt V c n hn).2.2.2) ∗ others c) ∗ (∃ r, prngReg c r)) := rfl

theorem carried_pos (c : Dev nD) (n : ℕ) (h : n ≤ cfg1.N) (hz : n ≠ 0) :
    carried V c n h = iprop(iprop((owns (c : Thread nD τ) scM fullShare (stateAt V c (n - 1) (by omega)).2.1 ∗ owns (c : Thread nD τ) scL fullShare (stateAt V c (n - 1) (by omega)).2.2.1 ∗ owns (c : Thread nD τ) scA fullShare (stateAt V c (n - 1) (by omega)).2.2.2) ∗ others c) ∗ (∃ r, prngReg c r)) := by
  cases n with
  | zero => exact absurd rfl hz
  | succ n => rfl

/-! ## The proof data -/

def flashData (c : Dev nD) : Dat τ (Elt F) Unit ℕ (Pipeline.UD sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => (stateAt V c t.val t.isLt).1
  Φ t := carried V c t.val (Nat.le_of_lt_succ t.isLt)
  q _ := fullShare
  owed _ := 0

theorem entry1_eq (c : Dev nD) (w : Fin cfg1.W) : (flashData V c).A w = V c (Pipeline.arrRef spec1 w) := by
  dsimp only [flashData]

theorem carried_castSucc (c : Dev nD) (t : Fin cfg1.N) :
    (flashData V c).Φ t.castSucc = carried V c t.val (Nat.le_of_lt t.isLt) := by
  dsimp only [flashData]; simp only [Fin.coe_castSucc]

theorem after1_q (c : Dev nD) (t : Fin cfg1.N) : (flashData V c).after 0 t = blockAt1 V c 0 t := by dsimp only [flashData]
theorem after1_k (c : Dev nD) (t : Fin cfg1.N) : (flashData V c).after 1 t = blockAt1 V c 1 t := by dsimp only [flashData]
theorem after1_v (c : Dev nD) (t : Fin cfg1.N) : (flashData V c).after 2 t = blockAt1 V c 2 t := by dsimp only [flashData]
theorem after1_o (c : Dev nD) (t : Fin cfg1.N) : (flashData V c).after 3 t = (stateAt V c t.val t.isLt).1 := by dsimp only [flashData]

theorem held1_q (c : Dev nD) (t : Fin cfg1.N) (d) : (flashData V c).before 0 t d = blockAt1 V c 0 t :=
  held1_in0_of V (flashData V c) (entry1_eq V c 0) (after1_q V c) t d
theorem held1_k (c : Dev nD) (t : Fin cfg1.N) (d) : (flashData V c).before 1 t d = blockAt1 V c 1 t :=
  held1_in1_of V (flashData V c) (entry1_eq V c 1) (after1_k V c) t d
theorem held1_v (c : Dev nD) (t : Fin cfg1.N) (d) : (flashData V c).before 2 t d = blockAt1 V c 2 t :=
  held1_in2_of V (flashData V c) (entry1_eq V c 2) (after1_v V c) t d

/-! ## The body obligation -/

def flashPre (c : Dev nD) (t : Fin cfg1.N) : sProp 𝕄 :=
  iprop((flashData V c).Φ t.castSucc ∗ (flashData V c).owesAt () t.castSucc
    ∗ (∃ d, owns (c : Thread nD τ) (stQ t) fullShare ((flashData V c).before 0 t d))
    ∗ (∃ d, owns (c : Thread nD τ) (stK t) fullShare ((flashData V c).before 1 t d))
    ∗ (∃ d, owns (c : Thread nD τ) (stV t) fullShare ((flashData V c).before 2 t d))
    ∗ (∃ d, owns (c : Thread nD τ) (stO t) fullShare ((flashData V c).before 3 t d)))

def flashPost (c : Dev nD) (t : Fin cfg1.N) : sProp 𝕄 :=
  iprop((flashData V c).Φ t.succ ∗ (flashData V c).owesAt () t.succ
    ∗ (flashData V c).leavesExact 0 t
    ∗ (flashData V c).leavesExact 1 t
    ∗ (flashData V c).leavesExact 2 t
    ∗ (flashData V c).leavesExact 3 t)

set_option maxHeartbeats 8000000 in
/-- The body at any point: which case the point is in is decided by its position; the invariant hands the body the
    scratch at what the point before left (at anything before the first point) and takes it back at this point's contents. -/
theorem flash_point (c : Dev nD) (t : Fin cfg1.N) :
    flashPre V c t ⊢ wp frame (wpE (defs₀ (F := F)) Variants.none c none) Set.univ (bodyAt1 t) (fun _ => flashPost V c t) := by
  unfold flashPre flashPost bodyAt1
  simp only [held1_q, held1_k, held1_v]
  rw [show (flashData V c).owesAt () t.succ = (flashData V c).owesAt () t.castSucc from rfl]
  rw [show (flashData V c).Φ t.succ = carried V c (t.val + 1) t.isLt from rfl, carried_succ]
  have hN : t.val < 32 := lt_of_lt_of_eq t.isLt (show cfg1.N = 32 from N_1)
  rw [show (flashData V c).leavesExact 0 t = owns (c : Thread nD τ) (stQ t) fullShare ((flashData V c).after 0 t) from by
        unfold Dat.leavesExact; rw [live_q t], after1_q]
  rw [show (flashData V c).leavesExact 1 t = owns (c : Thread nD τ) (stK t) fullShare ((flashData V c).after 1 t) from by
        unfold Dat.leavesExact; rw [live_k t], after1_k]
  rw [show (flashData V c).leavesExact 2 t = owns (c : Thread nD τ) (stV t) fullShare ((flashData V c).after 2 t) from by
        unfold Dat.leavesExact; rw [live_v t], after1_v]
  by_cases h0 : t.val % 4 = 0
  · have h3 : ¬t.val % 4 = 3 := by omega
    rw [Dat.leavesExact_idle (flashData V c) 3 t (idle_out t (fun h => h3 ((isLast_iff t).mp h))) (noFlush_out t (fun h => h3 ((isLast_iff t).mp h)))]
    rw [stateAt_first V c t h0 h3]
    unfold mFirst lFirst aFirst; (try dsimp only)
    by_cases hz : t.val = 0
    · rw [carried_castSucc V c t, carried_zero V c _ _ hz, classInv_eq]
      iintro ⟨⟨⟨⟨HM, HL, HA⟩, Hoth⟩, Hg⟩, Ho, ⟨%d0, H0⟩, ⟨%d1, H1⟩, ⟨%d2, H2⟩, ⟨%d3, H3⟩⟩
      iapply ((runFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t)).2.2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%em, HM⟩, ⟨%el, HL⟩, ⟨%ea, HA⟩⟩
      isplitl [HM HL HA Hoth Hg]
      · isplitl [HM HL HA Hoth]
        · isplitl [HM HL HA]
          · isplitl [HM]
            · unfold owns; iexists _; isplitr
              swap; · iexact HM
              ipureintro; exact View.read_writes_of_cover _ _ _ _ _ (cover_mFirst c _ _ _ _ _ _ _ _ _ _ _ _ _ _ _ _ _ _ _ _ )
            isplitl [HL]
            · unfold owns; iexists _; isplitr
              swap; · iexact HL
              ipureintro; exact View.read_writes_of_cover _ _ _ _ _ (cover_lFirst c _ _ _ _ _ _ _ _ _ _ _ _ _ _ _ _ _ _ _ _ )
            unfold owns; iexists _; isplitr
            swap; · iexact HA
            ipureintro; exact View.read_writes_of_cover _ _ _ _ _ (cover_aFirst c _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      iexists _; iexact H3
    · rw [carried_castSucc V c t, carried_pos V c _ _ hz]
      iintro ⟨⟨⟨⟨HM, HL, HA⟩, Hoth⟩, Hg⟩, Ho, ⟨%d0, H0⟩, ⟨%d1, H1⟩, ⟨%d2, H2⟩, ⟨%d3, H3⟩⟩
      iapply ((runFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t)).2.2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%em, HM⟩, ⟨%el, HL⟩, ⟨%ea, HA⟩⟩
      isplitl [HM HL HA Hoth Hg]
      · isplitl [HM HL HA Hoth]
        · isplitl [HM HL HA]
          · isplitl [HM]
            · unfold owns; iexists _; isplitr
              swap; · iexact HM
              ipureintro; exact View.read_writes_of_cover _ _ _ _ _ (cover_mFirst c _ _ _ _ _ _ _ _ _ _ _ _ _ _ _ _ _ _ _ _ )
            isplitl [HL]
            · unfold owns; iexists _; isplitr
              swap; · iexact HL
              ipureintro; exact View.read_writes_of_cover _ _ _ _ _ (cover_lFirst c _ _ _ _ _ _ _ _ _ _ _ _ _ _ _ _ _ _ _ _ )
            unfold owns; iexists _; isplitr
            swap; · iexact HA
            ipureintro; exact View.read_writes_of_cover _ _ _ _ _ (cover_aFirst c _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      iexists _; iexact H3
  · have hz : t.val ≠ 0 := by omega
    by_cases h3 : t.val % 4 = 3
    · rw [show (flashData V c).leavesExact 3 t = owns (c : Thread nD τ) (stO t) fullShare ((flashData V c).after 3 t) from by
        unfold Dat.leavesExact; rw [live_out t ((isLast_iff t).mpr h3)], after1_o]
      rw [stateAt_last V c t h0 h3]
      unfold oLast mLast lLast aLast; (try dsimp only)
      rw [carried_castSucc V c t, carried_pos V c _ _ hz]
      iintro ⟨⟨⟨⟨HM, HL, HA⟩, Hoth⟩, Hg⟩, Ho, ⟨%d0, H0⟩, ⟨%d1, H1⟩, ⟨%d2, H2⟩, ⟨%d3, H3⟩⟩
      iapply ((runLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%eo, H3⟩, ⟨%em, HM⟩, ⟨%el, HL⟩, ⟨%ea, HA⟩⟩
      isplitl [HM HL HA Hoth Hg]
      · isplitl [HM HL HA Hoth]
        · isplitl [HM HL HA]
          · isplitl [HM]
            · unfold owns; iexists _; isplitr
              swap; · iexact HM
              ipureintro; exact View.read_writes_of_cover _ _ _ _ _ (cover_mLast c _ _ _ _ _ _ _ _ _ _ _ _ _ _ _ _ _ _ _ _ _ _ _ )
            isplitl [HL]
            · unfold owns; iexists _; isplitr
              swap; · iexact HL
              ipureintro; exact View.read_writes_of_cover _ _ _ _ _ (cover_lLast c _ _ _ _ _ _ _ _ _ _ _ _ _ _ _ _ _ _ _ _ _ _ _ )
            unfold owns; iexists _; isplitr
            swap; · iexact HA
            ipureintro; exact View.read_writes_of_cover _ _ _ _ _ (cover_aLast c _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_oLast c _ _ _ _ _ _ _ _ _ _ _ _ _ _ _ _ _ _ _ _ _ _ _ )
    · rw [Dat.leavesExact_idle (flashData V c) 3 t (idle_out t (fun h => h3 ((isLast_iff t).mp h))) (noFlush_out t (fun h => h3 ((isLast_iff t).mp h)))]
      rw [stateAt_middle V c t h0 h3]
      unfold mMiddle lMiddle aMiddle; (try dsimp only)
      rw [carried_castSucc V c t, carried_pos V c _ _ hz]
      iintro ⟨⟨⟨⟨HM, HL, HA⟩, Hoth⟩, Hg⟩, Ho, ⟨%d0, H0⟩, ⟨%d1, H1⟩, ⟨%d2, H2⟩, ⟨%d3, H3⟩⟩
      iapply ((runMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) _ _ _).2.2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%em, HM⟩, ⟨%el, HL⟩, ⟨%ea, HA⟩⟩
      isplitl [HM HL HA Hoth Hg]
      · isplitl [HM HL HA Hoth]
        · isplitl [HM HL HA]
          · isplitl [HM]
            · unfold owns; iexists _; isplitr
              swap; · iexact HM
              ipureintro; exact View.read_writes_of_cover _ _ _ _ _ (cover_mMiddle c _ _ _ _ _ _ _ _ _ _ _ _ _ _ _ _ _ _ _ _ _ _ _ )
            isplitl [HL]
            · unfold owns; iexists _; isplitr
              swap; · iexact HL
              ipureintro; exact View.read_writes_of_cover _ _ _ _ _ (cover_lMiddle c _ _ _ _ _ _ _ _ _ _ _ _ _ _ _ _ _ _ _ _ _ _ _ )
            unfold owns; iexists _; isplitr
            swap; · iexact HA
            ipureintro; exact View.read_writes_of_cover _ _ _ _ _ (cover_aMiddle c _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      iexists _; iexact H3

theorem flash_obligation (c : Dev nD) : BodyObligation (flashData (F := F) V c) (defs₀ (F := F)) Variants.none () Set.univ := fun t => by
  rw [bigSep_W1, bigSep_W1]
  exact flash_point V c t

/-- What the region is entered with is the invariant before the first point. -/
theorem carried_in (c : Dev nD) : Pipeline.ΦA spec1 c ⊢ (flashData V c).Φ 0 := by
  rw [show (flashData V c).Φ 0 = carried V c 0 (Nat.zero_le _) from rfl, carried_zero V c 0 _ rfl]
  try exact Idealize.SL.BI.Entails.refl _

/-- After the last point the invariant gives the class's back: the scratch's named contents are forgotten. -/
theorem carried_out (c : Dev nD) : (flashData V c).Φ (Fin.last cfg1.N) ⊢ Pipeline.ΦA spec1 c := by
  have hne : (Fin.last cfg1.N).val ≠ 0 := by rw [Fin.val_last]; exact (by decide : cfg1.N ≠ 0)
  rw [show (flashData V c).Φ (Fin.last cfg1.N) = carried V c (Fin.last cfg1.N).val (Nat.le_of_lt_succ (Fin.last cfg1.N).isLt) from rfl,
    carried_pos V c _ _ hne, classInv_eq]
  iintro ⟨⟨⟨HM, HL, HA⟩, Hoth⟩, Hg⟩
  isplitl [HM HL HA Hoth]
  · isplitl [HM HL HA]
    · isplitl [HM]; · iexists _; iexact HM
      isplitl [HL]; · iexists _; iexact HL
      iexists _; iexact HA
    iexact Hoth
  iexact Hg

end Cert.Proof.FlashIdeal

end
-- ==== Proof.RunIdeal.lean ====
/-
  The whole run of the kernel program.

  @main is: seven host operations (a reshape of x, a transpose and a change of format per weight), the projection
  region, three reshapes of its results, the attention region. The contents of the unscoped buffers are followed
  through these five boundaries: at launch; after the first host stretch; after the projection region (its three
  output arrays at what the pipeline leaves, everything else as before); after the reshapes; after the attention
  region. Every weakly fair execution terminates, faults nowhere, and ends with every unscoped buffer at the last
  of these — in particular the seven arguments as launched, and the result at what the attention region's pipeline
  leaves in its output array.
-/
import proofs.«159669_j21612275434249_2_alg».proof.Proof.FlashRegionIdeal
import proofs.«159669_j21612275434249_2_alg».proof.Proof.Gen.KernelIdeal.Regions

set_option maxRecDepth 16384

noncomputable section

namespace Cert.Proof.RunIdeal

open Cert.KernelIdeal Cert.KernelIdeal.Gen Cert.Proof.ProjIdeal Cert.Proof.FlashIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the five boundaries -/

/-- At launch. -/
abbrev W0 : Dev nD → Valuation τ sig (Elt F) := fun c b => (s₀ m ρ).mem ((c : Dev nD), b)
/-- After the first host stretch: the projection region's entry. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (projData (V1 m ρ) c).arrAt w cfg0.N
theorem W2_arr (c : Dev nD) (w : Fin cfg0.W) :
    W2 m ρ c (Proc.devRef .tc (Pipeline.arrRef spec0 w)) = (projData (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (projData (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the three reshapes: the attention region's entry. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (flashData (V3 m ρ) c).arrAt w cfg1.N
theorem W4_arr (c : Dev nD) (w : Fin cfg1.W) :
    W4 m ρ c (Proc.devRef .tc (Pipeline.arrRef spec1 w)) = (flashData (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem left1 (c : Dev nD) (w : Fin cfg1.W) : (flashData (V3 m ρ) c).arrAt w cfg1.N = V4 m ρ c (Pipeline.arrRef spec1 w) :=
  (W4_arr m ρ c w).symm
theorem kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched

No host operation writes an argument; a region reads it through an input window (the three biases) or not at all. -/

theorem end_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem end_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem end_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((projData (V1 m ρ) c).arrAt_in 2 rfl _).trans (entry_eq (V1 m ρ) c 2))
    _ = W0 m ρ c (Proc.devRef .tc main_arg2) := StableHlo.after_of_writes_sub hostOps0 _ hostOps0_writes (by decide)
    _ = m ((c : Thread nD τ).loc main_arg2) := rfl
theorem end_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem end_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((projData (V1 m ρ) c).arrAt_in 4 rfl _).trans (entry_eq (V1 m ρ) c 4))
    _ = W0 m ρ c (Proc.devRef .tc main_arg4) := StableHlo.after_of_writes_sub hostOps0 _ hostOps0_writes (by decide)
    _ = m ((c : Thread nD τ).loc main_arg4) := rfl
theorem end_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem end_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 6).trans (((projData (V1 m ρ) c).arrAt_in 6 rfl _).trans (entry_eq (V1 m ρ) c 6))
    _ = W0 m ρ c (Proc.devRef .tc main_arg6) := StableHlo.after_of_writes_sub hostOps0 _ hostOps0_writes (by decide)
    _ = m ((c : Thread nD τ).loc main_arg6) := rfl

/-- The result ends at what the attention region's pipeline leaves in its output array. -/
theorem end_result (c : Dev nD) : W4 m ρ c (Proc.devRef .tc main_v11) = (flashData (V3 m ρ) c).arrAt 3 cfg1.N :=
  W4_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => projData (V1 m ρ) c
  | ⟨1, _⟩ => fun c => flashData (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at the second boundary, left at the third. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (proj_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at the fourth boundary, left at the fifth; between its
    points the scratch is tracked, and forgotten at the end. -/
def regFlash : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (flash_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (carried_in (V3 m ρ) c)
    unfold Pipeline.ΦA
    iintro ⟨Hp, -, Hr⟩
    isplitl [Hr]; · iexact Hr
    iexact Hp
  hout c := by
    rw [Pipeline.ownSems0_none]
    refine (carried_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (regProj m ρ),
    .host (hseg hostOps1 hostOps1_sub hostOps1_fresh (W2 m ρ)),
    .region (regFlash m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, faults nowhere,
    and ends with every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Proof.RunIdeal

end
-- ==== Proof.ProjBodyBits.lean ====
/-
  The projection body at one grid point.

  A point holds a tile of 512 rows of x, the three weight matrices (already transposed, resident across the grid) and
  the three bias rows. The body reads them whole and stores three whole tiles: the x-tile times a weight plus the bias
  broadcast down the rows, once each for queries, keys and values. Each output tile after the body is therefore the
  canon of a single store that covers it.
-/
import proofs.«159669_j21612275434249_2_alg».proof.Proof.Gen.Kernel.Launch
import proofs.«159669_j21612275434249_2_alg».proof.Proof.Gen.Kernel.Skeleton
import proofs.«159669_j21612275434249_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.ProjBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The whole 512 × 1024 tile, -/
abbrev tileRect : Rect S512x1024 := Rect.unit (s := S512x1024) ![0, 0] S512x1024.size inb_S512x1024_S512x1024_0_0
/-- the whole 1024 × 1024 weight, -/
abbrev weightRect : Rect S1024x1024 := Rect.unit (s := S1024x1024) ![0, 0] S1024x1024.size inb_S1024x1024_S1024x1024_0_0
/-- the whole bias row. -/
abbrev biasRect : Rect S1024 := Rect.unit (s := S1024) ![0] S1024.size inb_S1024_S1024_0

/-- The query tile after the body: x-tile · Wq + bq, stored whole. -/
def tileQ (x : Vec F S512x1024 .f32) (w : Vec F S1024x1024 .bf16) (b : Vec F S1024 .f32) : Vec F S512x1024 .bf16 :=
  View.canon [⟨tileRect, k0_pay2 (View.ld x tileRect) (View.ld w weightRect) (View.ld b biasRect)⟩]
/-- The key tile after the body: x-tile · Wk + bk, stored whole. -/
def tileK (x : Vec F S512x1024 .f32) (w : Vec F S1024x1024 .bf16) (b : Vec F S1024 .f32) : Vec F S512x1024 .bf16 :=
  View.canon [⟨tileRect, k0_pay3 (View.ld x tileRect) (View.ld w weightRect) (View.ld b biasRect)⟩]
/-- The value tile after the body: x-tile · Wv + bv, stored whole. -/
def tileV (x : Vec F S512x1024 .f32) (w : Vec F S1024x1024 .bf16) (b : Vec F S1024 .f32) : Vec F S512x1024 .bf16 :=
  View.canon [⟨tileRect, k0_pay4 (View.ld x tileRect) (View.ld w weightRect) (View.ld b biasRect)⟩]

/-- One store of the whole tile covers the tile. -/
theorem tile_covered (p : Vec F S512x1024 .bf16) (y : S512x1024.Idx) :
    ∃ pc ∈ ([⟨tileRect, p⟩] : List (View.Piece (Elt F) S512x1024 .bf16)), y ∈ pc.1.set :=
  View.cover_of_tiled [⟨tileRect, p⟩] S512x1024.size (by rfl) y

set_option maxHeartbeats 1000000 in
/-- THE BODY. With the seven input tiles held at their read contents and the three output tiles held at anything,
    the body runs to its return; the inputs are as they were and the outputs are the three projection tiles. -/
theorem proj_body (c : Dev nD) (E : Set ℕ) (i : grid0.Coords)
    (aX : Memref sig .tc .vmem S512x1024 .f32) (hX : aX.IsWhole)
    (aWq : Memref sig .tc .vmem S1024x1024 .bf16) (hWq : aWq.IsWhole) (aBq : Memref sig .tc .vmem S1024 .f32) (hBq : aBq.IsWhole)
    (aWk : Memref sig .tc .vmem S1024x1024 .bf16) (hWk : aWk.IsWhole) (aBk : Memref sig .tc .vmem S1024 .f32) (hBk : aBk.IsWhole)
    (aWv : Memref sig .tc .vmem S1024x1024 .bf16) (hWv : aWv.IsWhole) (aBv : Memref sig .tc .vmem S1024 .f32) (hBv : aBv.IsWhole)
    (aQ : Memref sig .tc .vmem S512x1024 .bf16) (hQ : aQ.IsWhole) (aK : Memref sig .tc .vmem S512x1024 .bf16) (hK : aK.IsWhole)
    (aV : Memref sig .tc .vmem S512x1024 .bf16) (hV : aV.IsWhole)
    (x : Vec F S512x1024 .f32) (wq : Vec F S1024x1024 .bf16) (bq : Vec F S1024 .f32) (wk : Vec F S1024x1024 .bf16) (bk : Vec F S1024 .f32)
    (wv : Vec F S1024x1024 .bf16) (bv : Vec F S1024 .f32) (Kont : PUnit → sProp 𝕄) :
    iprop(owns (c : Thread nD τ) aX fullShare x ∗ owns (c : Thread nD τ) aWq fullShare wq ∗ owns (c : Thread nD τ) aBq fullShare bq ∗ owns (c : Thread nD τ) aWk fullShare wk ∗ owns (c : Thread nD τ) aBk fullShare bk ∗ owns (c : Thread nD τ) aWv fullShare wv ∗ owns (c : Thread nD τ) aBv fullShare bv
        ∗ (∃ d, owns (c : Thread nD τ) aQ fullShare d) ∗ (∃ d, owns (c : Thread nD τ) aK fullShare d) ∗ (∃ d, owns (c : Thread nD τ) aV fullShare d)
        ∗ (iprop(owns (c : Thread nD τ) aX fullShare x ∗ owns (c : Thread nD τ) aWq fullShare wq ∗ owns (c : Thread nD τ) aBq fullShare bq ∗ owns (c : Thread nD τ) aWk fullShare wk ∗ owns (c : Thread nD τ) aBk fullShare bk ∗ owns (c : Thread nD τ) aWv fullShare wv ∗ owns (c : Thread nD τ) aBv fullShare bv
            ∗ owns (c : Thread nD τ) aQ fullShare (tileQ x wq bq) ∗ owns (c : Thread nD τ) aK fullShare (tileK x wk bk) ∗ owns (c : Thread nD τ) aV fullShare (tileV x wv bv)) -∗ Kont ⟨⟩))
      ⊢ wp frame (wpE (defs₀ (F := F)) Variants.none c none) E
          (cc0_qkv_proj_kernel i aX hX aWq hWq aBq hBq aWk hWk aBk hBk aWv hWv aBv hBv aQ hQ aK hK aV hV) Kont := by
  simp only [cc0_qkv_proj_kernel_eq_skeleton]; unfold cc0_qkv_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_covered _)
  isplitl [H8]
  · iexists _; isplitr
    swap; · iexact H8
    ipureintro
    exact View.read_writes_eq_canon _ _ _ (tile_covered _)
  iexists _; isplitr
  swap; · iexact H9
  ipureintro
  exact View.read_writes_eq_canon _ _ _ (tile_covered _)

end Cert.Proof.ProjBits

end
-- ==== Proof.ProjRegionBits.lean ====
/-
  The projection region's proof data.

  The region runs the projection body at 16 points, one tile of 512 rows of x each; the weights and biases are
  resident (their block index never moves). At a point every input window's buffer holds its block of the array as
  the region found it, and after the body the three output windows hold the three projection tiles of that point;
  the body keeps nothing between points, so the invariant is the class's (the scratch and the generator register,
  untouched).
-/
import proofs.«159669_j21612275434249_2_alg».proof.Proof.ProjBodyBits

set_option maxRecDepth 16384

noncomputable section

namespace Cert.Proof.ProjBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's buffer holds its block at every point, fetched there or not

For any proof data whose array is the entry contents and whose body leaves the block in place: where the window is
not fetched its block index has not moved since the last fetch. -/

theorem held_in0_of {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_in1_of {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_in2_of {c : Dev nD} (dat : Dat τ (Elt F) Unit ℕ (Pipeline.UD sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_in3_of {c : Dev nD} (dat : Dat τ (Elt F) Unit ℕ (Pipeline.UD sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_in4_of {c : Dev nD} (dat : Dat τ (Elt F) Unit ℕ (Pipeline.UD sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_in5_of {c : Dev nD} (dat : Dat τ (Elt F) Unit ℕ (Pipeline.UD sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_in6_of {c : Dev nD} (dat : Dat τ (Elt F) Unit ℕ (Pipeline.UD sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The proof data -/

/-- On core `c`: the arrays as the region finds them; after the body at point `t` each input at its block and each
    output at its projection tile of the input blocks; the class's invariant; nothing owed; full shares. -/
def projData (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => tileQ (blockAt V c 0 t) (blockAt V c 1 t) (blockAt V c 2 t)
    | ⟨8, _⟩ => tileK (blockAt V c 0 t) (blockAt V c 3 t) (blockAt V c 4 t)
    | ⟨9, _⟩ => tileV (blockAt V c 0 t) (blockAt V c 5 t) (blockAt V c 6 t)
  Φ _ := Pipeline.ΦA spec0 c
  q _ := fullShare
  owed _ := 0

theorem entry_eq (c : Dev nD) (w : Fin cfg0.W) : (projData V c).A w = V c (Pipeline.arrRef spec0 w) := by
  dsimp only [projData]

theorem after_in0 (c : Dev nD) (t : Fin cfg0.N) : (projData V c).after 0 t = blockAt V c 0 t := by dsimp only [projData]
theorem after_in1 (c : Dev nD) (t : Fin cfg0.N) : (projData V c).after 1 t = blockAt V c 1 t := by dsimp only [projData]
theorem after_in2 (c : Dev nD) (t : Fin cfg0.N) : (projData V c).after 2 t = blockAt V c 2 t := by dsimp only [projData]
theorem after_in3 (c : Dev nD) (t : Fin cfg0.N) : (projData V c).after 3 t = blockAt V c 3 t := by dsimp only [projData]
theorem after_in4 (c : Dev nD) (t : Fin cfg0.N) : (projData V c).after 4 t = blockAt V c 4 t := by dsimp only [projData]
theorem after_in5 (c : Dev nD) (t : Fin cfg0.N) : (projData V c).after 5 t = blockAt V c 5 t := by dsimp only [projData]
theorem after_in6 (c : Dev nD) (t : Fin cfg0.N) : (projData V c).after 6 t = blockAt V c 6 t := by dsimp only [projData]
theorem after_q (c : Dev nD) (t : Fin cfg0.N) : (projData V c).after 7 t = tileQ (blockAt V c 0 t) (blockAt V c 1 t) (blockAt V c 2 t) := by dsimp only [projData]
theorem after_k (c : Dev nD) (t : Fin cfg0.N) : (projData V c).after 8 t = tileK (blockAt V c 0 t) (blockAt V c 3 t) (blockAt V c 4 t) := by dsimp only [projData]
theorem after_v (c : Dev nD) (t : Fin cfg0.N) : (projData V c).after 9 t = tileV (blockAt V c 0 t) (blockAt V c 5 t) (blockAt V c 6 t) := by dsimp only [projData]

theorem held_in0 (c : Dev nD) (t : Fin cfg0.N) (d) : (projData V c).before 0 t d = blockAt V c 0 t :=
  held_in0_of V (projData V c) (entry_eq V c 0) (after_in0 V c) t d
theorem held_in1 (c : Dev nD) (t : Fin cfg0.N) (d) : (projData V c).before 1 t d = blockAt V c 1 t :=
  held_in1_of V (projData V c) (entry_eq V c 1) (after_in1 V c) t d
theorem held_in2 (c : Dev nD) (t : Fin cfg0.N) (d) : (projData V c).before 2 t d = blockAt V c 2 t :=
  held_in2_of V (projData V c) (entry_eq V c 2) (after_in2 V c) t d
theorem held_in3 (c : Dev nD) (t : Fin cfg0.N) (d) : (projData V c).before 3 t d = blockAt V c 3 t :=
  held_in3_of V (projData V c) (entry_eq V c 3) (after_in3 V c) t d
theorem held_in4 (c : Dev nD) (t : Fin cfg0.N) (d) : (projData V c).before 4 t d = blockAt V c 4 t :=
  held_in4_of V (projData V c) (entry_eq V c 4) (after_in4 V c) t d
theorem held_in5 (c : Dev nD) (t : Fin cfg0.N) (d) : (projData V c).before 5 t d = blockAt V c 5 t :=
  held_in5_of V (projData V c) (entry_eq V c 5) (after_in5 V c) t d
theorem held_in6 (c : Dev nD) (t : Fin cfg0.N) (d) : (projData V c).before 6 t d = blockAt V c 6 t :=
  held_in6_of V (projData V c) (entry_eq V c 6) (after_in6 V c) t d

/-! ## The body obligation -/

/-- What the body is called with at point `t`, the windows one by one, -/
def projPre (c : Dev nD) (t : Fin cfg0.N) : sProp 𝕄 :=
  iprop((projData V c).Φ t.castSucc ∗ (projData V c).owesAt () t.castSucc
    ∗ (∃ d, owns (c : Thread nD τ) (st0_0 t) fullShare ((projData V c).before 0 t d))
    ∗ (∃ d, owns (c : Thread nD τ) (st0_1 t) fullShare ((projData V c).before 1 t d))
    ∗ (∃ d, owns (c : Thread nD τ) (st0_2 t) fullShare ((projData V c).before 2 t d))
    ∗ (∃ d, owns (c : Thread nD τ) (st0_3 t) fullShare ((projData V c).before 3 t d))
    ∗ (∃ d, owns (c : Thread nD τ) (st0_4 t) fullShare ((projData V c).before 4 t d))
    ∗ (∃ d, owns (c : Thread nD τ) (st0_5 t) fullShare ((projData V c).before 5 t d))
    ∗ (∃ d, owns (c : Thread nD τ) (st0_6 t) fullShare ((projData V c).before 6 t d))
    ∗ (∃ d, owns (c : Thread nD τ) (st0_7 t) fullShare ((projData V c).before 7 t d))
    ∗ (∃ d, owns (c : Thread nD τ) (st0_8 t) fullShare ((projData V c).before 8 t d))
    ∗ (∃ d, owns (c : Thread nD τ) (st0_9 t) fullShare ((projData V c).before 9 t d)))

/-- and what it returns. -/
def projPost (c : Dev nD) (t : Fin cfg0.N) : sProp 𝕄 :=
  iprop((projData V c).Φ t.succ ∗ (projData V c).owesAt () t.succ
    ∗ owns (c : Thread nD τ) (st0_0 t) fullShare ((projData V c).after 0 t)
    ∗ owns (c : Thread nD τ) (st0_1 t) fullShare ((projData V c).after 1 t)
    ∗ owns (c : Thread nD τ) (st0_2 t) fullShare ((projData V c).after 2 t)
    ∗ owns (c : Thread nD τ) (st0_3 t) fullShare ((projData V c).after 3 t)
    ∗ owns (c : Thread nD τ) (st0_4 t) fullShare ((projData V c).after 4 t)
    ∗ owns (c : Thread nD τ) (st0_5 t) fullShare ((projData V c).after 5 t)
    ∗ owns (c : Thread nD τ) (st0_6 t) fullShare ((projData V c).after 6 t)
    ∗ owns (c : Thread nD τ) (st0_7 t) fullShare ((projData V c).after 7 t)
    ∗ owns (c : Thread nD τ) (st0_8 t) fullShare ((projData V c).after 8 t)
    ∗ owns (c : Thread nD τ) (st0_9 t) fullShare ((projData V c).after 9 t))

/-- The body at any point: the inputs hold their blocks, so the body's triple applies; the invariant and the core's
    `owes` pass through unread. -/
theorem proj_point (c : Dev nD) (t : Fin cfg0.N) :
    projPre V c t ⊢ wp frame (wpE (defs₀ (F := F)) Variants.none c none) Set.univ (bodyAt0 t) (fun _ => projPost V c t) := by
  unfold projPre projPost bodyAt0
  simp only [held_in0, held_in1, held_in2, held_in3, held_in4, held_in5, held_in6]
  rw [show (projData V c).Φ t.succ = (projData V c).Φ t.castSucc from rfl,
    show (projData V c).owesAt () t.succ = (projData V c).owesAt () t.castSucc from rfl,
    after_in0, after_in1, after_in2, after_in3, after_in4, after_in5, after_in6, after_q, after_k, after_v]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (proj_body c Set.univ (grid0.coords t) _ _ _ _ _ _ _ _ _ _ _ _ _ _ _ _ _ _ _ _
    (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem proj_obligation (c : Dev nD) : BodyObligation (projData (F := F) V c) (defs₀ (F := F)) Variants.none () Set.univ := fun t => by
  rw [bigSep_W0, bigSep_W0]
  exact proj_point V c t

end Cert.Proof.ProjBits

end
-- ==== Proof.FlashRunsBits.lean ====
/-
  The attention body at one grid point, in each of its three control cases.

  A point is (batch, query tile, key tile). The body keeps, per query row, a reference point m, a denominator l and
  a numerator row acc in three scratch buffers across the four key tiles of a query tile:
    * at the first key tile it first resets them (m := -∞, l := 0, acc := 0);
    * at every key tile it reads the query tile, the key tile and the value tile, forms the scaled scores,
      moves the reference point to the larger of the old one and the tile's row maximum, rescales l and acc by
      exp (old - new) and adds the tile's exponentials (times the values, for acc);
    * at the last key tile it also stores acc / l into the output tile; at the other key tiles the output tile is
      left untouched and not written back.
  So there are three cases: first (A), middle (B), last (C). In each, the run finds the pieces every written buffer
  ends with.
-/
import proofs.«159669_j21612275434249_2_alg».proof.Proof.ProjRegionBits

set_option maxRecDepth 16384

noncomputable section

namespace Cert.Proof.FlashBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions, in closed form over the grid -/

/-- "This is the first key tile", as the body computes it from the third grid coordinate. -/
abbrev isFirst (i : grid1.Coords) : Prop := (Scalar.cmpi .ne (Scalar.extui (Scalar.cmpi .eq (BitVec.ofNat 32 (i 2).val) 0#32)) 0#32) = 1#1
/-- It holds at the points ≡ 0 (mod 4): the key tile is the fastest axis of the grid. -/
theorem isFirst_iff : ∀ t : Fin cfg1.N, isFirst (grid1.coords t) ↔ t.val % 4 = 0 :=
  (by decide +kernel : ∀ t : Fin grid1.N, isFirst (grid1.coords t) ↔ t.val % 4 = 0)

/-- "This is the last key tile". -/
abbrev isLast (i : grid1.Coords) : Prop := k1_cond2 i = 1#1
/-- It holds at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Away from the last key tile nothing is stored into the output tile: the window is idle there, -/
theorem idle_out : ∀ t : Fin cfg1.N, ¬isLast (grid1.coords t) → cfg1.idle 3 (grid1.coords t) = true := by decide +kernel
/-- and not written back. -/
theorem noFlush_out : ∀ t : Fin cfg1.N, ¬isLast (grid1.coords t) → (cfg1.win 3).flush t = false := by decide +kernel
/-- At the last key tile it is live. -/
theorem live_out : ∀ t : Fin cfg1.N, isLast (grid1.coords t) → cfg1.idle 3 (grid1.coords t) = false := by decide +kernel

/-! ## The memrefs the body is called with -/

abbrev stQ (t : Fin cfg1.N) : Memref sig .tc .vmem S1x1024x1024 .bf16 := win1_0.stage (cfg1.slots t 0)
abbrev hstQ (t : Fin cfg1.N) : (stQ t).IsWhole := hstage1_0 ((cfg1.slots t 0).cast nbuf1_0)
abbrev stK (t : Fin cfg1.N) : Memref sig .tc .vmem S1x512x1024 .bf16 := win1_1.stage (cfg1.slots t 1)
abbrev hstK (t : Fin cfg1.N) : (stK t).IsWhole := hstage1_1 ((cfg1.slots t 1).cast nbuf1_1)
abbrev stV (t : Fin cfg1.N) : Memref sig .tc .vmem S1x512x1024 .bf16 := win1_2.stage (cfg1.slots t 2)
abbrev hstV (t : Fin cfg1.N) : (stV t).IsWhole := hstage1_2 ((cfg1.slots t 2).cast nbuf1_2)
abbrev stO (t : Fin cfg1.N) : Memref sig .tc .vmem S1x1024x1024 .f32 := win1_3.stage (cfg1.slots t 3)
abbrev hstO (t : Fin cfg1.N) : (stO t).IsWhole := hstage1_3 ((cfg1.slots t 3).cast nbuf1_3)
/-- The three scratch buffers: the reference point, the denominator, the numerator. -/
abbrev scM : Memref sig .tc .vmem S1x1024x1 .f32 := Memref.whole cc1_scratch0
abbrev scL : Memref sig .tc .vmem S1x1024x1 .f32 := Memref.whole cc1_scratch1
abbrev scA : Memref sig .tc .vmem S1x1024x1024 .f32 := Memref.whole cc1_scratch2
/-- Views through which the contents of the output tile and of the scratch are stated. -/
abbrev viewO : View sig .tc .vmem S1x1024x1024 .f32 := (Memref.whole cc1_stg3_0 : Memref sig .tc .vmem S1x1024x1024 .f32).view
abbrev viewM : View sig .tc .vmem S1x1024x1 .f32 := scM.view
abbrev viewL : View sig .tc .vmem S1x1024x1 .f32 := scL.view
abbrev viewA : View sig .tc .vmem S1x1024x1024 .f32 := scA.view

/-- Every other scoped buffer of the core (the projection region's staging buffers): carried along unopened. -/
abbrev others (c : Dev nD) : sProp 𝕄 :=
  Pipeline.scopedRestBut (Ix := Unit) (Name := ℕ) (U := Pipeline.UD sig nD τ) (Lvl := ℕ) (Val := Elt F) spec1 c [cc1_scratch0, cc1_scratch1, cc1_scratch2]

/-- The class's invariant with the three scratch buffers as memrefs owned at some contents. -/
theorem classInv_eq (c : Dev nD) :
    (Pipeline.ΦA spec1 c : sProp 𝕄)
      = iprop(iprop(((∃ d, owns (c : Thread nD τ) scM fullShare d) ∗ (∃ d, owns (c : Thread nD τ) scL fullShare d) ∗ (∃ d, owns (c : Thread nD τ) scA fullShare d)) ∗ others c) ∗ (∃ r, prngReg c r)) := by
  unfold Pipeline.ΦA
  rw [Pipeline.scopedRest_split_of_list spec1 c [cc1_scratch0, cc1_scratch1, cc1_scratch2] (by decide) (by decide)]
  simp only [scM, scL, scA, owns_whole, BI.bigSepL]
  rfl

/-! ## The body's triple, case by case -/

set_option maxHeartbeats 4000000 in
/-- FIRST key tile. The inputs at their contents, the output tile at contents handed back untouched, the scratch at anything: the body runs to its return with the three scratch buffers at the pieces it wrote (the reset, then the update). -/
noncomputable def runFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) :
    Σ' (LO : List (View.Piece (Elt F) S1x1024x1024 .f32)) (LM : List (View.Piece (Elt F) S1x1024x1 .f32)) (LL : List (View.Piece (Elt F) S1x1024x1 .f32)), { LA : List (View.Piece (Elt F) S1x1024x1024 .f32) //
      ∀ (xo : Vec F S1x1024x1024 .f32) (E : Set ℕ) (K : PUnit → sProp 𝕄),
        iprop(owns (c : Thread nD τ) aQ fullShare xq ∗ owns (c : Thread nD τ) aK fullShare xk ∗ owns (c : Thread nD τ) aV fullShare xv ∗ owns (c : Thread nD τ) aO fullShare xo ∗ (∃ d, owns (c : Thread nD τ) aM fullShare d) ∗ (∃ d, owns (c : Thread nD τ) aL fullShare d) ∗ (∃ d, owns (c : Thread nD τ) aA fullShare d)
            ∗ (iprop(owns (c : Thread nD τ) aQ fullShare xq ∗ owns (c : Thread nD τ) aK fullShare xk ∗ owns (c : Thread nD τ) aV fullShare xv ∗ owns (c : Thread nD τ) aO fullShare xo ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1_flash_attn_kernel i aQ hQ aK hK aV hV aO hO aM hM aL hL aA hA) K } := by
  refine ⟨[], ?_, ?_, ?_, fun xo E K => ?run⟩
  case run =>
    simp only [cc1_flash_attn_kernel_eq_skeleton]; unfold cc1_flash_attn_kernel_skel
    unfold owns
    iintro ⟨⟨%f0, %hf0, H0⟩, ⟨%f1, %hf1, H1⟩, ⟨%f2, %hf2, H2⟩, ⟨%f3, %hf3, H3⟩, ⟨%dm, %fm, -, HM⟩, ⟨%dl, %fl, -, HL⟩, ⟨%da, %fa, -, HA⟩, Hk⟩
    obtain rfl := hQ.eq_unread hf0; obtain rfl := hK.eq_unread hf1; obtain rfl := hV.eq_unread hf2; obtain rfl := hO.eq_unread hf3
    sl_exec (disch := first | exact h1 | exact h2)
    sl_step
    iapply Hk
    isplitl [H0]
    · iexists _; isplitr; · ipureintro; exact hQ.read_unread _
      iexact H0
    isplitl [H1]
    · iexists _; isplitr; · ipureintro; exact hK.read_unread _
      iexact H1
    isplitl [H2]
    · iexists _; isplitr; · ipureintro; exact hV.read_unread _
      iexact H2
    isplitl [H3]
    · iexists _; isplitr; · ipureintro; exact hO.read_unread _
      iexact H3
    isplitl [HM]; · iexists _; iexact HM
    isplitl [HL]; · iexists _; iexact HL
    iexists _; iexact HA

set_option maxHeartbeats 4000000 in
/-- MIDDLE key tile. As the first, but the scratch enters at what the key tile before left. -/
noncomputable def runMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16)
    (xm : Vec F S1x1024x1 .f32) (xl : Vec F S1x1024x1 .f32) (xa : Vec F S1x1024x1024 .f32) :
    Σ' (LO : List (View.Piece (Elt F) S1x1024x1024 .f32)) (LM : List (View.Piece (Elt F) S1x1024x1 .f32)) (LL : List (View.Piece (Elt F) S1x1024x1 .f32)), { LA : List (View.Piece (Elt F) S1x1024x1024 .f32) //
      ∀ (xo : Vec F S1x1024x1024 .f32) (E : Set ℕ) (K : PUnit → sProp 𝕄),
        iprop(owns (c : Thread nD τ) aQ fullShare xq ∗ owns (c : Thread nD τ) aK fullShare xk ∗ owns (c : Thread nD τ) aV fullShare xv ∗ owns (c : Thread nD τ) aO fullShare xo ∗ owns (c : Thread nD τ) aM fullShare xm ∗ owns (c : Thread nD τ) aL fullShare xl ∗ owns (c : Thread nD τ) aA fullShare xa
            ∗ (iprop(owns (c : Thread nD τ) aQ fullShare xq ∗ owns (c : Thread nD τ) aK fullShare xk ∗ owns (c : Thread nD τ) aV fullShare xv ∗ owns (c : Thread nD τ) aO fullShare xo ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1_flash_attn_kernel i aQ hQ aK hK aV hV aO hO aM hM aL hL aA hA) K } := by
  refine ⟨[], ?_, ?_, ?_, fun xo E K => ?run⟩
  case run =>
    simp only [cc1_flash_attn_kernel_eq_skeleton]; unfold cc1_flash_attn_kernel_skel
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%fa, %hfa, HA⟩, Hk⟩
    obtain rfl := hQ.eq_unread hf0; obtain rfl := hK.eq_unread hf1; obtain rfl := hV.eq_unread hf2; obtain rfl := hO.eq_unread hf3
    obtain rfl := hM.eq_unread hfm; obtain rfl := hL.eq_unread hfl; obtain rfl := hA.eq_unread hfa
    sl_exec (disch := first | exact h1 | exact h2)
    sl_step
    iapply Hk
    isplitl [H0]
    · iexists _; isplitr; · ipureintro; exact hQ.read_unread _
      iexact H0
    isplitl [H1]
    · iexists _; isplitr; · ipureintro; exact hK.read_unread _
      iexact H1
    isplitl [H2]
    · iexists _; isplitr; · ipureintro; exact hV.read_unread _
      iexact H2
    isplitl [H3]
    · iexists _; isplitr; · ipureintro; exact hO.read_unread _
      iexact H3
    isplitl [HM]; · iexists _; iexact HM
    isplitl [HL]; · iexists _; iexact HL
    iexists _; iexact HA

set_option maxHeartbeats 4000000 in
/-- LAST key tile. The scratch enters at what the key tile before left and the output tile at anything; the body also stores the quotient into the output tile. -/
noncomputable def runLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16)
    (xm : Vec F S1x1024x1 .f32) (xl : Vec F S1x1024x1 .f32) (xa : Vec F S1x1024x1024 .f32) :
    Σ' (LO : List (View.Piece (Elt F) S1x1024x1024 .f32)) (LM : List (View.Piece (Elt F) S1x1024x1 .f32)) (LL : List (View.Piece (Elt F) S1x1024x1 .f32)), { LA : List (View.Piece (Elt F) S1x1024x1024 .f32) //
      ∀ (E : Set ℕ) (K : PUnit → sProp 𝕄),
        iprop(owns (c : Thread nD τ) aQ fullShare xq ∗ owns (c : Thread nD τ) aK fullShare xk ∗ owns (c : Thread nD τ) aV fullShare xv ∗ (∃ d, owns (c : Thread nD τ) aO fullShare d) ∗ owns (c : Thread nD τ) aM fullShare xm ∗ owns (c : Thread nD τ) aL fullShare xl ∗ owns (c : Thread nD τ) aA fullShare xa
            ∗ (iprop(owns (c : Thread nD τ) aQ fullShare xq ∗ owns (c : Thread nD τ) aK fullShare xk ∗ owns (c : Thread nD τ) aV fullShare xv ∗ (∃ f, aO.view.loc (c : Thread nD τ) ↦[aO.view.set]{fullShare} aO.view.writes (Elt F) f LO) ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1_flash_attn_kernel i aQ hQ aK hK aV hV aO hO aM hM aL hL aA hA) K } := by
  refine ⟨?_, ?_, ?_, ?_, fun E K => ?run⟩
  case run =>
    simp only [cc1_flash_attn_kernel_eq_skeleton]; unfold cc1_flash_attn_kernel_skel
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%fa, %hfa, HA⟩, Hk⟩
    obtain rfl := hQ.eq_unread hf0; obtain rfl := hK.eq_unread hf1; obtain rfl := hV.eq_unread hf2
    obtain rfl := hM.eq_unread hfm; obtain rfl := hL.eq_unread hfl; obtain rfl := hA.eq_unread hfa
    sl_exec (disch := first | exact h1 | exact h2)
    sl_step
    iapply Hk
    isplitl [H0]
    · iexists _; isplitr; · ipureintro; exact hQ.read_unread _
      iexact H0
    isplitl [H1]
    · iexists _; isplitr; · ipureintro; exact hK.read_unread _
      iexact H1
    isplitl [H2]
    · iexists _; isplitr; · ipureintro; exact hV.read_unread _
      iexact H2
    isplitl [H3]; · iexists _; iexact H3
    isplitl [HM]; · iexists _; iexact HM
    isplitl [HL]; · iexists _; iexact HL
    iexists _; iexact HA

end Cert.Proof.FlashBits

end
-- ==== Proof.FlashRegionBits.lean ====
/-
  The attention region's proof data.

  The region runs the attention body at 32 points (batch, query tile, key tile), the key tile fastest. What the
  four written buffers hold after each point — the output tile, the reference point m, the denominator l and the
  numerator acc — is defined by recursion on the point: the first key tile of a query tile starts afresh, every
  later one continues from what the point before left in the scratch. Between points the scratch is held at
  exactly those contents (before the very first point, at anything).
-/
import proofs.«159669_j21612275434249_2_alg».proof.Proof.FlashRunsBits

set_option maxRecDepth 16384

noncomputable section

namespace Cert.Proof.FlashBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- What the first-tile run leaves in the output tile: its pieces read back (none: a placeholder nothing consults, the window being idle there). -/
def oFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) : Vec F S1x1024x1024 .f32 :=
  viewO.read (Elt F) (viewO.writes (Elt F) viewO.junk (runFirst c i aQ hQ aK hK aV hV aO hO aM hM aL hL aA hA h1 h2 xq xk xv).1)

/-- The pieces the first-tile run wrote into the reference point tile it, so they cover it. -/
theorem cover_mFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) (y : S1x1024x1.Idx) :
    ∃ pc ∈ (runFirst c i aQ hQ aK hK aV hV aO hO aM hM aL hL aA hA h1 h2 xq xk xv).2.1, y ∈ pc.1.set :=
  View.cover_of_tiledL (runFirst c i aQ hQ aK hK aV hV aO hO aM hM aL hL aA hA h1 h2 xq xk xv).2.1 S1x1024x1.size (by sl_kernel_rfl) y
/-- What the first-tile run leaves in the reference point: its pieces read back. -/
def mFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) : Vec F S1x1024x1 .f32 :=
  viewM.read (Elt F) (viewM.writes (Elt F) viewM.junk (runFirst c i aQ hQ aK hK aV hV aO hO aM hM aL hL aA hA h1 h2 xq xk xv).2.1)

/-- The pieces the first-tile run wrote into the denominator tile it, so they cover it. -/
theorem cover_lFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) (y : S1x1024x1.Idx) :
    ∃ pc ∈ (runFirst c i aQ hQ aK hK aV hV aO hO aM hM aL hL aA hA h1 h2 xq xk xv).2.2.1, y ∈ pc.1.set :=
  View.cover_of_tiledL (runFirst c i aQ hQ aK hK aV hV aO hO aM hM aL hL aA hA h1 h2 xq xk xv).2.2.1 S1x1024x1.size (by sl_kernel_rfl) y
/-- What the first-tile run leaves in the denominator: its pieces read back. -/
def lFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) : Vec F S1x1024x1 .f32 :=
  viewL.read (Elt F) (viewL.writes (Elt F) viewL.junk (runFirst c i aQ hQ aK hK aV hV aO hO aM hM aL hL aA hA h1 h2 xq xk xv).2.2.1)

/-- The pieces the first-tile run wrote into the numerator tile it, so they cover it. -/
theorem cover_aFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) (y : S1x1024x1024.Idx) :
    ∃ pc ∈ (runFirst c i aQ hQ aK hK aV hV aO hO aM hM aL hL aA hA h1 h2 xq xk xv).2.2.2.1, y ∈ pc.1.set :=
  View.cover_of_tiledL (runFirst c i aQ hQ aK hK aV hV aO hO aM hM aL hL aA hA h1 h2 xq xk xv).2.2.2.1 S1x1024x1024.size (by sl_kernel_rfl) y
/-- What the first-tile run leaves in the numerator: its pieces read back. -/
def aFirst (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : isFirst i) (h2 : ¬isLast i)
    (xq : Vec F S1x1024x1024 .bf16) (xk : Vec F S1x512x1024 .bf16) (xv : Vec F S1x512x1024 .bf16) : Vec F S1x1024x1024 .f32 :=
  viewA.read (Elt F) (viewA.writes (Elt F) viewA.junk (runFirst c i aQ hQ aK hK aV hV aO hO aM hM aL hL aA hA h1 h2 xq xk xv).2.2.2.1)

/-- What the middle-tile run leaves in the output tile: its pieces read back (none: a placeholder nothing consults, the window being idle there). -/
def oMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1024 .f32 :=
  viewO.read (Elt F) (viewO.writes (Elt F) viewO.junk (runMiddle c i aQ hQ aK hK aV hV aO hO aM hM aL hL aA hA h1 h2 xq xk xv xm xl xa).1)

/-- The pieces the middle-tile run wrote into the reference point tile it, so they cover it. -/
theorem cover_mMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1.Idx) :
    ∃ pc ∈ (runMiddle c i aQ hQ aK hK aV hV aO hO aM hM aL hL aA hA h1 h2 xq xk xv xm xl xa).2.1, y ∈ pc.1.set :=
  View.cover_of_tiledL (runMiddle c i aQ hQ aK hK aV hV aO hO aM hM aL hL aA hA h1 h2 xq xk xv xm xl xa).2.1 S1x1024x1.size (by sl_kernel_rfl) y
/-- What the middle-tile run leaves in the reference point: its pieces read back. -/
def mMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1 .f32 :=
  viewM.read (Elt F) (viewM.writes (Elt F) viewM.junk (runMiddle c i aQ hQ aK hK aV hV aO hO aM hM aL hL aA hA h1 h2 xq xk xv xm xl xa).2.1)

/-- The pieces the middle-tile run wrote into the denominator tile it, so they cover it. -/
theorem cover_lMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1.Idx) :
    ∃ pc ∈ (runMiddle c i aQ hQ aK hK aV hV aO hO aM hM aL hL aA hA h1 h2 xq xk xv xm xl xa).2.2.1, y ∈ pc.1.set :=
  View.cover_of_tiledL (runMiddle c i aQ hQ aK hK aV hV aO hO aM hM aL hL aA hA h1 h2 xq xk xv xm xl xa).2.2.1 S1x1024x1.size (by sl_kernel_rfl) y
/-- What the middle-tile run leaves in the denominator: its pieces read back. -/
def lMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1 .f32 :=
  viewL.read (Elt F) (viewL.writes (Elt F) viewL.junk (runMiddle c i aQ hQ aK hK aV hV aO hO aM hM aL hL aA hA h1 h2 xq xk xv xm xl xa).2.2.1)

/-- The pieces the middle-tile run wrote into the numerator tile it, so they cover it. -/
theorem cover_aMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1024.Idx) :
    ∃ pc ∈ (runMiddle c i aQ hQ aK hK aV hV aO hO aM hM aL hL aA hA h1 h2 xq xk xv xm xl xa).2.2.2.1, y ∈ pc.1.set :=
  View.cover_of_tiledL (runMiddle c i aQ hQ aK hK aV hV aO hO aM hM aL hL aA hA h1 h2 xq xk xv xm xl xa).2.2.2.1 S1x1024x1024.size (by sl_kernel_rfl) y
/-- What the middle-tile run leaves in the numerator: its pieces read back. -/
def aMiddle (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : ¬isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1024 .f32 :=
  viewA.read (Elt F) (viewA.writes (Elt F) viewA.junk (runMiddle c i aQ hQ aK hK aV hV aO hO aM hM aL hL aA hA h1 h2 xq xk xv xm xl xa).2.2.2.1)

/-- The pieces the last-tile run wrote into the output tile tile it, so they cover it. -/
theorem cover_oLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1024.Idx) :
    ∃ pc ∈ (runLast c i aQ hQ aK hK aV hV aO hO aM hM aL hL aA hA h1 h2 xq xk xv xm xl xa).1, y ∈ pc.1.set :=
  View.cover_of_tiledL (runLast c i aQ hQ aK hK aV hV aO hO aM hM aL hL aA hA h1 h2 xq xk xv xm xl xa).1 S1x1024x1024.size (by sl_kernel_rfl) y
/-- What the last-tile run leaves in the output tile: its pieces read back. -/
def oLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1024 .f32 :=
  viewO.read (Elt F) (viewO.writes (Elt F) viewO.junk (runLast c i aQ hQ aK hK aV hV aO hO aM hM aL hL aA hA h1 h2 xq xk xv xm xl xa).1)

/-- The pieces the last-tile run wrote into the reference point tile it, so they cover it. -/
theorem cover_mLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1.Idx) :
    ∃ pc ∈ (runLast c i aQ hQ aK hK aV hV aO hO aM hM aL hL aA hA h1 h2 xq xk xv xm xl xa).2.1, y ∈ pc.1.set :=
  View.cover_of_tiledL (runLast c i aQ hQ aK hK aV hV aO hO aM hM aL hL aA hA h1 h2 xq xk xv xm xl xa).2.1 S1x1024x1.size (by sl_kernel_rfl) y
/-- What the last-tile run leaves in the reference point: its pieces read back. -/
def mLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1 .f32 :=
  viewM.read (Elt F) (viewM.writes (Elt F) viewM.junk (runLast c i aQ hQ aK hK aV hV aO hO aM hM aL hL aA hA h1 h2 xq xk xv xm xl xa).2.1)

/-- The pieces the last-tile run wrote into the denominator tile it, so they cover it. -/
theorem cover_lLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1.Idx) :
    ∃ pc ∈ (runLast c i aQ hQ aK hK aV hV aO hO aM hM aL hL aA hA h1 h2 xq xk xv xm xl xa).2.2.1, y ∈ pc.1.set :=
  View.cover_of_tiledL (runLast c i aQ hQ aK hK aV hV aO hO aM hM aL hL aA hA h1 h2 xq xk xv xm xl xa).2.2.1 S1x1024x1.size (by sl_kernel_rfl) y
/-- What the last-tile run leaves in the denominator: its pieces read back. -/
def lLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1 .f32 :=
  viewL.read (Elt F) (viewL.writes (Elt F) viewL.junk (runLast c i aQ hQ aK hK aV hV aO hO aM hM aL hL aA hA h1 h2 xq xk xv xm xl xa).2.2.1)

/-- The pieces the last-tile run wrote into the numerator tile it, so they cover it. -/
theorem cover_aLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) (y : S1x1024x1024.Idx) :
    ∃ pc ∈ (runLast c i aQ hQ aK hK aV hV aO hO aM hM aL hL aA hA h1 h2 xq xk xv xm xl xa).2.2.2.1, y ∈ pc.1.set :=
  View.cover_of_tiledL (runLast c i aQ hQ aK hK aV hV aO hO aM hM aL hL aA hA h1 h2 xq xk xv xm xl xa).2.2.2.1 S1x1024x1024.size (by sl_kernel_rfl) y
/-- What the last-tile run leaves in the numerator: its pieces read back. -/
def aLast (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole) (h1 : ¬isFirst i) (h2 : isLast i)
    (xq : Vec F S1x1024x1024 .bf16) (xk : Vec F S1x512x1024 .bf16) (xv : Vec F S1x512x1024 .bf16) (xm : Vec F S1x1024x1 .f32) (xl : Vec F S1x1024x1 .f32) (xa : Vec F S1x1024x1024 .f32) : Vec F S1x1024x1024 .f32 :=
  viewA.read (Elt F) (viewA.writes (Elt F) viewA.junk (runLast c i aQ hQ aK hK aV hV aO hO aM hM aL hL aA hA h1 h2 xq xk xv xm xl xa).2.2.2.1)

-- the TensorCore's buffer contents when the region is entered
variable (V : (c : Dev nD) → (b : Ref sig .tc) → Buf (Elt F) ((c : Thread nD τ).loc b))

/-- Window `w`'s block at point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem held1_in0_of {c : Dev nD} (dat : Dat τ (Elt F) Unit ℕ (Pipeline.UD sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
theorem held1_in1_of {c : Dev nD} (dat : Dat τ (Elt F) Unit ℕ (Pipeline.UD sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
theorem held1_in2_of {c : Dev nD} (dat : Dat τ (Elt F) Unit ℕ (Pipeline.UD sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-! ## The state after each point -/

/-- (output tile, m, l, acc) after the body at position `n`: the case the position is in, run at the point's memrefs
    and input blocks, the scratch entering at what position `n - 1` left. -/
def stateAt (c : Dev nD) : (n : ℕ) → n < cfg1.N → Vec F S1x1024x1024 .f32 × Vec F S1x1024x1 .f32 × Vec F S1x1024x1 .f32 × Vec F S1x1024x1024 .f32
  | 0, hn => (oFirst c (grid1.coords ⟨0, hn⟩) (stQ ⟨0, hn⟩) (hstQ ⟨0, hn⟩) (stK ⟨0, hn⟩) (hstK ⟨0, hn⟩) (stV ⟨0, hn⟩) (hstV ⟨0, hn⟩) (stO ⟨0, hn⟩) (hstO ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blockAt1 V c 0 ⟨0, hn⟩) (blockAt1 V c 1 ⟨0, hn⟩) (blockAt1 V c 2 ⟨0, hn⟩),
          mFirst c (grid1.coords ⟨0, hn⟩) (stQ ⟨0, hn⟩) (hstQ ⟨0, hn⟩) (stK ⟨0, hn⟩) (hstK ⟨0, hn⟩) (stV ⟨0, hn⟩) (hstV ⟨0, hn⟩) (stO ⟨0, hn⟩) (hstO ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blockAt1 V c 0 ⟨0, hn⟩) (blockAt1 V c 1 ⟨0, hn⟩) (blockAt1 V c 2 ⟨0, hn⟩),
          lFirst c (grid1.coords ⟨0, hn⟩) (stQ ⟨0, hn⟩) (hstQ ⟨0, hn⟩) (stK ⟨0, hn⟩) (hstK ⟨0, hn⟩) (stV ⟨0, hn⟩) (hstV ⟨0, hn⟩) (stO ⟨0, hn⟩) (hstO ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blockAt1 V c 0 ⟨0, hn⟩) (blockAt1 V c 1 ⟨0, hn⟩) (blockAt1 V c 2 ⟨0, hn⟩),
          aFirst c (grid1.coords ⟨0, hn⟩) (stQ ⟨0, hn⟩) (hstQ ⟨0, hn⟩) (stK ⟨0, hn⟩) (hstK ⟨0, hn⟩) (stV ⟨0, hn⟩) (hstV ⟨0, hn⟩) (stO ⟨0, hn⟩) (hstO ⟨0, hn⟩) scM (Memref.isWhole_whole _) scL (Memref.isWhole_whole _) scA (Memref.isWhole_whole _) ((isFirst_iff ⟨0, hn⟩).mpr (Nat.zero_mod _)) (fun h => (fun h => by (try dsimp only at h); omega) ((isLast_iff ⟨0, hn⟩).mp h)) (blockAt1 V c 0 ⟨0, hn⟩) (blockAt1 V c 1 ⟨0, hn⟩) (blockAt1 V c 2 ⟨0, hn⟩))
  | n + 1, hn =>
    if h0 : (n + 1) % 4 = 0 then
      if h3 : (n + 1) % 4 = 3 then
        False.elim (by omega)
      else
        (oFirst c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) ((isFirst_iff ⟨n + 1, hn⟩).mpr h0) (fun h => h3 ((isLast_iff ⟨n + 1, hn⟩).mp h)) (blockAt1 V c 0 ⟨n + 1, hn⟩) (blockAt1 V c 1 ⟨n + 1, hn⟩) (blockAt1 V c 2 ⟨n + 1, hn⟩),
          mFirst c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) ((isFirst_iff ⟨n + 1, hn⟩).mpr h0) (fun h => h3 ((isLast_iff ⟨n + 1, hn⟩).mp h)) (blockAt1 V c 0 ⟨n + 1, hn⟩) (blockAt1 V c 1 ⟨n + 1, hn⟩) (blockAt1 V c 2 ⟨n + 1, hn⟩),
          lFirst c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) ((isFirst_iff ⟨n + 1, hn⟩).mpr h0) (fun h => h3 ((isLast_iff ⟨n + 1, hn⟩).mp h)) (blockAt1 V c 0 ⟨n + 1, hn⟩) (blockAt1 V c 1 ⟨n + 1, hn⟩) (blockAt1 V c 2 ⟨n + 1, hn⟩),
          aFirst c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) ((isFirst_iff ⟨n + 1, hn⟩).mpr h0) (fun h => h3 ((isLast_iff ⟨n + 1, hn⟩).mp h)) (blockAt1 V c 0 ⟨n + 1, hn⟩) (blockAt1 V c 1 ⟨n + 1, hn⟩) (blockAt1 V c 2 ⟨n + 1, hn⟩))
    else
      if h3 : (n + 1) % 4 = 3 then
        (oLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h3) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          mLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h3) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          lLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h3) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          aLast c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) ((isLast_iff ⟨n + 1, hn⟩).mpr h3) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2)
      else
        (oMiddle c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) (fun h => h3 ((isLast_iff ⟨n + 1, hn⟩).mp h)) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          mMiddle c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) (fun h => h3 ((isLast_iff ⟨n + 1, hn⟩).mp h)) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          lMiddle c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) (fun h => h3 ((isLast_iff ⟨n + 1, hn⟩).mp h)) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2,
          aMiddle c (grid1.coords ⟨n + 1, hn⟩) (stQ ⟨n + 1, hn⟩) (hstQ ⟨n + 1, hn⟩) (stK ⟨n + 1, hn⟩) (hstK ⟨n + 1, hn⟩) (stV ⟨n + 1, hn⟩) (hstV ⟨n + 1, hn⟩) (stO ⟨n + 1, hn⟩) (hstO ⟨n + 1, hn⟩) scM (Memref.isWhole_whole _) scL (Memref.isWhole_whole _) scA (Memref.isWhole_whole _) (fun h => h0 ((isFirst_iff ⟨n + 1, hn⟩).mp h)) (fun h => h3 ((isLast_iff ⟨n + 1, hn⟩).mp h)) (blockAt1 V c 0 ⟨n + 1, hn⟩) (blockAt1 V c 1 ⟨n + 1, hn⟩) (blockAt1 V c 2 ⟨n + 1, hn⟩) ((stateAt c n (Nat.lt_of_succ_lt hn))).2.1 ((stateAt c n (Nat.lt_of_succ_lt hn))).2.2.1 ((stateAt c n (Nat.lt_of_succ_lt hn))).2.2.2)

theorem stateAt_first (c : Dev nD) (t : Fin cfg1.N) (h0 : t.val % 4 = 0) (h3 : ¬t.val % 4 = 3) :
    stateAt V c t.val t.isLt = (oFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t),
          mFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t),
          lFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t),
          aFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t)) := by
  obtain ⟨n, hn⟩ := t
  cases n with
  | zero => exact rfl
  | succ n => exact (dif_pos h0).trans ((dif_neg h3).trans rfl)

theorem stateAt_middle (c : Dev nD) (t : Fin cfg1.N) (h0 : ¬t.val % 4 = 0) (h3 : ¬t.val % 4 = 3) :
    stateAt V c t.val t.isLt = (oMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          mMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          lMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          aMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2) := by
  obtain ⟨n, hn⟩ := t
  cases n with
  | zero => exact (by exfalso; (try dsimp only at h0); exact absurd (Nat.zero_mod _) h0)
  | succ n => exact (dif_neg h0).trans ((dif_neg h3).trans rfl)

theorem stateAt_last (c : Dev nD) (t : Fin cfg1.N) (h0 : ¬t.val % 4 = 0) (h3 : t.val % 4 = 3) :
    stateAt V c t.val t.isLt = (oLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          mLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          lLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2,
          aLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) ((stateAt V c (t.val - 1) (Nat.lt_of_le_of_lt (Nat.sub_le _ _) t.isLt))).2.1 ((stateAt V c (t.val - 1) (Nat.lt_of_le_of_lt (Nat.sub_le _ _) t.isLt))).2.2.1 ((stateAt V c (t.val - 1) (Nat.lt_of_le_of_lt (Nat.sub_le _ _) t.isLt))).2.2.2) := by
  obtain ⟨n, hn⟩ := t
  cases n with
  | zero => exact (by exfalso; (try dsimp only at h0); exact absurd (Nat.zero_mod _) h0)
  | succ n => exact (dif_neg h0).trans ((dif_pos h3).trans rfl)

/-! ## The invariant between points -/

/-- Before position `n`: at the start the class's invariant (the scratch at anything); afterwards the three scratch
    buffers at what position `n - 1` left, every other scoped buffer at some contents, the generator register at some state. -/
def carried (c : Dev nD) : (n : ℕ) → n ≤ cfg1.N → sProp 𝕄
  | 0, _ => Pipeline.ΦA spec1 c
  | n + 1, hn => iprop(iprop((owns (c : Thread nD τ) scM fullShare (stateAt V c n hn).2.1 ∗ owns (c : Thread nD τ) scL fullShare (stateAt V c n hn).2.2.1 ∗ owns (c : Thread nD τ) scA fullShare (stateAt V c n hn).2.2.2) ∗ others c) ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop(iprop((owns (c : Thread nD τ) scM fullShare (stateAt V c n hn).2.1 ∗ owns (c : Thread nD τ) scL fullShare (stateAt V c n hn).2.2.1 ∗ owns (c : Thread nD τ) scA fullShare (stateAt V c n hn).2.2.2) ∗ others c) ∗ (∃ r, prngReg c r)) := rfl

theorem carried_pos (c : Dev nD) (n : ℕ) (h : n ≤ cfg1.N) (hz : n ≠ 0) :
    carried V c n h = iprop(iprop((owns (c : Thread nD τ) scM fullShare (stateAt V c (n - 1) (by omega)).2.1 ∗ owns (c : Thread nD τ) scL fullShare (stateAt V c (n - 1) (by omega)).2.2.1 ∗ owns (c : Thread nD τ) scA fullShare (stateAt V c (n - 1) (by omega)).2.2.2) ∗ others c) ∗ (∃ r, prngReg c r)) := by
  cases n with
  | zero => exact absurd rfl hz
  | succ n => rfl

/-! ## The proof data -/

def flashData (c : Dev nD) : Dat τ (Elt F) Unit ℕ (Pipeline.UD sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => (stateAt V c t.val t.isLt).1
  Φ t := carried V c t.val (Nat.le_of_lt_succ t.isLt)
  q _ := fullShare
  owed _ := 0

theorem entry1_eq (c : Dev nD) (w : Fin cfg1.W) : (flashData V c).A w = V c (Pipeline.arrRef spec1 w) := by
  dsimp only [flashData]

theorem carried_castSucc (c : Dev nD) (t : Fin cfg1.N) :
    (flashData V c).Φ t.castSucc = carried V c t.val (Nat.le_of_lt t.isLt) := by
  dsimp only [flashData]; simp only [Fin.coe_castSucc]

theorem after1_q (c : Dev nD) (t : Fin cfg1.N) : (flashData V c).after 0 t = blockAt1 V c 0 t := by dsimp only [flashData]
theorem after1_k (c : Dev nD) (t : Fin cfg1.N) : (flashData V c).after 1 t = blockAt1 V c 1 t := by dsimp only [flashData]
theorem after1_v (c : Dev nD) (t : Fin cfg1.N) : (flashData V c).after 2 t = blockAt1 V c 2 t := by dsimp only [flashData]
theorem after1_o (c : Dev nD) (t : Fin cfg1.N) : (flashData V c).after 3 t = (stateAt V c t.val t.isLt).1 := by dsimp only [flashData]

theorem held1_q (c : Dev nD) (t : Fin cfg1.N) (d) : (flashData V c).before 0 t d = blockAt1 V c 0 t :=
  held1_in0_of V (flashData V c) (entry1_eq V c 0) (after1_q V c) t d
theorem held1_k (c : Dev nD) (t : Fin cfg1.N) (d) : (flashData V c).before 1 t d = blockAt1 V c 1 t :=
  held1_in1_of V (flashData V c) (entry1_eq V c 1) (after1_k V c) t d
theorem held1_v (c : Dev nD) (t : Fin cfg1.N) (d) : (flashData V c).before 2 t d = blockAt1 V c 2 t :=
  held1_in2_of V (flashData V c) (entry1_eq V c 2) (after1_v V c) t d

/-! ## The body obligation -/

def flashPre (c : Dev nD) (t : Fin cfg1.N) : sProp 𝕄 :=
  iprop((flashData V c).Φ t.castSucc ∗ (flashData V c).owesAt () t.castSucc
    ∗ (∃ d, owns (c : Thread nD τ) (stQ t) fullShare ((flashData V c).before 0 t d))
    ∗ (∃ d, owns (c : Thread nD τ) (stK t) fullShare ((flashData V c).before 1 t d))
    ∗ (∃ d, owns (c : Thread nD τ) (stV t) fullShare ((flashData V c).before 2 t d))
    ∗ (∃ d, owns (c : Thread nD τ) (stO t) fullShare ((flashData V c).before 3 t d)))

def flashPost (c : Dev nD) (t : Fin cfg1.N) : sProp 𝕄 :=
  iprop((flashData V c).Φ t.succ ∗ (flashData V c).owesAt () t.succ
    ∗ (flashData V c).leavesExact 0 t
    ∗ (flashData V c).leavesExact 1 t
    ∗ (flashData V c).leavesExact 2 t
    ∗ (flashData V c).leavesExact 3 t)

set_option maxHeartbeats 8000000 in
/-- The body at any point: which case the point is in is decided by its position; the invariant hands the body the
    scratch at what the point before left (at anything before the first point) and takes it back at this point's contents. -/
theorem flash_point (c : Dev nD) (t : Fin cfg1.N) :
    flashPre V c t ⊢ wp frame (wpE (defs₀ (F := F)) Variants.none c none) Set.univ (bodyAt1 t) (fun _ => flashPost V c t) := by
  unfold flashPre flashPost bodyAt1
  simp only [held1_q, held1_k, held1_v]
  rw [show (flashData V c).owesAt () t.succ = (flashData V c).owesAt () t.castSucc from rfl]
  rw [show (flashData V c).Φ t.succ = carried V c (t.val + 1) t.isLt from rfl, carried_succ]
  have hN : t.val < 32 := lt_of_lt_of_eq t.isLt (show cfg1.N = 32 from N_1)
  rw [show (flashData V c).leavesExact 0 t = owns (c : Thread nD τ) (stQ t) fullShare ((flashData V c).after 0 t) from by
        unfold Dat.leavesExact; rw [live_q t], after1_q]
  rw [show (flashData V c).leavesExact 1 t = owns (c : Thread nD τ) (stK t) fullShare ((flashData V c).after 1 t) from by
        unfold Dat.leavesExact; rw [live_k t], after1_k]
  rw [show (flashData V c).leavesExact 2 t = owns (c : Thread nD τ) (stV t) fullShare ((flashData V c).after 2 t) from by
        unfold Dat.leavesExact; rw [live_v t], after1_v]
  by_cases h0 : t.val % 4 = 0
  · have h3 : ¬t.val % 4 = 3 := by omega
    rw [Dat.leavesExact_idle (flashData V c) 3 t (idle_out t (fun h => h3 ((isLast_iff t).mp h))) (noFlush_out t (fun h => h3 ((isLast_iff t).mp h)))]
    rw [stateAt_first V c t h0 h3]
    unfold mFirst lFirst aFirst; (try dsimp only)
    by_cases hz : t.val = 0
    · rw [carried_castSucc V c t, carried_zero V c _ _ hz, classInv_eq]
      iintro ⟨⟨⟨⟨HM, HL, HA⟩, Hoth⟩, Hg⟩, Ho, ⟨%d0, H0⟩, ⟨%d1, H1⟩, ⟨%d2, H2⟩, ⟨%d3, H3⟩⟩
      iapply ((runFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t)).2.2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%em, HM⟩, ⟨%el, HL⟩, ⟨%ea, HA⟩⟩
      isplitl [HM HL HA Hoth Hg]
      · isplitl [HM HL HA Hoth]
        · isplitl [HM HL HA]
          · isplitl [HM]
            · unfold owns; iexists _; isplitr
              swap; · iexact HM
              ipureintro; exact View.read_writes_of_cover _ _ _ _ _ (cover_mFirst c _ _ _ _ _ _ _ _ _ _ _ _ _ _ _ _ _ _ _ _ )
            isplitl [HL]
            · unfold owns; iexists _; isplitr
              swap; · iexact HL
              ipureintro; exact View.read_writes_of_cover _ _ _ _ _ (cover_lFirst c _ _ _ _ _ _ _ _ _ _ _ _ _ _ _ _ _ _ _ _ )
            unfold owns; iexists _; isplitr
            swap; · iexact HA
            ipureintro; exact View.read_writes_of_cover _ _ _ _ _ (cover_aFirst c _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      iexists _; iexact H3
    · rw [carried_castSucc V c t, carried_pos V c _ _ hz]
      iintro ⟨⟨⟨⟨HM, HL, HA⟩, Hoth⟩, Hg⟩, Ho, ⟨%d0, H0⟩, ⟨%d1, H1⟩, ⟨%d2, H2⟩, ⟨%d3, H3⟩⟩
      iapply ((runFirst c (grid1.coords t) (stQ t) (hstQ t) (stK t) (hstK t) (stV t) (hstV t) (stO t) (hstO t) scM (Memref.isWhole_whole _) scL (Memref.isWhole_whole _) scA (Memref.isWhole_whole _) ((isFirst_iff t).mpr h0) (fun h => h3 ((isLast_iff t).mp h)) (blockAt1 V c 0 t) (blockAt1 V c 1 t) (blockAt1 V c 2 t)).2.2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%em, HM⟩, ⟨%el, HL⟩, ⟨%ea, HA⟩⟩
      isplitl [HM HL HA Hoth Hg]
      · isplitl [HM HL HA Hoth]
        · isplitl [HM HL HA]
          · isplitl [HM]
            · unfold owns; iexists _; isplitr
              swap; · iexact HM
              ipureintro; exact View.read_writes_of_cover _ _ _ _ _ (cover_mFirst c _ _ _ _ _ _ _ _ _ _ _ _ _ _ _ _ _ _ _ _ )
            isplitl [HL]
            · unfold owns; iexists _; isplitr
              swap; · iexact HL
              ipureintro; exact View.read_writes_of_cover _ _ _ _ _ (cover_lFirst c _ _ _ _ _ _ _ _ _ _ _ _ _ _ _ _ _ _ _ _ )
            unfold owns; iexists _; isplitr
            swap; · iexact HA
            ipureintro; exact View.read_writes_of_cover _ _ _ _ _ (cover_aFirst c _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      iexists _; iexact H3
  · have hz : t.val ≠ 0 := by omega
    by_cases h3 : t.val % 4 = 3
    · rw [show (flashData V c).leavesExact 3 t = owns (c : Thread nD τ) (stO t) fullShare ((flashData V c).after 3 t) from by
        unfold Dat.leavesExact; rw [live_out t ((isLast_iff t).mpr h3)], after1_o]
      rw [stateAt_last V c t h0 h3]
      unfold oLast mLast lLast aLast; (try dsimp only)
      rw [carried_castSucc V c t, carried_pos V c _ _ hz]
      iintro ⟨⟨⟨⟨HM, HL, HA⟩, Hoth⟩, Hg⟩, Ho, ⟨%d0, H0⟩, ⟨%d1, H1⟩, ⟨%d2, H2⟩, ⟨%d3, H3⟩⟩
      iapply ((runLast c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) ((isLast_iff t).mpr h3) (blockAt1 V c 0 t) (blockAt1 V c 1 t) (blockAt1 V c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%eo, H3⟩, ⟨%em, HM⟩, ⟨%el, HL⟩, ⟨%ea, HA⟩⟩
      isplitl [HM HL HA Hoth Hg]
      · isplitl [HM HL HA Hoth]
        · isplitl [HM HL HA]
          · isplitl [HM]
            · unfold owns; iexists _; isplitr
              swap; · iexact HM
              ipureintro; exact View.read_writes_of_cover _ _ _ _ _ (cover_mLast c _ _ _ _ _ _ _ _ _ _ _ _ _ _ _ _ _ _ _ _ _ _ _ )
            isplitl [HL]
            · unfold owns; iexists _; isplitr
              swap; · iexact HL
              ipureintro; exact View.read_writes_of_cover _ _ _ _ _ (cover_lLast c _ _ _ _ _ _ _ _ _ _ _ _ _ _ _ _ _ _ _ _ _ _ _ )
            unfold owns; iexists _; isplitr
            swap; · iexact HA
            ipureintro; exact View.read_writes_of_cover _ _ _ _ _ (cover_aLast c _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_oLast c _ _ _ _ _ _ _ _ _ _ _ _ _ _ _ _ _ _ _ _ _ _ _ )
    · rw [Dat.leavesExact_idle (flashData V c) 3 t (idle_out t (fun h => h3 ((isLast_iff t).mp h))) (noFlush_out t (fun h => h3 ((isLast_iff t).mp h)))]
      rw [stateAt_middle V c t h0 h3]
      unfold mMiddle lMiddle aMiddle; (try dsimp only)
      rw [carried_castSucc V c t, carried_pos V c _ _ hz]
      iintro ⟨⟨⟨⟨HM, HL, HA⟩, Hoth⟩, Hg⟩, Ho, ⟨%d0, H0⟩, ⟨%d1, H1⟩, ⟨%d2, H2⟩, ⟨%d3, H3⟩⟩
      iapply ((runMiddle c (grid1.coords t) (stQ t) (hstQ t) (stK t) (hstK t) (stV t) (hstV t) (stO t) (hstO t) scM (Memref.isWhole_whole _) scL (Memref.isWhole_whole _) scA (Memref.isWhole_whole _) (fun h => h0 ((isFirst_iff t).mp h)) (fun h => h3 ((isLast_iff t).mp h)) (blockAt1 V c 0 t) (blockAt1 V c 1 t) (blockAt1 V c 2 t) _ _ _).2.2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%em, HM⟩, ⟨%el, HL⟩, ⟨%ea, HA⟩⟩
      isplitl [HM HL HA Hoth Hg]
      · isplitl [HM HL HA Hoth]
        · isplitl [HM HL HA]
          · isplitl [HM]
            · unfold owns; iexists _; isplitr
              swap; · iexact HM
              ipureintro; exact View.read_writes_of_cover _ _ _ _ _ (cover_mMiddle c _ _ _ _ _ _ _ _ _ _ _ _ _ _ _ _ _ _ _ _ _ _ _ )
            isplitl [HL]
            · unfold owns; iexists _; isplitr
              swap; · iexact HL
              ipureintro; exact View.read_writes_of_cover _ _ _ _ _ (cover_lMiddle c _ _ _ _ _ _ _ _ _ _ _ _ _ _ _ _ _ _ _ _ _ _ _ )
            unfold owns; iexists _; isplitr
            swap; · iexact HA
            ipureintro; exact View.read_writes_of_cover _ _ _ _ _ (cover_aMiddle c _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      iexists _; iexact H3

theorem flash_obligation (c : Dev nD) : BodyObligation (flashData (F := F) V c) (defs₀ (F := F)) Variants.none () Set.univ := fun t => by
  rw [bigSep_W1, bigSep_W1]
  exact flash_point V c t

/-- What the region is entered with is the invariant before the first point. -/
theorem carried_in (c : Dev nD) : Pipeline.ΦA spec1 c ⊢ (flashData V c).Φ 0 := by
  rw [show (flashData V c).Φ 0 = carried V c 0 (Nat.zero_le _) from rfl, carried_zero V c 0 _ rfl]
  try exact Idealize.SL.BI.Entails.refl _

/-- After the last point the invariant gives the class's back: the scratch's named contents are forgotten. -/
theorem carried_out (c : Dev nD) : (flashData V c).Φ (Fin.last cfg1.N) ⊢ Pipeline.ΦA spec1 c := by
  have hne : (Fin.last cfg1.N).val ≠ 0 := by rw [Fin.val_last]; exact (by decide : cfg1.N ≠ 0)
  rw [show (flashData V c).Φ (Fin.last cfg1.N) = carried V c (Fin.last cfg1.N).val (Nat.le_of_lt_succ (Fin.last cfg1.N).isLt) from rfl,
    carried_pos V c _ _ hne, classInv_eq]
  iintro ⟨⟨⟨HM, HL, HA⟩, Hoth⟩, Hg⟩
  isplitl [HM HL HA Hoth]
  · isplitl [HM HL HA]
    · isplitl [HM]; · iexists _; iexact HM
      isplitl [HL]; · iexists _; iexact HL
      iexists _; iexact HA
    iexact Hoth
  iexact Hg

end Cert.Proof.FlashBits

end
-- ==== Proof.RunBits.lean ====
/-
  The whole run of the kernel program.

  @main is: seven host operations (a reshape of x, a transpose and a change of format per weight), the projection
  region, three reshapes of its results, the attention region. The contents of the unscoped buffers are followed
  through these five boundaries: at launch; after the first host stretch; after the projection region (its three
  output arrays at what the pipeline leaves, everything else as before); after the reshapes; after the attention
  region. Every weakly fair execution terminates, faults nowhere, and ends with every unscoped buffer at the last
  of these — in particular the seven arguments as launched, and the result at what the attention region's pipeline
  leaves in its output array.
-/
import proofs.«159669_j21612275434249_2_alg».proof.Proof.FlashRegionBits
import proofs.«159669_j21612275434249_2_alg».proof.Proof.Gen.Kernel.Regions

set_option maxRecDepth 16384

noncomputable section

namespace Cert.Proof.RunBits

open Cert.Kernel Cert.Kernel.Gen Cert.Proof.ProjBits Cert.Proof.FlashBits
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the five boundaries -/

/-- At launch. -/
abbrev W0 : Dev nD → Valuation τ sig (Elt F) := fun c b => (s₀ m ρ).mem ((c : Dev nD), b)
/-- After the first host stretch: the projection region's entry. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (projData (V1 m ρ) c).arrAt w cfg0.N
theorem W2_arr (c : Dev nD) (w : Fin cfg0.W) :
    W2 m ρ c (Proc.devRef .tc (Pipeline.arrRef spec0 w)) = (projData (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (projData (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the three reshapes: the attention region's entry. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (flashData (V3 m ρ) c).arrAt w cfg1.N
theorem W4_arr (c : Dev nD) (w : Fin cfg1.W) :
    W4 m ρ c (Proc.devRef .tc (Pipeline.arrRef spec1 w)) = (flashData (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem left1 (c : Dev nD) (w : Fin cfg1.W) : (flashData (V3 m ρ) c).arrAt w cfg1.N = V4 m ρ c (Pipeline.arrRef spec1 w) :=
  (W4_arr m ρ c w).symm
theorem kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched

No host operation writes an argument; a region reads it through an input window (the three biases) or not at all. -/

theorem end_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem end_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem end_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((projData (V1 m ρ) c).arrAt_in 2 rfl _).trans (entry_eq (V1 m ρ) c 2))
    _ = W0 m ρ c (Proc.devRef .tc main_arg2) := StableHlo.after_of_writes_sub hostOps0 _ hostOps0_writes (by decide)
    _ = m ((c : Thread nD τ).loc main_arg2) := rfl
theorem end_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem end_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((projData (V1 m ρ) c).arrAt_in 4 rfl _).trans (entry_eq (V1 m ρ) c 4))
    _ = W0 m ρ c (Proc.devRef .tc main_arg4) := StableHlo.after_of_writes_sub hostOps0 _ hostOps0_writes (by decide)
    _ = m ((c : Thread nD τ).loc main_arg4) := rfl
theorem end_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem end_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 6).trans (((projData (V1 m ρ) c).arrAt_in 6 rfl _).trans (entry_eq (V1 m ρ) c 6))
    _ = W0 m ρ c (Proc.devRef .tc main_arg6) := StableHlo.after_of_writes_sub hostOps0 _ hostOps0_writes (by decide)
    _ = m ((c : Thread nD τ).loc main_arg6) := rfl

/-- The result ends at what the attention region's pipeline leaves in its output array. -/
theorem end_result (c : Dev nD) : W4 m ρ c (Proc.devRef .tc main_v11) = (flashData (V3 m ρ) c).arrAt 3 cfg1.N :=
  W4_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => projData (V1 m ρ) c
  | ⟨1, _⟩ => fun c => flashData (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at the second boundary, left at the third. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (proj_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at the fourth boundary, left at the fifth; between its
    points the scratch is tracked, and forgotten at the end. -/
def regFlash : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (flash_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (carried_in (V3 m ρ) c)
    unfold Pipeline.ΦA
    iintro ⟨Hp, -, Hr⟩
    isplitl [Hr]; · iexact Hr
    iexact Hp
  hout c := by
    rw [Pipeline.ownSems0_none]
    refine (carried_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (regProj m ρ),
    .host (hseg hostOps1 hostOps1_sub hostOps1_fresh (W2 m ρ)),
    .region (regFlash m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, faults nowhere,
    and ends with every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Proof.RunBits

end
-- ==== Proof.KernelFrames.lean ====
/-
  The two kernel frames.

  The run of the kernel program (Proof/RunIdeal.lean for the program read over the extended reals, Proof/RunBits.lean
  for the same text read at the word level) ends with every unscoped buffer at the last boundary's contents, and the
  seven arguments there are as launched: no host operation writes one, the regions read them through input windows
  or not at all.
-/
import proofs.«159669_j21612275434249_2_alg».proof.Defs
import proofs.«159669_j21612275434249_2_alg».proof.Proof.RunIdeal
import proofs.«159669_j21612275434249_2_alg».proof.Proof.RunBits

noncomputable section

open Idealize.ShloMosaic Idealize.ShloMosaic.TcCoe Idealize.SL.Sem

namespace Cert.Proof.KernelFrames

/-- The kernel read over the extended reals runs to the end, faults nowhere, and leaves its arguments unchanged. -/
theorem frame_ki [Cert.KernelIdeal.Facts] [Cert.Pre_finite_inputs.Facts] : Cert.frame_KernelIdeal := fun m ρ _ =>
  (θ_run Cert.KernelIdeal.defs _ _).mono (fun r h c =>
    ⟨(h c _ (Cert.Proof.RunIdeal.mem_uc Cert.KernelIdeal.main_arg0 (by decide))).trans (Cert.Proof.RunIdeal.end_main_arg0 m ρ c),
      (h c _ (Cert.Proof.RunIdeal.mem_uc Cert.KernelIdeal.main_arg1 (by decide))).trans (Cert.Proof.RunIdeal.end_main_arg1 m ρ c),
      (h c _ (Cert.Proof.RunIdeal.mem_uc Cert.KernelIdeal.main_arg2 (by decide))).trans (Cert.Proof.RunIdeal.end_main_arg2 m ρ c),
      (h c _ (Cert.Proof.RunIdeal.mem_uc Cert.KernelIdeal.main_arg3 (by decide))).trans (Cert.Proof.RunIdeal.end_main_arg3 m ρ c),
      (h c _ (Cert.Proof.RunIdeal.mem_uc Cert.KernelIdeal.main_arg4 (by decide))).trans (Cert.Proof.RunIdeal.end_main_arg4 m ρ c),
      (h c _ (Cert.Proof.RunIdeal.mem_uc Cert.KernelIdeal.main_arg5 (by decide))).trans (Cert.Proof.RunIdeal.end_main_arg5 m ρ c),
      (h c _ (Cert.Proof.RunIdeal.mem_uc Cert.KernelIdeal.main_arg6 (by decide))).trans (Cert.Proof.RunIdeal.end_main_arg6 m ρ c)⟩)
    (Cert.Proof.RunIdeal.run_all (F := Ideal) m ρ)

/-- The same of the word-level kernel. -/
theorem frame_k [Cert.Kernel.Facts] [Cert.Pre_finite_inputs.Facts] : Cert.frame_Kernel := fun m ρ _ =>
  (θ_run Cert.Kernel.defs _ _).mono (fun r h c =>
    ⟨(h c _ (Cert.Proof.RunBits.mem_uc Cert.Kernel.main_arg0 (by decide))).trans (Cert.Proof.RunBits.end_main_arg0 m ρ c),
      (h c _ (Cert.Proof.RunBits.mem_uc Cert.Kernel.main_arg1 (by decide))).trans (Cert.Proof.RunBits.end_main_arg1 m ρ c),
      (h c _ (Cert.Proof.RunBits.mem_uc Cert.Kernel.main_arg2 (by decide))).trans (Cert.Proof.RunBits.end_main_arg2 m ρ c),
      (h c _ (Cert.Proof.RunBits.mem_uc Cert.Kernel.main_arg3 (by decide))).trans (Cert.Proof.RunBits.end_main_arg3 m ρ c),
      (h c _ (Cert.Proof.RunBits.mem_uc Cert.Kernel.main_arg4 (by decide))).trans (Cert.Proof.RunBits.end_main_arg4 m ρ c),
      (h c _ (Cert.Proof.RunBits.mem_uc Cert.Kernel.main_arg5 (by decide))).trans (Cert.Proof.RunBits.end_main_arg5 m ρ c),
      (h c _ (Cert.Proof.RunBits.mem_uc Cert.Kernel.main_arg6 (by decide))).trans (Cert.Proof.RunBits.end_main_arg6 m ρ c)⟩)
    (Cert.Proof.RunBits.run_all (F := Bits) m ρ)

end Cert.Proof.KernelFrames

end
-- ==== Proof.HostReads.lean ====
/-
  What the host operations of the kernel program leave, index by index, over the extended reals.

  Before the projection region: x is reshaped [4, 2048, 1024] → [8192, 1024] (row 2048·n + s is row s of batch n), and
  each weight is transposed and its format changed (the identity over the extended reals), so entry (d, e) of the
  region's weight operand is entry (e, d) of the argument; the biases are untouched. After it: each of the three
  projection arrays is reshaped back, [8192, 1024] → [4, 2048, 1024].
-/
import proofs.«159669_j21612275434249_2_alg».proof.Proof.RunIdeal
import Idealize.ShloMosaic.Lib.ValueIdx
import Idealize.ShloMosaic.Lib.Pipeline.Value
import Idealize.ShloMosaic.Lib.StableHlo.Run

noncomputable section

namespace Cert.Proof.HostReads

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Row 2048·n + s of the reshaped x is row s of batch n. -/
theorem x_rows (c : Dev nD) (n : Fin 4) (s : Fin 2048) (d : Fin 1024) (h : 2048 * n.val + s.val < 8192) :
    (Cert.Proof.RunIdeal.V1 m ρ c main_v0 : S8192x1024.Idx → EReal) (ix2 ⟨2048 * n.val + s.val, h⟩ d)
      = (m ((c : Thread nD τ).loc main_arg0) : S4x2048x1024.Idx → EReal) (ix3 n s d) := by
  have e : (Cert.Proof.RunIdeal.V1 m ρ c main_v0 : S8192x1024.Idx → EReal)
      = shapeCast S8192x1024 (m ((c : Thread nD τ).loc main_arg0) : S4x2048x1024.Idx → EReal) shapeCasts_S4x2048x1024_S8192x1024 := by
    dsimp only [Cert.Proof.RunIdeal.V1, Cert.Proof.RunIdeal.W1, hostOps0]; after_results; rfl
  rw [e]
  refine shapeCast_apply _ _ _ (ix3 n s d) ?_
  rw [Shape.rowMajor_val_three, Shape.rowMajor_val_two]
  show (n.val * 2048 + s.val) * 1024 + d.val = (2048 * n.val + s.val) * 1024 + d.val
  omega

/-- Entry (d, e) of the region's wq operand is entry (e, d) of the argument: a transpose, then a change of format. -/
theorem wq_T (c : Dev nD) (d e : Fin 1024) :
    (Cert.Proof.RunIdeal.V1 m ρ c main_v2 : S1024x1024.Idx → EReal) (ix2 d e)
      = (m ((c : Thread nD τ).loc main_arg1) : S1024x1024.Idx → EReal) (ix2 e d) := by
  have h : (Cert.Proof.RunIdeal.V1 m ρ c main_v2 : S1024x1024.Idx → EReal)
      = (truncf (F := Ideal) .bf16 (transpose S1024x1024 [1, 0] (m ((c : Thread nD τ).loc main_arg1) : S1024x1024.Idx → EReal) transposes_S1024x1024_S1024x1024_1_0) bitsLt_bf16_f32 : S1024x1024.Idx → EReal) := by
    dsimp only [Cert.Proof.RunIdeal.V1, Cert.Proof.RunIdeal.W1, hostOps0]; after_results
  rw [h]
  refine (transpose_apply _ _ _ (ix2 d e) (ix2 e d) ?_)
  intro b
  match b with
  | ⟨0, _⟩ => rfl
  | ⟨1, _⟩ => rfl

/-- Entry (d, e) of the region's wk operand is entry (e, d) of the argument: a transpose, then a change of format. -/
theorem wk_T (c : Dev nD) (d e : Fin 1024) :
    (Cert.Proof.RunIdeal.V1 m ρ c main_v4 : S1024x1024.Idx → EReal) (ix2 d e)
      = (m ((c : Thread nD τ).loc main_arg3) : S1024x1024.Idx → EReal) (ix2 e d) := by
  have h : (Cert.Proof.RunIdeal.V1 m ρ c main_v4 : S1024x1024.Idx → EReal)
      = (truncf (F := Ideal) .bf16 (transpose S1024x1024 [1, 0] (m ((c : Thread nD τ).loc main_arg3) : S1024x1024.Idx → EReal) transposes_S1024x1024_S1024x1024_1_0) bitsLt_bf16_f32 : S1024x1024.Idx → EReal) := by
    dsimp only [Cert.Proof.RunIdeal.V1, Cert.Proof.RunIdeal.W1, hostOps0]; after_results
  rw [h]
  refine (transpose_apply _ _ _ (ix2 d e) (ix2 e d) ?_)
  intro b
  match b with
  | ⟨0, _⟩ => rfl
  | ⟨1, _⟩ => rfl

/-- Entry (d, e) of the region's wv operand is entry (e, d) of the argument: a transpose, then a change of format. -/
theorem wv_T (c : Dev nD) (d e : Fin 1024) :
    (Cert.Proof.RunIdeal.V1 m ρ c main_v6 : S1024x1024.Idx → EReal) (ix2 d e)
      = (m ((c : Thread nD τ).loc main_arg5) : S1024x1024.Idx → EReal) (ix2 e d) := by
  have h : (Cert.Proof.RunIdeal.V1 m ρ c main_v6 : S1024x1024.Idx → EReal)
      = (truncf (F := Ideal) .bf16 (transpose S1024x1024 [1, 0] (m ((c : Thread nD τ).loc main_arg5) : S1024x1024.Idx → EReal) transposes_S1024x1024_S1024x1024_1_0) bitsLt_bf16_f32 : S1024x1024.Idx → EReal) := by
    dsimp only [Cert.Proof.RunIdeal.V1, Cert.Proof.RunIdeal.W1, hostOps0]; after_results
  rw [h]
  refine (transpose_apply _ _ _ (ix2 d e) (ix2 e d) ?_)
  intro b
  match b with
  | ⟨0, _⟩ => rfl
  | ⟨1, _⟩ => rfl

/-- The bq bias reaches the region as launched. -/
theorem bq_kept (c : Dev nD) : Cert.Proof.RunIdeal.V1 m ρ c main_arg2 = m ((c : Thread nD τ).loc main_arg2) :=
  StableHlo.after_of_writes_sub hostOps0 _ hostOps0_writes (by decide)
/-- The bk bias reaches the region as launched. -/
theorem bk_kept (c : Dev nD) : Cert.Proof.RunIdeal.V1 m ρ c main_arg4 = m ((c : Thread nD τ).loc main_arg4) :=
  StableHlo.after_of_writes_sub hostOps0 _ hostOps0_writes (by decide)
/-- The bv bias reaches the region as launched. -/
theorem bv_kept (c : Dev nD) : Cert.Proof.RunIdeal.V1 m ρ c main_arg6 = m ((c : Thread nD τ).loc main_arg6) :=
  StableHlo.after_of_writes_sub hostOps0 _ hostOps0_writes (by decide)

/-- Row s of batch n of the q array handed to the attention region is row 2048·n + s of the projection region's. -/
theorem q_rows (c : Dev nD) (n : Fin 4) (s : Fin 2048) (e : Fin 1024) (h : 2048 * n.val + s.val < 8192) :
    (Cert.Proof.RunIdeal.V3 m ρ c main_v8 : S4x2048x1024.Idx → EReal) (ix3 n s e)
      = (Cert.Proof.RunIdeal.V2 m ρ c main_v7_0 : S8192x1024.Idx → EReal) (ix2 ⟨2048 * n.val + s.val, h⟩ e) := by
  have h' : (Cert.Proof.RunIdeal.V3 m ρ c main_v8 : S4x2048x1024.Idx → EReal)
      = shapeCast S4x2048x1024 (Cert.Proof.RunIdeal.V2 m ρ c main_v7_0 : S8192x1024.Idx → EReal) shapeCasts_S8192x1024_S4x2048x1024 := by
    dsimp only [Cert.Proof.RunIdeal.V3, Cert.Proof.RunIdeal.W3, hostOps1]; after_results; rfl
  rw [h']
  refine shapeCast_apply _ _ _ (ix2 ⟨2048 * n.val + s.val, h⟩ e) ?_
  rw [Shape.rowMajor_val_three, Shape.rowMajor_val_two]
  show (2048 * n.val + s.val) * 1024 + e.val = (n.val * 2048 + s.val) * 1024 + e.val
  omega

/-- Row s of batch n of the k array handed to the attention region is row 2048·n + s of the projection region's. -/
theorem k_rows (c : Dev nD) (n : Fin 4) (s : Fin 2048) (e : Fin 1024) (h : 2048 * n.val + s.val < 8192) :
    (Cert.Proof.RunIdeal.V3 m ρ c main_v9 : S4x2048x1024.Idx → EReal) (ix3 n s e)
      = (Cert.Proof.RunIdeal.V2 m ρ c main_v7_1 : S8192x1024.Idx → EReal) (ix2 ⟨2048 * n.val + s.val, h⟩ e) := by
  have h' : (Cert.Proof.RunIdeal.V3 m ρ c main_v9 : S4x2048x1024.Idx → EReal)
      = shapeCast S4x2048x1024 (Cert.Proof.RunIdeal.V2 m ρ c main_v7_1 : S8192x1024.Idx → EReal) shapeCasts_S8192x1024_S4x2048x1024 := by
    dsimp only [Cert.Proof.RunIdeal.V3, Cert.Proof.RunIdeal.W3, hostOps1]; after_results; rfl
  rw [h']
  refine shapeCast_apply _ _ _ (ix2 ⟨2048 * n.val + s.val, h⟩ e) ?_
  rw [Shape.rowMajor_val_three, Shape.rowMajor_val_two]
  show (2048 * n.val + s.val) * 1024 + e.val = (n.val * 2048 + s.val) * 1024 + e.val
  omega

/-- Row s of batch n of the v array handed to the attention region is row 2048·n + s of the projection region's. -/
theorem v_rows (c : Dev nD) (n : Fin 4) (s : Fin 2048) (e : Fin 1024) (h : 2048 * n.val + s.val < 8192) :
    (Cert.Proof.RunIdeal.V3 m ρ c main_v10 : S4x2048x1024.Idx → EReal) (ix3 n s e)
      = (Cert.Proof.RunIdeal.V2 m ρ c main_v7_2 : S8192x1024.Idx → EReal) (ix2 ⟨2048 * n.val + s.val, h⟩ e) := by
  have h' : (Cert.Proof.RunIdeal.V3 m ρ c main_v10 : S4x2048x1024.Idx → EReal)
      = shapeCast S4x2048x1024 (Cert.Proof.RunIdeal.V2 m ρ c main_v7_2 : S8192x1024.Idx → EReal) shapeCasts_S8192x1024_S4x2048x1024 := by
    dsimp only [Cert.Proof.RunIdeal.V3, Cert.Proof.RunIdeal.W3, hostOps1]; after_results; rfl
  rw [h']
  refine shapeCast_apply _ _ _ (ix2 ⟨2048 * n.val + s.val, h⟩ e) ?_
  rw [Shape.rowMajor_val_three, Shape.rowMajor_val_two]
  show (2048 * n.val + s.val) * 1024 + e.val = (n.val * 2048 + s.val) * 1024 + e.val
  omega

end Cert.Proof.HostReads

end
-- ==== Proof.PayloadProj.lean ====
/-
  The projection body's stored values read at an index, over the extended reals.

  Each of the three stored tiles is the same function of its operands: a [512, 1024] tile of activations times a
  [1024, 1024] weight (rows of the weight indexed by the contracted feature), plus a bias row broadcast over the 512 rows:

      stored (r, e) = (∑ d, x (r, d) · w (d, e)) + b e.

  The changes of float format on the way in and out are the identity on the extended reals, and the product is
  accumulated into a zero tile, so nothing else is left.
-/
import proofs.«159669_j21612275434249_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Proof.Payload

open Cert.KernelIdeal Cert.KernelIdeal.Gen Idealize.ShloMosaic Idealize.ShloMosaic.ValueIdx Idealize.SL.Sem

/-- The contraction index of the [512,1024] × [1024,1024] product is the one contracted feature. -/
abbrev projContr : dot_S512x1024_S1024x1024_S512x1024_1_0_0_1_n_n.contr.Idx ≃ Fin 1024 :=
  contrEquiv1 dot_S512x1024_S1024x1024_S512x1024_1_0_0_1_n_n 1024 rfl rfl

/-- The left operand's coordinates at a result index and a contraction index: the row is the result's row … -/
theorem proj_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- … and the column is the contracted feature. -/
theorem proj_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's row is the contracted feature … -/
theorem proj_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and its column the result's column. -/
theorem proj_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The left operand's index at result (r, e) and contracted feature d is (r, d). -/
theorem proj_lhsIdx (r : Fin 512) (e : Fin 1024) (d : Fin 1024) :
    dot_S512x1024_S1024x1024_S512x1024_1_0_0_1_n_n.lhsIdx (ix2 r e) (projContr.symm d) = ix2 r d := by
  have hd := contrEquiv1_symm_val dot_S512x1024_S1024x1024_S512x1024_1_0_0_1_n_n 1024 rfl rfl d
  refine funext fun a => Fin.ext ?_
  match a with
  | ⟨0, _⟩ => exact proj_lhs_0 _ _
  | ⟨1, _⟩ => exact (proj_lhs_1 _ _).trans hd

/-- The right operand's index at result (r, e) and contracted feature d is (d, e). -/
theorem proj_rhsIdx (r : Fin 512) (e : Fin 1024) (d : Fin 1024) :
    dot_S512x1024_S1024x1024_S512x1024_1_0_0_1_n_n.rhsIdx (ix2 r e) (projContr.symm d) = ix2 d e := by
  have hd := contrEquiv1_symm_val dot_S512x1024_S1024x1024_S512x1024_1_0_0_1_n_n 1024 rfl rfl d
  refine funext fun a => Fin.ext ?_
  match a with
  | ⟨0, _⟩ => exact (proj_rhs_0 _ _).trans hd
  | ⟨1, _⟩ => exact proj_rhs_1 _ _

/-- The product into a zero tile, read at (r, e): the sum over the contracted feature. -/
theorem proj_matmul_apply (a : FVec Ideal S512x1024 .bf16) (w : FVec Ideal S1024x1024 .bf16) (r : Fin 512) (e : Fin 1024) :
    matmul dot_S512x1024_S1024x1024_S512x1024_1_0_0_1_n_n none a w (constant (F := Ideal) S512x1024 .f32 0x00000000#32) (ix2 r e)
      = ∑ d : Fin 1024, a (ix2 r d) * w (ix2 d e) := by
  refine (Ideal.matmul_constant_zero_apply dot_S512x1024_S1024x1024_S512x1024_1_0_0_1_n_n none a w (ix2 r e)).trans ?_
  rw [← Equiv.sum_comp projContr.symm]
  refine Finset.sum_congr rfl fun d _ => ?_
  rw [proj_lhsIdx, proj_rhsIdx]

/-- The common shape of the three stored tiles, read at (r, e). -/
theorem proj_shape_apply (x : FVec Ideal S512x1024 .f32) (w : FVec Ideal S1024x1024 .bf16) (b : FVec Ideal S1024 .f32)
    (r : Fin 512) (e : Fin 1024) :
    (truncf .bf16
      (addf
        (matmul dot_S512x1024_S1024x1024_S512x1024_1_0_0_1_n_n none (k0_pay1 (F := Ideal) x)
          (shapeCast S1024x1024 w shapeCasts_S1024x1024_S1024x1024) (constant (F := Ideal) S512x1024 .f32 0x00000000#32))
        (broadcastTo S512x1024 (shapeCast S1x1024 b shapeCasts_S1024_S1x1024) broadcasts_S1x1024_S512x1024))
      bitsLt_bf16_f32 : FVec Ideal S512x1024 .bf16) (ix2 r e)
      = (∑ d : Fin 1024, x (ix2 r d) * w (ix2 d e)) + b (ix1 e) := by
  rw [truncf_apply, addf_apply, proj_matmul_apply, shapeCast_self]
  have hb : broadcastTo S512x1024 (shapeCast S1x1024 b shapeCasts_S1024_S1x1024) broadcasts_S1x1024_S512x1024 (ix2 r e) = b (ix1 e) :=
    (broadcastTo_1b_ab_apply _ broadcasts_S1x1024_S512x1024 r e).trans (shapeCast_a_1a_apply b shapeCasts_S1024_S1x1024 0 e)
  rw [hb]
  have hx : ∀ d : Fin 1024, k0_pay1 (F := Ideal) x (ix2 r d) = x (ix2 r d) := fun d => by
    unfold k0_pay1
    rw [truncf_apply, shapeCast_self]
  simp only [hx]

/-- The first stored tile (queries) at (r, e). -/
theorem k0_pay2_apply (x : Vec Ideal S512x1024 .f32) (w : Vec Ideal S1024x1024 .bf16) (b : Vec Ideal S1024 .f32)
    (r : Fin 512) (e : Fin 1024) :
    k0_pay2 (F := Ideal) x w b (ix2 r e) = (∑ d : Fin 1024, x (ix2 r d) * w (ix2 d e)) + b (ix1 e) :=
  proj_shape_apply x w b r e

/-- The second stored tile (keys) at (r, e). -/
theorem k0_pay3_apply (x : Vec Ideal S512x1024 .f32) (w : Vec Ideal S1024x1024 .bf16) (b : Vec Ideal S1024 .f32)
    (r : Fin 512) (e : Fin 1024) :
    k0_pay3 (F := Ideal) x w b (ix2 r e) = (∑ d : Fin 1024, x (ix2 r d) * w (ix2 d e)) + b (ix1 e) :=
  proj_shape_apply x w b r e

/-- The third stored tile (values) at (r, e). -/
theorem k0_pay4_apply (x : Vec Ideal S512x1024 .f32) (w : Vec Ideal S1024x1024 .bf16) (b : Vec Ideal S1024 .f32)
    (r : Fin 512) (e : Fin 1024) :
    k0_pay4 (F := Ideal) x w b (ix2 r e) = (∑ d : Fin 1024, x (ix2 r d) * w (ix2 d e)) + b (ix1 e) :=
  proj_shape_apply x w b r e

end Cert.Proof.Payload

end
-- ==== Proof.RefValueBasics.lean ====
/-
  Small facts about extended reals used to read the reference program as a real-valued function.

  * the coercion of a finite real sum is the sum of the coercions;
  * the three float constants the reference spells (1024, minus infinity, zero) as extended reals,
    and the square root of 1024, which is 32;
  * the quotient of two coerced reals with nonzero divisor is the coerced quotient;
  * a fold of `max` from `⊥` over coerced reals on a nonempty finite type is the coercion of their supremum.
-/
import Mathlib.Analysis.SpecialFunctions.Exp
import Mathlib.Algebra.BigOperators.Field
import Idealize.ShloMosaic.PureOps.Ideal

noncomputable section

namespace Cert.Proof.RefValue

open Idealize.ShloMosaic

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The pattern `0x44800000` denotes the real 1024. -/
theorem ofBits_1024 : Ideal.ofBits .f32 0x44800000#32 = ((1024 : ℝ) : EReal) := by
  simp [Ideal.ofBits, Ideal.ieee, -EReal.coe_mul]; norm_num

/-- The pattern `0xFF800000` denotes minus infinity. -/
theorem ofBits_neg_inf : Ideal.ofBits .f32 0xFF800000#32 = (⊥ : EReal) := by
  simp [Ideal.ofBits, Ideal.ieee]

/-- The pattern `0x00000000` denotes zero. -/
theorem ofBits_zero : Ideal.ofBits .f32 0x00000000#32 = (0 : EReal) := by
  simp [Ideal.ofBits, Ideal.ieee]

/-- The square root of 1024 is 32. -/
theorem sqrt_1024 : Ideal.sqrt ((1024 : ℝ) : EReal) = ((32 : ℝ) : EReal) := by
  rw [Ideal.sqrt_coe, if_neg (by norm_num)]
  have h : Real.sqrt 1024 = 32 := by
    rw [show (1024 : ℝ) = 32 ^ 2 by norm_num]
    exact Real.sqrt_sq (by norm_num)
  rw [h]

/-- The quotient of two coerced reals, the divisor nonzero, is the coerced quotient. -/
theorem div_coe_coe (x y : ℝ) (h : y ≠ 0) : Ideal.div (x : EReal) (y : EReal) = ((x / y : ℝ) : EReal) := by
  rw [Ideal.div_coe h, ← EReal.coe_mul, mul_one_div]

/-- Folding `max` from `⊥` over the coercions of finitely many reals gives the coercion of their supremum. -/
theorem fold_max_coe {n : Nat} (hn : (Finset.univ : Finset (Fin n)).Nonempty) (f : Fin n → ℝ) :
    (Finset.univ : Finset (Fin n)).fold max (⊥ : EReal) (fun k => (f k : EReal))
      = ((Finset.univ.sup' hn f : ℝ) : EReal) := by
  have h1 : ((Finset.univ.sup' hn f : ℝ) : EReal) = Finset.univ.sup' hn (fun k => (f k : EReal)) :=
    Finset.comp_sup'_eq_sup'_comp hn (fun r : ℝ => (r : EReal)) (fun x y => EReal.coe_strictMono.monotone.map_sup x y)
  rw [h1, Finset.sup'_eq_sup]
  rfl

end Cert.Proof.RefValue

end
-- ==== Proof.Spec.lean ====
/-
  The specification: self-attention over the reals.

  For x : [4, 2048, 1024], weights W : [1024, 1024] stored [out, in] and biases b : [1024]:

      proj x W b n s e = (∑ d, x n s d · W e d) + b e                     queries, keys, values
      score Q K n q k  = (∑ d, Q n q d · K n k d) · (1/32)                32 = √1024
      out n q e        = ∑ k, softmax (score Q K n q ·) k · V n k e

  the softmax written relative to a point M (the row's maximum in both programs; any M gives the same number:
  Proof/LibOnlineSoftmax.lean `num_div_den`).
-/
import Mathlib.Analysis.SpecialFunctions.Exp
import Mathlib.Algebra.BigOperators.Field
import Mathlib.Order.Interval.Finset.Fin

noncomputable section

namespace Attention.Spec

/-- An activation array [4, 2048, 1024], -/
abbrev Act : Type := Fin 4 → Fin 2048 → Fin 1024 → ℝ
/-- a weight [1024, 1024], stored [out, in], -/
abbrev Wt : Type := Fin 1024 → Fin 1024 → ℝ
/-- a bias [1024]. -/
abbrev Bias : Type := Fin 1024 → ℝ

/-- A linear layer: row `s` of batch `n` against row `e` of the weight, plus the bias. -/
def proj (x : Act) (W : Wt) (b : Bias) : Act := fun n s e => (∑ d, x n s d * W e d) + b e

/-- The scaled score of query row `q` against key row `k`. -/
def score (Q K : Act) (n : Fin 4) (q k : Fin 2048) : ℝ := (∑ d, Q n q d * K n k d) * (1 / 32 : ℝ)

/-- The row maximum of the scores. -/
def rowMax (Q K : Act) (n : Fin 4) (q : Fin 2048) : ℝ :=
  Finset.univ.sup' Finset.univ_nonempty (fun k => score Q K n q k)

/-- The softmax-weighted sum of a column of values, the softmax relative to `M`. -/
def weighted (s v : Fin 2048 → ℝ) (M : ℝ) : ℝ := ∑ k, Real.exp (s k - M) / (∑ j, Real.exp (s j - M)) * v k

/-- Self-attention. -/
def out (x : Act) (Wq : Wt) (bq : Bias) (Wk : Wt) (bk : Bias) (Wv : Wt) (bv : Bias) : Act := fun n q e =>
  weighted (fun k => score (proj x Wq bq) (proj x Wk bk) n q k) (fun k => proj x Wv bv n k e)
    (rowMax (proj x Wq bq) (proj x Wk bk) n q)

end Attention.Spec

end
-- ==== Proof.ProjValue.lean ====
/-
  The projection region's three output arrays as the specification's projections.

  The region writes, at each of its 16 points, one tile of 512 rows of each of the query, key and value arrays
  [8192, 1024]: the tile of activations times the (already transposed) weight plus the bias row. Every tile is the
  restriction to its rows of ONE whole-array function

      (r, e) ↦ (∑ d, x (r, d) · w (d, e)) + b e

  of the arrays the region found; the 16 tiles cover the 8192 rows (row r is in tile r / 512), so after the region each
  array is that function. When the arrays hold (the coercions of) real numbers — the activations of batch n, position
  s at row 2048·n + s, the weight transposed — its value at row 2048·n + s, column e is the coercion of the
  specification's `proj`.
-/
import proofs.«159669_j21612275434249_2_alg».proof.Proof.ProjRegionIdeal
import proofs.«159669_j21612275434249_2_alg».proof.Proof.PayloadProj
import proofs.«159669_j21612275434249_2_alg».proof.Proof.RefValueBasics
import proofs.«159669_j21612275434249_2_alg».proof.Proof.Spec
import Idealize.ShloMosaic.Lib.Pipeline.Value
import Idealize.ShloMosaic.Lib.ValueIdx

set_option maxRecDepth 16384

noncomputable section

namespace Cert.Proof.ProjValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Proof.ProjIdeal Cert.Proof.Payload Cert.Proof.RefValue
open Attention.Spec

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- Row 2048·n + s of the flattened [8192, 1024] arrays: batch n, position s. -/
abbrev row (n : Fin 4) (s : Fin 2048) : Fin 8192 := ⟨2048 * n.val + s.val, by omega⟩

/-- The whole-array product: activations [8192, 1024] times a weight [1024 (in), 1024 (out)] plus a bias row. -/
def projArr (x : S8192x1024.Idx → EReal) (w : S1024x1024.Idx → EReal) (b : S1024.Idx → EReal) : S8192x1024.Idx → EReal :=
  fun i => (∑ d : Fin 1024, x (ix2 (i 0) d) * w (ix2 d (i 1))) + b (ix1 (i 1))

/-- Over the reals, with the weight held transposed, the whole-array product at row 2048·n + s, column e is the
    coercion of the specification's projection. -/
theorem projArr_real (x : S8192x1024.Idx → EReal) (w : S1024x1024.Idx → EReal) (c : S1024.Idx → EReal)
    (xr : Act) (W : Wt) (b : Bias)
    (hx : ∀ (n : Fin 4) (s : Fin 2048) (d : Fin 1024), x (ix2 (row n s) d) = ((xr n s d : ℝ) : EReal))
    (hw : ∀ (d e : Fin 1024), w (ix2 d e) = ((W e d : ℝ) : EReal))
    (hb : ∀ e : Fin 1024, c (ix1 e) = ((b e : ℝ) : EReal))
    (n : Fin 4) (s : Fin 2048) (e : Fin 1024) :
    projArr x w c (ix2 (row n s) e) = ((proj xr W b n s e : ℝ) : EReal) := by
  show (∑ d : Fin 1024, x (ix2 (row n s) d) * w (ix2 d e)) + c (ix1 e) = _
  simp only [hx, hw, hb]
  unfold proj
  rw [EReal.coe_add, coe_sum]
  simp only [EReal.coe_mul]

/-- The printed index maps of the windows the Q tile reads and writes, decided over the 16 points: the activations and
    the output move with the point along the rows, the weight and the bias stay. -/
theorem index_factsQ : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_7.index t (0 : Fin 2) = t.val ∧ win0_7.index t (1 : Fin 2) = 0 :=
  (by decide +kernel : ∀ t : Fin grid0.N, _)

/-- The printed index maps of the windows the K tile reads and writes, decided over the 16 points: the activations and
    the output move with the point along the rows, the weight and the bias stay. -/
theorem index_factsK : ∀ t : Fin cfg0.N, win0_0.index t (0 : Fin 2) = t.val ∧ win0_0.index t (1 : Fin 2) = 0
    ∧ win0_3.index t (0 : Fin 2) = 0 ∧ win0_3.index t (1 : Fin 2) = 0 ∧ win0_4.index t (0 : Fin 1) = 0
    ∧ win0_8.index t (0 : Fin 2) = t.val ∧ win0_8.index t (1 : Fin 2) = 0 :=
  (by decide +kernel : ∀ t : Fin grid0.N, _)

/-- The printed index maps of the windows the V tile reads and writes, decided over the 16 points: the activations and
    the output move with the point along the rows, the weight and the bias stay. -/
theorem index_factsV : ∀ t : Fin cfg0.N, win0_0.index t (0 : Fin 2) = t.val ∧ win0_0.index t (1 : Fin 2) = 0
    ∧ win0_5.index t (0 : Fin 2) = 0 ∧ win0_5.index t (1 : Fin 2) = 0 ∧ win0_6.index t (0 : Fin 1) = 0
    ∧ win0_9.index t (0 : Fin 2) = t.val ∧ win0_9.index t (1 : Fin 2) = 0 :=
  (by decide +kernel : ∀ t : Fin grid0.N, _)

/-! ## The query array (window 7) -/

/-- WHAT POINT `t` WRITES BACK to the query array is block `t` of the whole-array product. -/
theorem flushedQ_eq (c : Dev nD) (t : Fin cfg0.N) :
    (projData (F := Ideal) V c).flushed 7 t
      = ((cfg0.win 7).blk t).view.read (Elt Ideal) (projArr (V c main_v0) (V c main_v2) (V c main_arg2)) := by
  show (cfg0.win 7).cut (grid0.coords t) ((projData (F := Ideal) V c).after 7 t) = _
  rw [after_q]
  unfold tileQ
  rw [View.canon_unit_zero zeros2]
  simp only [View.ld_unit_zero (S := S512x1024) zeros2, View.ld_unit_zero (S := S1024x1024) zeros2,
    View.ld_unit_zero (S := S1024) zeros1]
  funext j
  obtain ⟨e0, e1, e2, e3, e4, e5, e6⟩ := index_factsQ t
  obtain ⟨r, e, rfl⟩ : ∃ (r : Fin 512) (e : Fin 1024), j = ix2 r e := ⟨j 0, j 1, eq_ix2 j⟩
  show k0_pay2 (F := Ideal) (blockAt V c 0 t) (blockAt V c 1 t) (blockAt V c 2 t) (ix2 r e)
    = projArr (V c main_v0) (V c main_v2) (V c main_arg2) (((cfg0.win 7).blk t).view.emb (ix2 r e))
  rw [k0_pay2_apply]
  unfold projArr blockAt
  have hx : ∀ d : Fin 1024, View.read (Elt Ideal) ((cfg0.win 0).blk t).view (V c (Pipeline.arrRef spec0 0)) (ix2 r d)
      = V c main_v0 (ix2 (((cfg0.win 7).blk t).view.emb (ix2 r e) 0) d) := fun d => by
    show V c main_v0 (((cfg0.win 0).blk t).view.emb (ix2 r d)) = _
    refine congrArg (V c main_v0) ?_
    funext a; apply Fin.ext
    match a with
    | ⟨0, _⟩ => show win0_0.index t (0 : Fin 2) * 512 + 1 * r.val = win0_7.index t (0 : Fin 2) * 512 + 1 * r.val; omega
    | ⟨1, _⟩ => show win0_0.index t (1 : Fin 2) * 1024 + 1 * d.val = d.val; omega
  have hw : ∀ d : Fin 1024, View.read (Elt Ideal) ((cfg0.win 1).blk t).view (V c (Pipeline.arrRef spec0 1)) (ix2 d e)
      = V c main_v2 (ix2 d (((cfg0.win 7).blk t).view.emb (ix2 r e) 1)) := fun d => by
    show V c main_v2 (((cfg0.win 1).blk t).view.emb (ix2 d e)) = _
    refine congrArg (V c main_v2) ?_
    funext a; apply Fin.ext
    match a with
    | ⟨0, _⟩ => show win0_1.index t (0 : Fin 2) * 1024 + 1 * d.val = d.val; omega
    | ⟨1, _⟩ => show win0_1.index t (1 : Fin 2) * 1024 + 1 * e.val = win0_7.index t (1 : Fin 2) * 1024 + 1 * e.val; omega
  have hb : View.read (Elt Ideal) ((cfg0.win 2).blk t).view (V c (Pipeline.arrRef spec0 2)) (ix1 e)
      = V c main_arg2 (ix1 (((cfg0.win 7).blk t).view.emb (ix2 r e) 1)) := by
    show V c main_arg2 (((cfg0.win 2).blk t).view.emb (ix1 e)) = _
    refine congrArg (V c main_arg2) ?_
    funext a; apply Fin.ext
    match a with
    | ⟨0, _⟩ => show win0_2.index t (0 : Fin 1) * 1024 + 1 * e.val = win0_7.index t (1 : Fin 2) * 1024 + 1 * e.val; omega
  simp only [hx, hw, hb]

/-- An index of the query array is in point `t`'s block iff each coordinate is in the block's range on its axis. -/
theorem mem_blkQ (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v7_0).slice (win0_7.rect t)).set ↔ _
  rw [View.set_slice_whole, Rect.mem_set_unit]
  exact Iff.rfl

/-- Row `r` of the query array is in the block of point `r / 512`, and every point writes its block back. -/
theorem coverQ (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 512 < cfg0.N := by rw [show cfg0.N = 16 from N_0]; omega
  refine ⟨⟨(i 0).val / 512, hN⟩, flush0_7 _, ?_⟩
  rw [mem_blkQ]
  obtain ⟨-, -, -, -, -, e5, e6⟩ := index_factsQ ⟨(i 0).val / 512, hN⟩
  have e5' : win0_7.index ⟨(i 0).val / 512, hN⟩ (0 : Fin 2) = (i 0).val / 512 := e5
  intro a
  match a with
  | ⟨0, _⟩ =>
    show win0_7.index ⟨(i 0).val / 512, hN⟩ (0 : Fin 2) * 512 ≤ (i 0).val
      ∧ (i 0).val < win0_7.index ⟨(i 0).val / 512, hN⟩ (0 : Fin 2) * 512 + 512
    omega
  | ⟨1, _⟩ =>
    show win0_7.index ⟨(i 0).val / 512, hN⟩ (1 : Fin 2) * 1024 ≤ (i 1).val
      ∧ (i 1).val < win0_7.index ⟨(i 0).val / 512, hN⟩ (1 : Fin 2) * 1024 + 1024
    omega

/-- THE QUERY ARRAY after the region: the whole-array product of the arrays the region found. -/
theorem finalQ (c : Dev nD) :
    (projData (F := Ideal) V c).arrAt 7 cfg0.N = projArr (V c main_v0) (V c main_v2) (V c main_arg2) :=
  (projData (F := Ideal) V c).arrAt_eq_of_cover 7 _ (fun t _ => flushedQ_eq V c t) coverQ

/-- THE QUERY ARRAY over the reals: row 2048·n + s, column e holds the specification's projection. -/
theorem q_array (c : Dev nD) (xr : Act) (W : Wt) (b : Bias)
    (hx : ∀ (n : Fin 4) (s : Fin 2048) (d : Fin 1024), V c main_v0 (ix2 (row n s) d) = ((xr n s d : ℝ) : EReal))
    (hw : ∀ (d e : Fin 1024), V c main_v2 (ix2 d e) = ((W e d : ℝ) : EReal))
    (hb : ∀ e : Fin 1024, V c main_arg2 (ix1 e) = ((b e : ℝ) : EReal))
    (n : Fin 4) (s : Fin 2048) (e : Fin 1024) :
    (projData (F := Ideal) V c).arrAt 7 cfg0.N (ix2 (row n s) e) = ((proj xr W b n s e : ℝ) : EReal) := by
  rw [finalQ]
  exact projArr_real _ _ _ xr W b hx hw hb n s e

/-! ## The key array (window 8) -/

/-- WHAT POINT `t` WRITES BACK to the key array is block `t` of the whole-array product. -/
theorem flushedK_eq (c : Dev nD) (t : Fin cfg0.N) :
    (projData (F := Ideal) V c).flushed 8 t
      = ((cfg0.win 8).blk t).view.read (Elt Ideal) (projArr (V c main_v0) (V c main_v4) (V c main_arg4)) := by
  show (cfg0.win 8).cut (grid0.coords t) ((projData (F := Ideal) V c).after 8 t) = _
  rw [after_k]
  unfold tileK
  rw [View.canon_unit_zero zeros2]
  simp only [View.ld_unit_zero (S := S512x1024) zeros2, View.ld_unit_zero (S := S1024x1024) zeros2,
    View.ld_unit_zero (S := S1024) zeros1]
  funext j
  obtain ⟨e0, e1, e2, e3, e4, e5, e6⟩ := index_factsK t
  obtain ⟨r, e, rfl⟩ : ∃ (r : Fin 512) (e : Fin 1024), j = ix2 r e := ⟨j 0, j 1, eq_ix2 j⟩
  show k0_pay3 (F := Ideal) (blockAt V c 0 t) (blockAt V c 3 t) (blockAt V c 4 t) (ix2 r e)
    = projArr (V c main_v0) (V c main_v4) (V c main_arg4) (((cfg0.win 8).blk t).view.emb (ix2 r e))
  rw [k0_pay3_apply]
  unfold projArr blockAt
  have hx : ∀ d : Fin 1024, View.read (Elt Ideal) ((cfg0.win 0).blk t).view (V c (Pipeline.arrRef spec0 0)) (ix2 r d)
      = V c main_v0 (ix2 (((cfg0.win 8).blk t).view.emb (ix2 r e) 0) d) := fun d => by
    show V c main_v0 (((cfg0.win 0).blk t).view.emb (ix2 r d)) = _
    refine congrArg (V c main_v0) ?_
    funext a; apply Fin.ext
    match a with
    | ⟨0, _⟩ => show win0_0.index t (0 : Fin 2) * 512 + 1 * r.val = win0_8.index t (0 : Fin 2) * 512 + 1 * r.val; omega
    | ⟨1, _⟩ => show win0_0.index t (1 : Fin 2) * 1024 + 1 * d.val = d.val; omega
  have hw : ∀ d : Fin 1024, View.read (Elt Ideal) ((cfg0.win 3).blk t).view (V c (Pipeline.arrRef spec0 3)) (ix2 d e)
      = V c main_v4 (ix2 d (((cfg0.win 8).blk t).view.emb (ix2 r e) 1)) := fun d => by
    show V c main_v4 (((cfg0.win 3).blk t).view.emb (ix2 d e)) = _
    refine congrArg (V c main_v4) ?_
    funext a; apply Fin.ext
    match a with
    | ⟨0, _⟩ => show win0_3.index t (0 : Fin 2) * 1024 + 1 * d.val = d.val; omega
    | ⟨1, _⟩ => show win0_3.index t (1 : Fin 2) * 1024 + 1 * e.val = win0_8.index t (1 : Fin 2) * 1024 + 1 * e.val; omega
  have hb : View.read (Elt Ideal) ((cfg0.win 4).blk t).view (V c (Pipeline.arrRef spec0 4)) (ix1 e)
      = V c main_arg4 (ix1 (((cfg0.win 8).blk t).view.emb (ix2 r e) 1)) := by
    show V c main_arg4 (((cfg0.win 4).blk t).view.emb (ix1 e)) = _
    refine congrArg (V c main_arg4) ?_
    funext a; apply Fin.ext
    match a with
    | ⟨0, _⟩ => show win0_4.index t (0 : Fin 1) * 1024 + 1 * e.val = win0_8.index t (1 : Fin 2) * 1024 + 1 * e.val; omega
  simp only [hx, hw, hb]

/-- An index of the key array is in point `t`'s block iff each coordinate is in the block's range on its axis. -/
theorem mem_blkK (t : Fin cfg0.N) (i : S8192x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v7_1).slice (win0_8.rect t)).set ↔ _
  rw [View.set_slice_whole, Rect.mem_set_unit]
  exact Iff.rfl

/-- Row `r` of the key array is in the block of point `r / 512`, and every point writes its block back. -/
theorem coverK (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : (i 0).val / 512 < cfg0.N := by rw [show cfg0.N = 16 from N_0]; omega
  refine ⟨⟨(i 0).val / 512, hN⟩, flush0_8 _, ?_⟩
  rw [mem_blkK]
  obtain ⟨-, -, -, -, -, e5, e6⟩ := index_factsK ⟨(i 0).val / 512, hN⟩
  have e5' : win0_8.index ⟨(i 0).val / 512, hN⟩ (0 : Fin 2) = (i 0).val / 512 := e5
  intro a
  match a with
  | ⟨0, _⟩ =>
    show win0_8.index ⟨(i 0).val / 512, hN⟩ (0 : Fin 2) * 512 ≤ (i 0).val
      ∧ (i 0).val < win0_8.index ⟨(i 0).val / 512, hN⟩ (0 : Fin 2) * 512 + 512
    omega
  | ⟨1, _⟩ =>
    show win0_8.index ⟨(i 0).val / 512, hN⟩ (1 : Fin 2) * 1024 ≤ (i 1).val
      ∧ (i 1).val < win0_8.index ⟨(i 0).val / 512, hN⟩ (1 : Fin 2) * 1024 + 1024
    omega

/-- THE KEY ARRAY after the region: the whole-array product of the arrays the region found. -/
theorem finalK (c : Dev nD) :
    (projData (F := Ideal) V c).arrAt 8 cfg0.N = projArr (V c main_v0) (V c main_v4) (V c main_arg4) :=
  (projData (F := Ideal) V c).arrAt_eq_of_cover 8 _ (fun t _ => flushedK_eq V c t) coverK

/-- THE KEY ARRAY over the reals: row 2048·n + s, column e holds the specification's projection. -/
theorem k_array (c : Dev nD) (xr : Act) (W : Wt) (b : Bias)
    (hx : ∀ (n : Fin 4) (s : Fin 2048) (d : Fin 1024), V c main_v0 (ix2 (row n s) d) = ((xr n s d : ℝ) : EReal))
    (hw : ∀ (d e : Fin 1024), V c main_v4 (ix2 d e) = ((W e d : ℝ) : EReal))
    (hb : ∀ e : Fin 1024, V c main_arg4 (ix1 e) = ((b e : ℝ) : EReal))
    (n : Fin 4) (s : Fin 2048) (e : Fin 1024) :
    (projData (F := Ideal) V c).arrAt 8 cfg0.N (ix2 (row n s) e) = ((proj xr W b n s e : ℝ) : EReal) := by
  rw [finalK]
  exact projArr_real _ _ _ xr W b hx hw hb n s e

/-! ## The value array (window 9) -/

/-- WHAT POINT `t` WRITES BACK to the value array is block `t` of the whole-array product. -/
theorem flushedV_eq (c : Dev nD) (t : Fin cfg0.N) :
    (projData (F := Ideal) V c).flushed 9 t
      = ((cfg0.win 9).blk t).view.read (Elt Ideal) (projArr (V c main_v0) (V c main_v6) (V c main_arg6)) := by
  show (cfg0.win 9).cut (grid0.coords t) ((projData (F := Ideal) V c).after 9 t) = _
  rw [after_v]
  unfold tileV
  rw [View.canon_unit_zero zeros2]
  simp only [View.ld_unit_zero (S := S512x1024) zeros2, View.ld_unit_zero (S := S1024x1024) zeros2,
    View.ld_unit_zero (S := S1024) zeros1]
  funext j
  obtain ⟨e0, e1, e2, e3, e4, e5, e6⟩ := index_factsV t
  obtain ⟨r, e, rfl⟩ : ∃ (r : Fin 512) (e : Fin 1024), j = ix2 r e := ⟨j 0, j 1, eq_ix2 j⟩
  show k0_pay4 (F := Ideal) (blockAt V c 0 t) (blockAt V c 5 t) (blockAt V c 6 t) (ix2 r e)
    = projArr (V c main_v0) (V c main_v6) (V c main_arg6) (((cfg0.win 9).blk t).view.emb (ix2 r e))
  rw [k0_pay4_apply]
  unfold projArr blockAt
  have hx : ∀ d : Fin 1024, View.read (Elt Ideal) ((cfg0.win 0).blk t).view (V c (Pipeline.arrRef spec0 0)) (ix2 r d)
      = V c main_v0 (ix2 (((cfg0.win 9).blk t).view.emb (ix2 r e) 0) d) := fun d => by
    show V c main_v0 (((cfg0.win 0).blk t).view.emb (ix2 r d)) = _
    refine congrArg (V c main_v0) ?_
    funext a; apply Fin.ext
    match a with
    | ⟨0, _⟩ => show win0_0.index t (0 : Fin 2) * 512 + 1 * r.val = win0_9.index t (0 : Fin 2) * 512 + 1 * r.val; omega
    | ⟨1, _⟩ => show win0_0.index t (1 : Fin 2) * 1024 + 1 * d.val = d.val; omega
  have hw : ∀ d : Fin 1024, View.read (Elt Ideal) ((cfg0.win 5).blk t).view (V c (Pipeline.arrRef spec0 5)) (ix2 d e)
      = V c main_v6 (ix2 d (((cfg0.win 9).blk t).view.emb (ix2 r e) 1)) := fun d => by
    show V c main_v6 (((cfg0.win 5).blk t).view.emb (ix2 d e)) = _
    refine congrArg (V c main_v6) ?_
    funext a; apply Fin.ext
    match a with
    | ⟨0, _⟩ => show win0_5.index t (0 : Fin 2) * 1024 + 1 * d.val = d.val; omega
    | ⟨1, _⟩ => show win0_5.index t (1 : Fin 2) * 1024 + 1 * e.val = win0_9.index t (1 : Fin 2) * 1024 + 1 * e.val; omega
  have hb : View.read (Elt Ideal) ((cfg0.win 6).blk t).view (V c (Pipeline.arrRef spec0 6)) (ix1 e)
      = V c main_arg6 (ix1 (((cfg0.win 9).blk t).view.emb (ix2 r e) 1)) := by
    show V c main_arg6 (((cfg0.win 6).blk t).view.emb (ix1 e)) = _
    refine congrArg (V c main_arg6) ?_
    funext a; apply Fin.ext
    match a with
    | ⟨0, _⟩ => show win0_6.index t (0 : Fin 1) * 1024 + 1 * e.val = win0_9.index t (1 : Fin 2) * 1024 + 1 * e.val; omega
  simp only [hx, hw, hb]

/-- An index of the value array is in point `t`'s block iff each coordinate is in the block's range on its axis. -/
theorem mem_blkV (t : Fin cfg0.N) (i : S8192x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v7_2).slice (win0_9.rect t)).set ↔ _
  rw [View.set_slice_whole, Rect.mem_set_unit]
  exact Iff.rfl

/-- Row `r` of the value array is in the block of point `r / 512`, and every point writes its block back. -/
theorem coverV (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : (i 0).val / 512 < cfg0.N := by rw [show cfg0.N = 16 from N_0]; omega
  refine ⟨⟨(i 0).val / 512, hN⟩, flush0_9 _, ?_⟩
  rw [mem_blkV]
  obtain ⟨-, -, -, -, -, e5, e6⟩ := index_factsV ⟨(i 0).val / 512, hN⟩
  have e5' : win0_9.index ⟨(i 0).val / 512, hN⟩ (0 : Fin 2) = (i 0).val / 512 := e5
  intro a
  match a with
  | ⟨0, _⟩ =>
    show win0_9.index ⟨(i 0).val / 512, hN⟩ (0 : Fin 2) * 512 ≤ (i 0).val
      ∧ (i 0).val < win0_9.index ⟨(i 0).val / 512, hN⟩ (0 : Fin 2) * 512 + 512
    omega
  | ⟨1, _⟩ =>
    show win0_9.index ⟨(i 0).val / 512, hN⟩ (1 : Fin 2) * 1024 ≤ (i 1).val
      ∧ (i 1).val < win0_9.index ⟨(i 0).val / 512, hN⟩ (1 : Fin 2) * 1024 + 1024
    omega

/-- THE VALUE ARRAY after the region: the whole-array product of the arrays the region found. -/
theorem finalV (c : Dev nD) :
    (projData (F := Ideal) V c).arrAt 9 cfg0.N = projArr (V c main_v0) (V c main_v6) (V c main_arg6) :=
  (projData (F := Ideal) V c).arrAt_eq_of_cover 9 _ (fun t _ => flushedV_eq V c t) coverV

/-- THE VALUE ARRAY over the reals: row 2048·n + s, column e holds the specification's projection. -/
theorem v_array (c : Dev nD) (xr : Act) (W : Wt) (b : Bias)
    (hx : ∀ (n : Fin 4) (s : Fin 2048) (d : Fin 1024), V c main_v0 (ix2 (row n s) d) = ((xr n s d : ℝ) : EReal))
    (hw : ∀ (d e : Fin 1024), V c main_v6 (ix2 d e) = ((W e d : ℝ) : EReal))
    (hb : ∀ e : Fin 1024, V c main_arg6 (ix1 e) = ((b e : ℝ) : EReal))
    (n : Fin 4) (s : Fin 2048) (e : Fin 1024) :
    (projData (F := Ideal) V c).arrAt 9 cfg0.N (ix2 (row n s) e) = ((proj xr W b n s e : ℝ) : EReal) := by
  rw [finalV]
  exact projArr_real _ _ _ xr W b hx hw hb n s e

end Cert.Proof.ProjValue

end
-- ==== Proof.FlashPieces.lean ====
/-
  What the attention body leaves in its written buffers, in each of its three control cases, as the body's own
  arithmetic terms.

  Each case's run found, for every written buffer, the list of stored pieces; every such list ends with one store that
  covers the whole buffer, so the buffer's contents after the point are that store's value. The values are, with q, k, v
  the loaded query, key and value tiles and m, l, acc what the scratch held when the point was entered:

      reference point  m'   = max m (row maximum of the scaled scores)
      denominator      l'   = exp (m - m') · l + row sums of exp (scores - m')
      numerator        acc' = exp (m - m') · acc + exp (scores - m') · v
      output (last key tile only)  = acc' / l'   — the body reloads the numerator and the denominator after storing them.

  At the first key tile the body first stores -∞, 0 and 0 into the three scratch buffers and the loads that follow read
  those back, so m, l, acc are these constants there.
-/
import proofs.«159669_j21612275434249_2_alg».proof.Proof.FlashRegionIdeal
import Idealize.ShloMosaic.Lib.Pipeline.Value
import Idealize.ShloMosaic.Lib.Tactic

set_option maxRecDepth 16384

noncomputable section

namespace Cert.Proof.FlashPieces

open Cert.KernelIdeal Cert.KernelIdeal.Gen Cert.Proof.FlashIdeal
open Idealize.ShloMosaic Idealize.ShloMosaic.TcCoe Idealize.ShloMosaic.Tactic Idealize.SL.Sem

variable {F : FTy → Type} [FloatOps F]

/-- The zero offsets of a rank-3 buffer, however spelt. -/
theorem hz3 : (![0, 0, 0] : Fin 3 → Nat) = fun _ => 0 := funext fun a => by fin_cases a <;> rfl

variable (c : Dev nD) (i : grid1.Coords) (aQ : Memref sig .tc .vmem S1x1024x1024 .bf16) (hQ : aQ.IsWhole) (aK : Memref sig .tc .vmem S1x512x1024 .bf16) (hK : aK.IsWhole) (aV : Memref sig .tc .vmem S1x512x1024 .bf16) (hV : aV.IsWhole) (aO : Memref sig .tc .vmem S1x1024x1024 .f32) (hO : aO.IsWhole) (aM : Memref sig .tc .vmem S1x1024x1 .f32) (hM : aM.IsWhole) (aL : Memref sig .tc .vmem S1x1024x1 .f32) (hL : aL.IsWhole) (aA : Memref sig .tc .vmem S1x1024x1024 .f32) (hA : aA.IsWhole)
  (xq : Vec F S1x1024x1024 .bf16) (xk : Vec F S1x512x1024 .bf16) (xv : Vec F S1x512x1024 .bf16)
  (xm : Vec F S1x1024x1 .f32) (xl : Vec F S1x1024x1 .f32) (xa : Vec F S1x1024x1024 .f32)

/-! ## A middle key tile -/

/-- The reference point a middle key tile leaves. -/
theorem mMiddle_eq (h1 : ¬isFirst i) (h2 : ¬isLast i) :
    mMiddle c i aQ hQ aK hK aV hV aO hO aM hM aL hL aA hA h1 h2 xq xk xv xm xl xa = k1_pay3 (k1_pay10 xq xk xm) := by
  unfold mMiddle
  rw [View.read_writes_eq_canon _ _ _ (cover_mMiddle c i aQ hQ aK hK aV hV aO hO aM hM aL hL aA hA h1 h2 xq xk xv xm xl xa)]
  unfold runMiddle
  dsimp only
  sl_unfold_words
  rw [View.canon_unit_zero hz3]
  simp only [View.readAt_eq_ld, hQ.read_unread, hK.read_unread, hM.read_unread, View.ld_unit_zero (S := S1x1024x1024) hz3,
    View.ld_unit_zero (S := S1x512x1024) hz3, View.ld_unit_zero (S := S1x1024x1) hz3]

/-- The denominator a middle key tile leaves. -/
theorem lMiddle_eq (h1 : ¬isFirst i) (h2 : ¬isLast i) :
    lMiddle c i aQ hQ aK hK aV hV aO hO aM hM aL hL aA hA h1 h2 xq xk xv xm xl xa = k1_pay1 (k1_pay13 xq xk xm xm xl) := by
  unfold lMiddle
  rw [View.read_writes_eq_canon _ _ _ (cover_lMiddle c i aQ hQ aK hK aV hV aO hO aM hM aL hL aA hA h1 h2 xq xk xv xm xl xa)]
  unfold runMiddle
  dsimp only
  sl_unfold_words
  rw [View.canon_unit_zero hz3]
  simp only [View.readAt_eq_ld, hQ.read_unread, hK.read_unread, hM.read_unread, hL.read_unread, View.ld_unit_zero (S := S1x1024x1024) hz3,
    View.ld_unit_zero (S := S1x512x1024) hz3, View.ld_unit_zero (S := S1x1024x1) hz3]

/-- The numerator a middle key tile leaves. -/
theorem aMiddle_eq (h1 : ¬isFirst i) (h2 : ¬isLast i) :
    aMiddle c i aQ hQ aK hK aV hV aO hO aM hM aL hL aA hA h1 h2 xq xk xv xm xl xa
      = k1_pay2 (k1_pay8 xv) (k1_pay11 xq xk xm xm) (k1_pay12 xq xk xm) xa := by
  unfold aMiddle
  rw [View.read_writes_eq_canon _ _ _ (cover_aMiddle c i aQ hQ aK hK aV hV aO hO aM hM aL hL aA hA h1 h2 xq xk xv xm xl xa)]
  unfold runMiddle
  dsimp only
  sl_unfold_words
  rw [View.canon_unit_zero hz3]
  simp only [View.readAt_eq_ld, hQ.read_unread, hK.read_unread, hV.read_unread, hM.read_unread, hA.read_unread,
    View.ld_unit_zero (S := S1x1024x1024) hz3, View.ld_unit_zero (S := S1x512x1024) hz3, View.ld_unit_zero (S := S1x1024x1) hz3]

/-! ## The last key tile -/

/-- The reference point the last key tile leaves: as at a middle one. -/
theorem mLast_eq (h1 : ¬isFirst i) (h2 : isLast i) :
    mLast c i aQ hQ aK hK aV hV aO hO aM hM aL hL aA hA h1 h2 xq xk xv xm xl xa = k1_pay3 (k1_pay10 xq xk xm) := by
  unfold mLast
  rw [View.read_writes_eq_canon _ _ _ (cover_mLast c i aQ hQ aK hK aV hV aO hO aM hM aL hL aA hA h1 h2 xq xk xv xm xl xa)]
  unfold runLast
  dsimp only
  sl_unfold_words
  rw [View.canon_unit_zero hz3]
  simp only [View.readAt_eq_ld, hQ.read_unread, hK.read_unread, hM.read_unread, View.ld_unit_zero (S := S1x1024x1024) hz3,
    View.ld_unit_zero (S := S1x512x1024) hz3, View.ld_unit_zero (S := S1x1024x1) hz3]

/-- The denominator the last key tile leaves: as at a middle one. -/
theorem lLast_eq (h1 : ¬isFirst i) (h2 : isLast i) :
    lLast c i aQ hQ aK hK aV hV aO hO aM hM aL hL aA hA h1 h2 xq xk xv xm xl xa = k1_pay1 (k1_pay13 xq xk xm xm xl) := by
  unfold lLast
  rw [View.read_writes_eq_canon _ _ _ (cover_lLast c i aQ hQ aK hK aV hV aO hO aM hM aL hL aA hA h1 h2 xq xk xv xm xl xa)]
  unfold runLast
  dsimp only
  sl_unfold_words
  rw [View.canon_unit_zero hz3]
  simp only [View.readAt_eq_ld, hQ.read_unread, hK.read_unread, hM.read_unread, hL.read_unread, View.ld_unit_zero (S := S1x1024x1024) hz3,
    View.ld_unit_zero (S := S1x512x1024) hz3, View.ld_unit_zero (S := S1x1024x1) hz3]

/-- The numerator the last key tile leaves: as at a middle one. -/
theorem aLast_eq (h1 : ¬isFirst i) (h2 : isLast i) :
    aLast c i aQ hQ aK hK aV hV aO hO aM hM aL hL aA hA h1 h2 xq xk xv xm xl xa
      = k1_pay2 (k1_pay8 xv) (k1_pay11 xq xk xm xm) (k1_pay12 xq xk xm) xa := by
  unfold aLast
  rw [View.read_writes_eq_canon _ _ _ (cover_aLast c i aQ hQ aK hK aV hV aO hO aM hM aL hL aA hA h1 h2 xq xk xv xm xl xa)]
  unfold runLast
  dsimp only
  sl_unfold_words
  rw [View.canon_unit_zero hz3]
  simp only [View.readAt_eq_ld, hQ.read_unread, hK.read_unread, hV.read_unread, hM.read_unread, hA.read_unread,
    View.ld_unit_zero (S := S1x1024x1024) hz3, View.ld_unit_zero (S := S1x512x1024) hz3, View.ld_unit_zero (S := S1x1024x1) hz3]

/-- The output tile the last key tile leaves: the quotient of the numerator and the denominator it has just stored,
    which it reloads. -/
theorem oLast_eq (h1 : ¬isFirst i) (h2 : isLast i) :
    oLast c i aQ hQ aK hK aV hV aO hO aM hM aL hL aA hA h1 h2 xq xk xv xm xl xa
      = k1_pay4 (k1_pay2 (k1_pay8 xv) (k1_pay11 xq xk xm xm) (k1_pay12 xq xk xm) xa) (k1_pay1 (k1_pay13 xq xk xm xm xl)) := by
  unfold oLast
  rw [View.read_writes_eq_canon _ _ _ (cover_oLast c i aQ hQ aK hK aV hV aO hO aM hM aL hL aA hA h1 h2 xq xk xv xm xl xa)]
  unfold runLast
  dsimp only
  sl_unfold_words
  rw [View.canon_unit_zero hz3, View.readCov_unit_zero (S := S1x1024x1024) _ hz3, View.readCov_unit_zero (S := S1x1024x1) _ hz3]
  simp only [View.readAt_eq_ld, hQ.read_unread, hK.read_unread, hV.read_unread, hM.read_unread, hL.read_unread, hA.read_unread,
    View.ld_unit_zero (S := S1x1024x1024) hz3, View.ld_unit_zero (S := S1x512x1024) hz3, View.ld_unit_zero (S := S1x1024x1) hz3]

/-- The same, over the last key tile's own numerator and denominator. -/
theorem oLast_eq_div (h1 : ¬isFirst i) (h2 : isLast i) :
    oLast c i aQ hQ aK hK aV hV aO hO aM hM aL hL aA hA h1 h2 xq xk xv xm xl xa
      = k1_pay4 (aLast c i aQ hQ aK hK aV hV aO hO aM hM aL hL aA hA h1 h2 xq xk xv xm xl xa)
          (lLast c i aQ hQ aK hK aV hV aO hO aM hM aL hL aA hA h1 h2 xq xk xv xm xl xa) := by
  rw [oLast_eq, aLast_eq, lLast_eq]

/-! ## The first key tile -/

/-- The reference point the first key tile leaves: the update from the reset value -∞. -/
theorem mFirst_eq (h1 : isFirst i) (h2 : ¬isLast i) :
    mFirst c i aQ hQ aK hK aV hV aO hO aM hM aL hL aA hA h1 h2 xq xk xv = k1_pay3 (k1_pay10 xq xk k1_pay5) := by
  unfold mFirst
  rw [View.read_writes_eq_canon _ _ _ (cover_mFirst c i aQ hQ aK hK aV hV aO hO aM hM aL hL aA hA h1 h2 xq xk xv)]
  unfold runFirst
  dsimp only
  sl_unfold_words
  rw [View.canon_cons_unit_zero (S := S1x1024x1) hz3]
  simp only [View.readCov_unit_zero (S := S1x1024x1) _ hz3, View.readAt_eq_ld, hQ.read_unread, hK.read_unread,
    View.ld_unit_zero (S := S1x1024x1024) hz3, View.ld_unit_zero (S := S1x512x1024) hz3]

/-- The denominator the first key tile leaves: the update from the reset values -∞ and 0. -/
theorem lFirst_eq (h1 : isFirst i) (h2 : ¬isLast i) :
    lFirst c i aQ hQ aK hK aV hV aO hO aM hM aL hL aA hA h1 h2 xq xk xv
      = k1_pay1 (k1_pay13 xq xk k1_pay5 k1_pay5 k1_pay6) := by
  unfold lFirst
  rw [View.read_writes_eq_canon _ _ _ (cover_lFirst c i aQ hQ aK hK aV hV aO hO aM hM aL hL aA hA h1 h2 xq xk xv)]
  unfold runFirst
  dsimp only
  sl_unfold_words
  rw [View.canon_cons_unit_zero (S := S1x1024x1) hz3]
  simp only [View.readCov_unit_zero (S := S1x1024x1) _ hz3, View.readAt_eq_ld, hQ.read_unread, hK.read_unread,
    View.ld_unit_zero (S := S1x1024x1024) hz3, View.ld_unit_zero (S := S1x512x1024) hz3]

/-- The numerator the first key tile leaves: the update from the reset values -∞ and 0. -/
theorem aFirst_eq (h1 : isFirst i) (h2 : ¬isLast i) :
    aFirst c i aQ hQ aK hK aV hV aO hO aM hM aL hL aA hA h1 h2 xq xk xv
      = k1_pay2 (k1_pay8 xv) (k1_pay11 xq xk k1_pay5 k1_pay5) (k1_pay12 xq xk k1_pay5) k1_pay7 := by
  unfold aFirst
  rw [View.read_writes_eq_canon _ _ _ (cover_aFirst c i aQ hQ aK hK aV hV aO hO aM hM aL hL aA hA h1 h2 xq xk xv)]
  unfold runFirst
  dsimp only
  sl_unfold_words
  rw [View.canon_cons_unit_zero (S := S1x1024x1024) hz3]
  simp only [View.readCov_unit_zero (S := S1x1024x1) _ hz3, View.readCov_unit_zero (S := S1x1024x1024) _ hz3, View.readAt_eq_ld,
    hQ.read_unread, hK.read_unread, hV.read_unread,
    View.ld_unit_zero (S := S1x1024x1024) hz3, View.ld_unit_zero (S := S1x512x1024) hz3]

end Cert.Proof.FlashPieces

end
-- ==== Proof.FlashGroupDefs.lean ====
/-
  The four key tiles of one query tile, composed: the state the attention body carries and its moves.

  The state is (m, l, acc): per query row a reference point and a denominator, kept as columns, and a numerator row.
  `init` is what the first key tile resets it to (-∞, 0, 0); `step` is one key tile's update, from the loaded query, key
  and value tiles; `fin` is the quotient the last key tile stores.
-/
import proofs.«159669_j21612275434249_2_alg».proof.Proof.Gen.KernelIdeal.Skeleton

noncomputable section

namespace Cert.Proof.FlashGroup

open Cert.KernelIdeal Cert.KernelIdeal.Gen Idealize.ShloMosaic

variable {F : FTy → Type} [FloatOps F]

/-- The carried state: reference point, denominator, numerator. -/
abbrev St (F : FTy → Type) : Type := FVec F S1x1024x1 .f32 × FVec F S1x1024x1 .f32 × FVec F S1x1024x1024 .f32

/-- The reset state: -∞, 0, 0. -/
def init : St F := (k1_pay5, k1_pay6, k1_pay7)

/-- One key tile: the new reference point, the rescaled denominator plus the tile's weights, the rescaled numerator plus
    the tile's weighted values. -/
def step (xq : Vec F S1x1024x1024 .bf16) (xk xv : Vec F S1x512x1024 .bf16) (st : St F) : St F :=
  (k1_pay3 (k1_pay10 xq xk st.1), k1_pay1 (k1_pay13 xq xk st.1 st.1 st.2.1),
    k1_pay2 (k1_pay8 xv) (k1_pay11 xq xk st.1 st.1) (k1_pay12 xq xk st.1) st.2.2)

/-- The stored result: numerator over denominator. -/
def fin (st : St F) : FVec F S1x1024x1024 .f32 := k1_pay4 st.2.2 st.2.1

end Cert.Proof.FlashGroup

end
-- ==== Proof.LibOnlineSoftmax.lean ====
/-
  Online softmax over the reals (Mathlib only).

  A softmax-weighted sum  ∑ₖ (exp (sₖ - M) / ∑ⱼ exp (sⱼ - M)) · vₖ  can be accumulated tile by tile, keeping a
  reference point μ, a denominator l and a numerator acc: on a new tile T with a new reference point μ',

      l'   = exp (μ - μ') · l   + ∑_{k ∈ T} exp (sₖ - μ')
      acc' = exp (μ - μ') · acc + ∑_{k ∈ T} exp (sₖ - μ') · vₖ ,

  the first tile entered with coefficient 0 (the reference point starts at -∞). The invariant is that after the
  tiles covering a set S, l and acc are the sums over S of exp (sₖ - μ) and exp (sₖ - μ) · vₖ. It holds for ANY
  reference points — that μ is the running maximum only matters for rounding — because moving the reference point
  from μ to μ' multiplies every term by exp (μ - μ'). At the end acc / l is the softmax-weighted sum, whatever
  point M the softmax itself is taken relative to.
-/
import Mathlib.Analysis.SpecialFunctions.Exp
import Mathlib.Algebra.BigOperators.Field
import Mathlib.Algebra.Order.BigOperators.Ring.Finset

namespace OnlineSoftmax

open Finset

variable {K : Type*} [DecidableEq K]

/-- The denominator over the keys of `S`, relative to the reference point `μ`. -/
noncomputable def den (s : K → ℝ) (S : Finset K) (μ : ℝ) : ℝ := ∑ k ∈ S, Real.exp (s k - μ)

/-- The numerator over the keys of `S`, relative to the reference point `μ`. -/
noncomputable def num (s v : K → ℝ) (S : Finset K) (μ : ℝ) : ℝ := ∑ k ∈ S, Real.exp (s k - μ) * v k

/-- Moving the reference point from `μ` to `μ'` multiplies a weighted sum of exponentials by `exp (μ - μ')`. -/
theorem rescale (s w : K → ℝ) (S : Finset K) (μ μ' : ℝ) :
    Real.exp (μ - μ') * ∑ k ∈ S, Real.exp (s k - μ) * w k = ∑ k ∈ S, Real.exp (s k - μ') * w k := by
  rw [Finset.mul_sum]
  refine Finset.sum_congr rfl fun k _ => ?_
  rw [← mul_assoc, ← Real.exp_add]
  congr 2
  ring

theorem den_rescale (s : K → ℝ) (S : Finset K) (μ μ' : ℝ) : Real.exp (μ - μ') * den s S μ = den s S μ' := by
  have h := rescale s (fun _ => (1 : ℝ)) S μ μ'
  simpa only [den, mul_one] using h

theorem num_rescale (s v : K → ℝ) (S : Finset K) (μ μ' : ℝ) : Real.exp (μ - μ') * num s v S μ = num s v S μ' :=
  rescale s v S μ μ'

/-- One step on the denominator: the keys of a new tile `T`, disjoint from those seen, at a new reference point. -/
theorem den_step (s : K → ℝ) {S T : Finset K} (h : Disjoint S T) (μ μ' : ℝ) :
    Real.exp (μ - μ') * den s S μ + den s T μ' = den s (S ∪ T) μ' := by
  rw [den_rescale]; unfold den; rw [Finset.sum_union h]

/-- One step on the numerator. -/
theorem num_step (s v : K → ℝ) {S T : Finset K} (h : Disjoint S T) (μ μ' : ℝ) :
    Real.exp (μ - μ') * num s v S μ + num s v T μ' = num s v (S ∪ T) μ' := by
  rw [num_rescale]; unfold num; rw [Finset.sum_union h]

/-- The denominator over a nonempty set is positive. -/
theorem den_pos (s : K → ℝ) {S : Finset K} (hS : S.Nonempty) (μ : ℝ) : 0 < den s S μ :=
  Finset.sum_pos (fun _ _ => Real.exp_pos _) hS

/-- The ratio does not depend on the reference point, and is the softmax-weighted sum relative to any `M`. -/
theorem num_div_den (s v : K → ℝ) {S : Finset K} (hS : S.Nonempty) (μ M : ℝ) :
    num s v S μ / den s S μ = ∑ k ∈ S, Real.exp (s k - M) / (∑ j ∈ S, Real.exp (s j - M)) * v k := by
  have he : Real.exp (μ - M) ≠ 0 := (Real.exp_pos _).ne'
  have h1 : num s v S μ / den s S μ = num s v S M / den s S M := by
    rw [← num_rescale s v S μ M, ← den_rescale s S μ M, mul_div_mul_left _ _ he]
  rw [h1]; unfold num; rw [Finset.sum_div]
  refine Finset.sum_congr rfl fun k _ => ?_
  unfold den; ring

/-! ## The whole run, tile by tile -/

/-- The keys of the first `j` tiles. -/
def seen (tile : ℕ → Finset K) (j : ℕ) : Finset K := (Finset.range j).biUnion tile

theorem seen_succ (tile : ℕ → Finset K) (j : ℕ) : seen tile (j + 1) = seen tile j ∪ tile j := by
  unfold seen; rw [Finset.range_add_one, Finset.biUnion_insert, Finset.union_comm]

theorem seen_disjoint (tile : ℕ → Finset K) (hd : ∀ i j, i ≠ j → Disjoint (tile i) (tile j)) (j : ℕ) :
    Disjoint (seen tile j) (tile j) := by
  unfold seen; rw [Finset.disjoint_biUnion_left]
  intro i hi; exact hd i j (Finset.mem_range.mp hi).ne

/-- THE RUN. Tiles pairwise disjoint; reference points `μ j` used on tile `j` (any reals); the first tile entered
    with coefficient `0`, every later tile `j` with `exp (μ (j-1) - μ j)`. After `j + 1` tiles the two accumulators are
    the sums over the keys seen, relative to `μ j`. -/
theorem run (s v : K → ℝ) (tile : ℕ → Finset K) (hd : ∀ i j, i ≠ j → Disjoint (tile i) (tile j)) (μ a l acc : ℕ → ℝ)
    (ha0 : a 0 = 0) (ha : ∀ j, a (j + 1) = Real.exp (μ j - μ (j + 1)))
    (hl : ∀ j, l (j + 1) = a j * l j + den s (tile j) (μ j))
    (hacc : ∀ j, acc (j + 1) = a j * acc j + num s v (tile j) (μ j)) (j : ℕ) :
    l (j + 1) = den s (seen tile (j + 1)) (μ j) ∧ acc (j + 1) = num s v (seen tile (j + 1)) (μ j) := by
  induction j with
  | zero =>
    have hs : seen tile 1 = tile 0 := by
      have h := seen_succ tile 0
      unfold seen at h ⊢
      rw [Finset.range_zero, Finset.biUnion_empty, Finset.empty_union] at h
      exact h
    have hl0 : l 1 = a 0 * l 0 + den s (tile 0) (μ 0) := hl 0
    have hacc0 : acc 1 = a 0 * acc 0 + num s v (tile 0) (μ 0) := hacc 0
    show l 1 = den s (seen tile 1) (μ 0) ∧ acc 1 = num s v (seen tile 1) (μ 0)
    rw [hl0, hacc0, ha0, hs, zero_mul, zero_mul, zero_add, zero_add]
    exact ⟨rfl, rfl⟩
  | succ j ih =>
    rw [hl (j + 1), hacc (j + 1), ha j, ih.1, ih.2, seen_succ tile (j + 1),
      den_step s (seen_disjoint tile hd (j + 1)), num_step s v (seen_disjoint tile hd (j + 1))]
    exact ⟨rfl, rfl⟩

/-- THE RESULT. If the first `n + 1` tiles cover a nonempty key set `S`, the final ratio is the softmax-weighted sum
    over `S`, the softmax taken relative to any point `M` (the maximum, in practice). -/
theorem run_result (s v : K → ℝ) (tile : ℕ → Finset K) (hd : ∀ i j, i ≠ j → Disjoint (tile i) (tile j)) (μ a l acc : ℕ → ℝ)
    (ha0 : a 0 = 0) (ha : ∀ j, a (j + 1) = Real.exp (μ j - μ (j + 1)))
    (hl : ∀ j, l (j + 1) = a j * l j + den s (tile j) (μ j))
    (hacc : ∀ j, acc (j + 1) = a j * acc j + num s v (tile j) (μ j))
    (n : ℕ) {S : Finset K} (hS : S.Nonempty) (hcover : seen tile (n + 1) = S) (M : ℝ) :
    acc (n + 1) / l (n + 1) = ∑ k ∈ S, Real.exp (s k - M) / (∑ j ∈ S, Real.exp (s j - M)) * v k := by
  obtain ⟨h1, h2⟩ := run s v tile hd μ a l acc ha0 ha hl hacc n
  rw [h1, h2, hcover]
  exact num_div_den s v hS (μ n) M

end OnlineSoftmax
-- ==== Proof.FlashRow.lean ====
/-
  One query row of the online softmax over four key tiles, in the extended reals, against the specification.

  The row's 2048 scaled scores come in four tiles of 512, `S j k`; one feature column of the values likewise, `Vt j k`.
  The state is a reference point `m`, a denominator `l` and a numerator `acc`, all extended reals, started at
  `m 0 = ⊥`, `l 0 = 0`, `acc 0 = 0` and moved tile by tile:

      m (j+1)   = max (m j) (the maximum of tile j's scores, a fold of `max` from ⊥)
      a j       = exp (m j - m (j+1)),      p j k = exp (S j k - m (j+1))
      l (j+1)   = a j · l j   + ∑ k, p j k
      acc (j+1) = a j · acc j + ∑ k, p j k · Vt j k.

  Every state after the first step is a finite real: the point is the running maximum `mu j` of the tiles so far, and
  `l`, `acc` follow the real recurrences of `OnlineSoftmax.run` over the key set `Fin 4 × Fin 512` with tile j the keys
  whose first coordinate is j. The first step's coefficient is `exp (⊥ - mu 0) = exp ⊥ = 0`, as the real run asks.
  Hence `acc 4 / l 4`, the extended reals' division, is the softmax-weighted sum of the specification, relative to any
  point `M`.
-/
import Mathlib.Analysis.SpecialFunctions.Exp
import Mathlib.Algebra.BigOperators.Field
import Mathlib.Order.Interval.Finset.Fin
import Idealize.ShloMosaic.PureOps.Ideal
import proofs.«159669_j21612275434249_2_alg».proof.Proof.LibOnlineSoftmax
import proofs.«159669_j21612275434249_2_alg».proof.Proof.Spec
import proofs.«159669_j21612275434249_2_alg».proof.Proof.RefValueBasics

noncomputable section

namespace Cert.Proof.FlashRow

open Idealize.ShloMosaic Finset

/-! ## The keys, tile by tile -/

/-- A key: its tile and its place in the tile. -/
abbrev Key : Type := Fin 4 × Fin 512

/-- Key (j, k) is key 512·j + k of the untiled row. -/
def keyEquiv : Key ≃ Fin 2048 where
  toFun p := ⟨512 * p.1.val + p.2.val, by have := p.1.isLt; have := p.2.isLt; omega⟩
  invFun i := (⟨i.val / 512, by have := i.isLt; omega⟩, ⟨i.val % 512, Nat.mod_lt _ (by norm_num)⟩)
  left_inv p := by
    rcases p with ⟨⟨a, ha⟩, ⟨b, hb⟩⟩
    refine Prod.ext (Fin.ext ?_) (Fin.ext ?_)
    · show (512 * a + b) / 512 = a
      omega
    · show (512 * a + b) % 512 = b
      omega
  right_inv i := by
    refine Fin.ext ?_
    show 512 * (i.val / 512) + i.val % 512 = i.val
    omega

theorem keyEquiv_val (j : Fin 4) (k : Fin 512) : (keyEquiv (j, k)).val = 512 * j.val + k.val := rfl

/-- A tiled array as a function of the key. -/
def onKey (S : Fin 4 → Fin 512 → ℝ) : Key → ℝ := fun p => S p.1 p.2

/-- The keys of tile `j` (none for `j ≥ 4`). -/
def tile (j : ℕ) : Finset Key := Finset.univ.filter fun p => p.1.val = j

theorem tile_disjoint (i j : ℕ) (h : i ≠ j) : Disjoint (tile i) (tile j) :=
  Finset.disjoint_filter.2 fun _ _ h1 h2 => h (h1.symm.trans h2)

/-- The first four tiles are all the keys. -/
theorem seen_four : OnlineSoftmax.seen tile 4 = (Finset.univ : Finset Key) := by
  ext p
  simp only [OnlineSoftmax.seen, Finset.mem_biUnion, Finset.mem_range, tile, Finset.mem_filter, Finset.mem_univ, true_and, iff_true]
  exact ⟨p.1.val, p.1.isLt, rfl⟩

/-- A sum over the keys of tile `j` is the sum over the places in the tile. -/
theorem sum_tile (j : Fin 4) (f : Key → ℝ) : ∑ p ∈ tile j.val, f p = ∑ k : Fin 512, f (j, k) := by
  have e : tile j.val = (Finset.univ : Finset (Fin 512)).map ⟨fun k => (j, k), fun a b h => (Prod.mk.inj h).2⟩ := by
    ext p
    simp only [tile, Finset.mem_filter, Finset.mem_univ, true_and, Finset.mem_map, Function.Embedding.coeFn_mk]
    constructor
    · intro h
      exact ⟨p.2, Prod.ext (Fin.ext h.symm) rfl⟩
    · rintro ⟨k, rfl⟩
      rfl
  rw [e, Finset.sum_map]
  rfl

/-! ## The real state -/

/-- The maximum of tile `j`'s scores. -/
def tileMax (S : Fin 4 → Fin 512 → ℝ) (j : Fin 4) : ℝ := Finset.univ.sup' Finset.univ_nonempty (S j)

/-- The running maximum after tile `j` (constant from tile 3 on). -/
def mu (S : Fin 4 → Fin 512 → ℝ) : ℕ → ℝ
  | 0 => tileMax S 0
  | j + 1 => if h : j + 1 < 4 then max (mu S j) (tileMax S ⟨j + 1, h⟩) else mu S j

/-- The coefficient tile `j` is entered with: 0 for the first, then the exponential of the point's move. -/
def aR (S : Fin 4 → Fin 512 → ℝ) : ℕ → ℝ
  | 0 => 0
  | j + 1 => Real.exp (mu S j - mu S (j + 1))

/-- The real denominator after `j` tiles. -/
def lR (S : Fin 4 → Fin 512 → ℝ) : ℕ → ℝ
  | 0 => 0
  | j + 1 => aR S j * lR S j + OnlineSoftmax.den (onKey S) (tile j) (mu S j)

/-- The real numerator after `j` tiles. -/
def accR (S Vt : Fin 4 → Fin 512 → ℝ) : ℕ → ℝ
  | 0 => 0
  | j + 1 => aR S j * accR S Vt j + OnlineSoftmax.num (onKey S) (onKey Vt) (tile j) (mu S j)

theorem mu_zero (S : Fin 4 → Fin 512 → ℝ) : mu S 0 = tileMax S 0 := rfl
theorem mu_succ (S : Fin 4 → Fin 512 → ℝ) (j : ℕ) (h : j + 1 < 4) : mu S (j + 1) = max (mu S j) (tileMax S ⟨j + 1, h⟩) := by
  show (if h : j + 1 < 4 then max (mu S j) (tileMax S ⟨j + 1, h⟩) else mu S j) = _
  rw [dif_pos h]
theorem aR_zero (S : Fin 4 → Fin 512 → ℝ) : aR S 0 = 0 := rfl
theorem aR_succ (S : Fin 4 → Fin 512 → ℝ) (j : ℕ) : aR S (j + 1) = Real.exp (mu S j - mu S (j + 1)) := rfl
theorem lR_zero (S : Fin 4 → Fin 512 → ℝ) : lR S 0 = 0 := rfl
theorem lR_succ (S : Fin 4 → Fin 512 → ℝ) (j : ℕ) :
    lR S (j + 1) = aR S j * lR S j + OnlineSoftmax.den (onKey S) (tile j) (mu S j) := rfl
theorem accR_zero (S Vt : Fin 4 → Fin 512 → ℝ) : accR S Vt 0 = 0 := rfl
theorem accR_succ (S Vt : Fin 4 → Fin 512 → ℝ) (j : ℕ) :
    accR S Vt (j + 1) = aR S j * accR S Vt j + OnlineSoftmax.num (onKey S) (onKey Vt) (tile j) (mu S j) := rfl

/-- Tile `j`'s share of the denominator, as a sum over the places in the tile. -/
theorem den_tile (S : Fin 4 → Fin 512 → ℝ) (j : Fin 4) (μ : ℝ) :
    OnlineSoftmax.den (onKey S) (tile j.val) μ = ∑ k : Fin 512, Real.exp (S j k - μ) := by
  unfold OnlineSoftmax.den
  exact sum_tile j fun p => Real.exp (onKey S p - μ)

/-- Tile `j`'s share of the numerator. -/
theorem num_tile (S Vt : Fin 4 → Fin 512 → ℝ) (j : Fin 4) (μ : ℝ) :
    OnlineSoftmax.num (onKey S) (onKey Vt) (tile j.val) μ = ∑ k : Fin 512, Real.exp (S j k - μ) * Vt j k := by
  unfold OnlineSoftmax.num
  exact sum_tile j fun p => Real.exp (onKey S p - μ) * onKey Vt p

/-- (2) After the four tiles the real denominator is the sum of 2048 exponentials: positive. -/
theorem lR_four_pos (S : Fin 4 → Fin 512 → ℝ) : 0 < lR S 4 := by
  have h := (OnlineSoftmax.run (onKey S) (onKey S) tile tile_disjoint (mu S) (aR S) (lR S) (accR S S)
    (aR_zero S) (aR_succ S) (lR_succ S) (accR_succ S S) 3).1
  rw [h, seen_four]
  exact OnlineSoftmax.den_pos (onKey S) Finset.univ_nonempty (mu S 3)

theorem lR_four_ne_zero (S : Fin 4 → Fin 512 → ℝ) : lR S 4 ≠ 0 := (lR_four_pos S).ne'

/-- The real ratio after the four tiles is the specification's softmax-weighted sum of the untiled row and column,
    relative to any point `M`. -/
theorem accR_div_lR (S Vt : Fin 4 → Fin 512 → ℝ) (s v : Fin 2048 → ℝ)
    (hs : ∀ (j : Fin 4) (k : Fin 512), s (keyEquiv (j, k)) = S j k)
    (hv : ∀ (j : Fin 4) (k : Fin 512), v (keyEquiv (j, k)) = Vt j k) (M : ℝ) :
    accR S Vt 4 / lR S 4 = Attention.Spec.weighted s v M := by
  have h := OnlineSoftmax.run_result (onKey S) (onKey Vt) tile tile_disjoint (mu S) (aR S) (lR S) (accR S Vt)
    (aR_zero S) (aR_succ S) (lR_succ S) (accR_succ S Vt) 3 Finset.univ_nonempty seen_four M
  rw [h]
  unfold Attention.Spec.weighted
  have hs' : ∀ p : Key, onKey S p = s (keyEquiv p) := fun p => (hs p.1 p.2).symm
  have hv' : ∀ p : Key, onKey Vt p = v (keyEquiv p) := fun p => (hv p.1 p.2).symm
  have hden : ∑ q : Key, Real.exp (onKey S q - M) = ∑ i : Fin 2048, Real.exp (s i - M) :=
    Fintype.sum_equiv keyEquiv _ _ fun q => by rw [hs' q]
  rw [hden]
  exact Fintype.sum_equiv keyEquiv _ _ fun p => by rw [hs' p, hv' p]

/-! ## The extended-real state is the real one -/

section State

variable (S Vt : Fin 4 → Fin 512 → ℝ) (m l acc : ℕ → EReal)

/-- A fold of `max` from ⊥ is the supremum in the extended reals: a tile maximum stated with `Finset.sup` rewrites to
    the form the hypotheses below use. -/
theorem fold_max_eq_sup (f : Fin 512 → EReal) :
    (Finset.univ : Finset (Fin 512)).fold max (⊥ : EReal) f = (Finset.univ : Finset (Fin 512)).sup f := rfl

/-- The point after tile `j` is the running maximum. -/
theorem point_coe (hm0 : m 0 = ⊥)
    (hm : ∀ (j : ℕ) (hj : j < 4), m (j + 1)
      = max (m j) ((Finset.univ : Finset (Fin 512)).fold max (⊥ : EReal) fun k => ((S ⟨j, hj⟩ k : ℝ) : EReal)))
    (j : ℕ) (hj : j < 4) : m (j + 1) = ((mu S j : ℝ) : EReal) := by
  induction j with
  | zero =>
    rw [hm 0 hj, hm0, RefValue.fold_max_coe Finset.univ_nonempty, max_bot_left]
    rfl
  | succ j ih =>
    rw [hm (j + 1) hj, ih (by omega), RefValue.fold_max_coe Finset.univ_nonempty, mu_succ S j hj]
    exact (EReal.coe_strictMono.monotone.map_max).symm

/-- The coefficient of tile `j` is the real one: 0 at the first tile, where the point starts at ⊥. -/
theorem coeff_coe (hm0 : m 0 = ⊥)
    (hm : ∀ (j : ℕ) (hj : j < 4), m (j + 1)
      = max (m j) ((Finset.univ : Finset (Fin 512)).fold max (⊥ : EReal) fun k => ((S ⟨j, hj⟩ k : ℝ) : EReal)))
    (j : ℕ) (hj : j < 4) : Ideal.exp (m j - m (j + 1)) = ((aR S j : ℝ) : EReal) := by
  rw [point_coe S m hm0 hm j hj]
  cases j with
  | zero =>
    rw [hm0, EReal.bot_sub, Ideal.exp_bot, aR_zero, EReal.coe_zero]
  | succ j =>
    rw [point_coe S m hm0 hm j (by omega), ← EReal.coe_sub, Ideal.exp_coe, aR_succ]

/-- The weight of key (j, k) is the real one. -/
theorem weight_coe (hm0 : m 0 = ⊥)
    (hm : ∀ (j : ℕ) (hj : j < 4), m (j + 1)
      = max (m j) ((Finset.univ : Finset (Fin 512)).fold max (⊥ : EReal) fun k => ((S ⟨j, hj⟩ k : ℝ) : EReal)))
    (j : ℕ) (hj : j < 4) (k : Fin 512) :
    Ideal.exp (((S ⟨j, hj⟩ k : ℝ) : EReal) - m (j + 1)) = ((Real.exp (S ⟨j, hj⟩ k - mu S j) : ℝ) : EReal) := by
  rw [point_coe S m hm0 hm j hj, ← EReal.coe_sub, Ideal.exp_coe]

/-- (1) THE STATE IS REAL: after tile `j` (j < 4) the point is the running maximum `mu S j`, and the denominator and the
    numerator are the real run's `lR S (j+1)`, `accR S Vt (j+1)`. -/
theorem state_coe (hm0 : m 0 = ⊥) (hl0 : l 0 = 0) (hacc0 : acc 0 = 0)
    (hm : ∀ (j : ℕ) (hj : j < 4), m (j + 1)
      = max (m j) ((Finset.univ : Finset (Fin 512)).fold max (⊥ : EReal) fun k => ((S ⟨j, hj⟩ k : ℝ) : EReal)))
    (hl : ∀ (j : ℕ) (hj : j < 4), l (j + 1)
      = Ideal.exp (m j - m (j + 1)) * l j + ∑ k : Fin 512, Ideal.exp (((S ⟨j, hj⟩ k : ℝ) : EReal) - m (j + 1)))
    (hacc : ∀ (j : ℕ) (hj : j < 4), acc (j + 1)
      = Ideal.exp (m j - m (j + 1)) * acc j
        + ∑ k : Fin 512, Ideal.exp (((S ⟨j, hj⟩ k : ℝ) : EReal) - m (j + 1)) * ((Vt ⟨j, hj⟩ k : ℝ) : EReal))
    (j : ℕ) (hj : j < 4) :
    m (j + 1) = ((mu S j : ℝ) : EReal) ∧ l (j + 1) = ((lR S (j + 1) : ℝ) : EReal)
      ∧ acc (j + 1) = ((accR S Vt (j + 1) : ℝ) : EReal) := by
  refine ⟨point_coe S m hm0 hm j hj, ?_⟩
  have key : ∀ i : ℕ, i ≤ 4 → l i = ((lR S i : ℝ) : EReal) ∧ acc i = ((accR S Vt i : ℝ) : EReal) := by
    intro i
    induction i with
    | zero => intro _; exact ⟨by rw [hl0, lR_zero, EReal.coe_zero], by rw [hacc0, accR_zero, EReal.coe_zero]⟩
    | succ i ih =>
      intro hi
      have hi4 : i < 4 := by omega
      obtain ⟨ihl, ihacc⟩ := ih (by omega)
      constructor
      · rw [hl i hi4, coeff_coe S m hm0 hm i hi4, ihl, lR_succ]
        simp only [weight_coe S m hm0 hm i hi4]
        rw [← RefValue.coe_sum, ← EReal.coe_mul, ← EReal.coe_add]
        exact congrArg _ (congrArg _ (den_tile S ⟨i, hi4⟩ (mu S i)).symm)
      · rw [hacc i hi4, coeff_coe S m hm0 hm i hi4, ihacc, accR_succ]
        simp only [weight_coe S m hm0 hm i hi4, ← EReal.coe_mul]
        rw [← RefValue.coe_sum, ← EReal.coe_add]
        exact congrArg _ (congrArg _ (num_tile S Vt ⟨i, hi4⟩ (mu S i)).symm)
  exact key (j + 1) (by omega)

/-- (3) THE RESULT: the final numerator divided by the final denominator, in the extended reals, is the specification's
    softmax-weighted sum of the untiled row `s` and column `v`, the softmax relative to any point `M`. -/
theorem result (hm0 : m 0 = ⊥) (hl0 : l 0 = 0) (hacc0 : acc 0 = 0)
    (hm : ∀ (j : ℕ) (hj : j < 4), m (j + 1)
      = max (m j) ((Finset.univ : Finset (Fin 512)).fold max (⊥ : EReal) fun k => ((S ⟨j, hj⟩ k : ℝ) : EReal)))
    (hl : ∀ (j : ℕ) (hj : j < 4), l (j + 1)
      = Ideal.exp (m j - m (j + 1)) * l j + ∑ k : Fin 512, Ideal.exp (((S ⟨j, hj⟩ k : ℝ) : EReal) - m (j + 1)))
    (hacc : ∀ (j : ℕ) (hj : j < 4), acc (j + 1)
      = Ideal.exp (m j - m (j + 1)) * acc j
        + ∑ k : Fin 512, Ideal.exp (((S ⟨j, hj⟩ k : ℝ) : EReal) - m (j + 1)) * ((Vt ⟨j, hj⟩ k : ℝ) : EReal))
    (s v : Fin 2048 → ℝ)
    (hs : ∀ (j : Fin 4) (k : Fin 512), s (keyEquiv (j, k)) = S j k)
    (hv : ∀ (j : Fin 4) (k : Fin 512), v (keyEquiv (j, k)) = Vt j k) (M : ℝ) :
    Ideal.div (acc 4) (l 4) = ((Attention.Spec.weighted s v M : ℝ) : EReal) := by
  obtain ⟨_, h4l, h4acc⟩ := state_coe S Vt m l acc hm0 hl0 hacc0 hm hl hacc 3 (by norm_num)
  rw [h4l, h4acc, RefValue.div_coe_coe _ _ (lR_four_ne_zero S), accR_div_lR S Vt s v hs hv M]

end State

end Cert.Proof.FlashRow

end
-- ==== Proof.PayloadScore.lean ====
/-
  The scaled scores of one query tile against one key tile, read at an index, over the extended reals.

  The score tile is a batched product (one batch, the feature axis contracted on both sides) into a zero tile, times the
  scale 1/32 = 1/√1024 spread over the tile:

      scores (0, r, j) = (∑ d, q (0, r, d) · k (0, j, d)) · (1/32).
-/
import proofs.«159669_j21612275434249_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Proof.Payload

open Cert.KernelIdeal Cert.KernelIdeal.Gen Idealize.ShloMosaic Idealize.ShloMosaic.ValueIdx Idealize.SL.Sem

/-- The contraction index of the query–key product is the one contracted feature. -/
abbrev scoreContr : dot_S1x1024x1024_S1x512x1024_S1x1024x512_2_2_1_1_0_0.contr.Idx ≃ Fin 1024 :=
  contrEquiv1 dot_S1x1024x1024_S1x512x1024_S1x1024x512_2_2_1_1_0_0 1024 rfl rfl

/-- The query operand's coordinates at a result index and a contraction index: the batch … -/
theorem score_lhs_0 (i : S1x1024x512.Idx) (c : dot_S1x1024x1024_S1x512x1024_S1x1024x512_2_2_1_1_0_0.contr.Idx) :
    (dot_S1x1024x1024_S1x512x1024_S1x1024x512_2_2_1_1_0_0.lhsIdx i c 0).val = (i 0).val := by
  unfold DotDims.lhsIdx
  rw [dif_pos (show (0 : Fin S1x1024x1024.rank) ∈ dot_S1x1024x1024_S1x512x1024_S1x1024x512_2_2_1_1_0_0.lhsBatch by decide)]
  rfl
/-- … the query row … -/
theorem score_lhs_1 (i : S1x1024x512.Idx) (c : dot_S1x1024x1024_S1x512x1024_S1x1024x512_2_2_1_1_0_0.contr.Idx) :
    (dot_S1x1024x1024_S1x512x1024_S1x1024x512_2_2_1_1_0_0.lhsIdx i c 1).val = (i 1).val := by
  unfold DotDims.lhsIdx
  rw [dif_neg (show ¬(1 : Fin S1x1024x1024.rank) ∈ dot_S1x1024x1024_S1x512x1024_S1x1024x512_2_2_1_1_0_0.lhsBatch by decide),
    dif_pos (show (1 : Fin S1x1024x1024.rank) ∈ dot_S1x1024x1024_S1x512x1024_S1x1024x512_2_2_1_1_0_0.lhsNonContracting by decide)]
  rfl
/-- … and the contracted feature. -/
theorem score_lhs_2 (i : S1x1024x512.Idx) (c : dot_S1x1024x1024_S1x512x1024_S1x1024x512_2_2_1_1_0_0.contr.Idx) :
    (dot_S1x1024x1024_S1x512x1024_S1x1024x512_2_2_1_1_0_0.lhsIdx i c 2).val = (c ⟨0, by decide⟩).val :=
  dot_S1x1024x1024_S1x512x1024_S1x1024x512_2_2_1_1_0_0.lhsIdx_val_of_single rfl i c
/-- The key operand's coordinates: the batch … -/
theorem score_rhs_0 (i : S1x1024x512.Idx) (c : dot_S1x1024x1024_S1x512x1024_S1x1024x512_2_2_1_1_0_0.contr.Idx) :
    (dot_S1x1024x1024_S1x512x1024_S1x1024x512_2_2_1_1_0_0.rhsIdx i c 0).val = (i 0).val := by
  unfold DotDims.rhsIdx
  rw [dif_pos (show (0 : Fin S1x512x1024.rank) ∈ dot_S1x1024x1024_S1x512x1024_S1x1024x512_2_2_1_1_0_0.rhsBatch by decide)]
  rfl
/-- … the key row, which is the result's last coordinate … -/
theorem score_rhs_1 (i : S1x1024x512.Idx) (c : dot_S1x1024x1024_S1x512x1024_S1x1024x512_2_2_1_1_0_0.contr.Idx) :
    (dot_S1x1024x1024_S1x512x1024_S1x1024x512_2_2_1_1_0_0.rhsIdx i c 1).val = (i 2).val := by
  unfold DotDims.rhsIdx
  rw [dif_neg (show ¬(1 : Fin S1x512x1024.rank) ∈ dot_S1x1024x1024_S1x512x1024_S1x1024x512_2_2_1_1_0_0.rhsBatch by decide),
    dif_pos (show (1 : Fin S1x512x1024.rank) ∈ dot_S1x1024x1024_S1x512x1024_S1x1024x512_2_2_1_1_0_0.rhsNonContracting by decide)]
  rfl
/-- … and the contracted feature. -/
theorem score_rhs_2 (i : S1x1024x512.Idx) (c : dot_S1x1024x1024_S1x512x1024_S1x1024x512_2_2_1_1_0_0.contr.Idx) :
    (dot_S1x1024x1024_S1x512x1024_S1x1024x512_2_2_1_1_0_0.rhsIdx i c 2).val = (c ⟨0, by decide⟩).val :=
  dot_S1x1024x1024_S1x512x1024_S1x1024x512_2_2_1_1_0_0.rhsIdx_val_of_single rfl i c

/-- The query operand's index at result (0, r, j) and contracted feature d is (0, r, d). -/
theorem score_lhsIdx (r : Fin 1024) (j : Fin 512) (d : Fin 1024) :
    dot_S1x1024x1024_S1x512x1024_S1x1024x512_2_2_1_1_0_0.lhsIdx (ix3 (0 : Fin 1) r j) (scoreContr.symm d) = ix3 (0 : Fin 1) r d := by
  have hd := contrEquiv1_symm_val dot_S1x1024x1024_S1x512x1024_S1x1024x512_2_2_1_1_0_0 1024 rfl rfl d
  refine funext fun a => Fin.ext ?_
  match a with
  | ⟨0, _⟩ => exact score_lhs_0 _ _
  | ⟨1, _⟩ => exact score_lhs_1 _ _
  | ⟨2, _⟩ => exact (score_lhs_2 _ _).trans hd

/-- The key operand's index at result (0, r, j) and contracted feature d is (0, j, d). -/
theorem score_rhsIdx (r : Fin 1024) (j : Fin 512) (d : Fin 1024) :
    dot_S1x1024x1024_S1x512x1024_S1x1024x512_2_2_1_1_0_0.rhsIdx (ix3 (0 : Fin 1) r j) (scoreContr.symm d) = ix3 (0 : Fin 1) j d := by
  have hd := contrEquiv1_symm_val dot_S1x1024x1024_S1x512x1024_S1x1024x512_2_2_1_1_0_0 1024 rfl rfl d
  refine funext fun a => Fin.ext ?_
  match a with
  | ⟨0, _⟩ => exact score_rhs_0 _ _
  | ⟨1, _⟩ => exact score_rhs_1 _ _
  | ⟨2, _⟩ => exact (score_rhs_2 _ _).trans hd

/-- The query–key product into a zero tile, read at (0, r, j): the sum over the contracted feature. -/
theorem score_matmul_apply (q : FVec Ideal S1x1024x1024 .bf16) (k : FVec Ideal S1x512x1024 .bf16) (r : Fin 1024) (j : Fin 512) :
    matmul dot_S1x1024x1024_S1x512x1024_S1x1024x512_2_2_1_1_0_0 none q k (constant (F := Ideal) S1x1024x512 .f32 0x00000000#32)
        (ix3 (0 : Fin 1) r j)
      = ∑ d : Fin 1024, q (ix3 (0 : Fin 1) r d) * k (ix3 (0 : Fin 1) j d) := by
  refine (Ideal.matmul_constant_zero_apply dot_S1x1024x1024_S1x512x1024_S1x1024x512_2_2_1_1_0_0 none q k (ix3 (0 : Fin 1) r j)).trans ?_
  rw [← Equiv.sum_comp scoreContr.symm]
  refine Finset.sum_congr rfl fun d _ => ?_
  rw [score_lhsIdx, score_rhsIdx]

/-- The scaled scores at (0, r, j). -/
theorem k1_pay9_apply (q : Vec Ideal S1x1024x1024 .bf16) (k : Vec Ideal S1x512x1024 .bf16) (r : Fin 1024) (j : Fin 512) :
    k1_pay9 (F := Ideal) q k (ix3 (0 : Fin 1) r j)
      = (∑ d : Fin 1024, q (ix3 (0 : Fin 1) r d) * k (ix3 (0 : Fin 1) j d)) * Ideal.ofBits .f32 0x3D000000#32 := by
  unfold k1_pay9
  rw [mulf_apply, shapeCast_self, shapeCast_self, score_matmul_apply]
  rfl

/-- The scale's word is the real number 1/32. -/
theorem ofBits_scale : Ideal.ofBits .f32 0x3D000000#32 = ((1 / 32 : ℝ) : EReal) := by
  simp [Ideal.ofBits, Ideal.ieee, -EReal.coe_mul]
  norm_num

end Cert.Proof.Payload

end
-- ==== Proof.PayloadLayout.lean ====
/-
  Two layout operations of a row statistic kept as a column, read at an index given by coordinates.

  A row-wise reduction of a [1, a, b] tile gives a [1, a] array; it is kept as a [1, a, 1] column (a shape cast) and
  spread back over the b lanes (a broadcast). At an index both read the row's one value:

      cast   [1, a] → [1, a, 1]   at (u, i, z) reads (0, i);
      spread [1, a, 1] → [1, a, b] at (u, i, c) reads (0, i, 0).
-/
import Idealize.ShloMosaic.Lib.ValueIdx
import Idealize.ShloMosaic.Lib.Pipeline.Value
import Idealize.ShloMosaic.Lib.ValueLayout

namespace Cert.Proof.Payload

open Idealize.ShloMosaic Idealize.ShloMosaic.ValueIdx

variable {α : Type}

/-- A `[1, a]` array cast to `[1, a, 1]` reads, at `(u, i, z)`, the operand at `(0, i)`: the two row-major positions agree. -/
theorem shapeCast_1a_1a1_apply {a : ℕ} (x : (⟨2, ![1, a]⟩ : Shape).Idx → α)
    (h : (⟨2, ![1, a]⟩ : Shape).ShapeCasts ⟨3, ![1, a, 1]⟩) (u : Fin 1) (i : Fin a) (z : Fin 1) :
    shapeCast ⟨3, ![1, a, 1]⟩ x h (ix3 u i z) = x (ix2 (0 : Fin 1) i) :=
  shapeCast_apply x h _ _ (by
    have hu : u.val = 0 := by omega
    have hz : z.val = 0 := by omega
    rw [Shape.rowMajor_val_three, Shape.rowMajor_val_two]
    show 0 * a + i.val = (u.val * a + i.val) * 1 + z.val
    rw [hu, hz, Nat.zero_mul, Nat.zero_add, Nat.mul_one, Nat.add_zero])

/-- A `[1, a, 1]` column broadcast to `[1, a, b]` reads, at `(u, i, c)`, the column's value at row `i`. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (i : Fin a) (c : Fin b) :
    broadcastTo ⟨3, ![1, a, b]⟩ v h (ix3 u i c) = v (ix3 (0 : Fin 1) i (0 : Fin 1)) := by
  refine broadcastTo_apply v h (ix3 u i c) (ix3 (0 : Fin 1) i (0 : Fin 1)) fun ax => ?_
  match ax with
  | ⟨0, _⟩ => rfl
  | ⟨1, _⟩ =>
    show i.val = if a = 1 then 0 else i.val
    split
    · have := i.isLt; omega
    · rfl
  | ⟨2, _⟩ => rfl

end Cert.Proof.Payload
-- ==== Proof.PayloadSoftmax.lean ====
/-
  One online-softmax step of the attention body, read at an index, over the extended reals.

  With s (0, r, j) the scaled scores of query row r against the 512 keys of the tile, m the running reference point
  (one value per row, kept as a column) and l the running denominator:

      new point      m' r = max (m r) (max over j of s (0, r, j))          (the lane maximum starts from the word of -∞)
      rescale        a r  = exp (m_old r - m' r)
      weights        p (0, r, j) = exp (s (0, r, j) - m' r)
      new denominator l' r = a r · l r + ∑ j, p (0, r, j).

  The row statistics are [1, 1024, 1] columns; the lane reductions give [1, 1024] arrays that are recast as columns, and a
  column is spread over the lanes by a broadcast: at an index each of these reads the row's one value.
-/
import proofs.«159669_j21612275434249_2_alg».proof.Proof.Gen.KernelIdeal.Skeleton
import proofs.«159669_j21612275434249_2_alg».proof.Proof.PayloadLayout
import Idealize.ShloMosaic.Lib.ValueIdx
import Idealize.ShloMosaic.Lib.Pipeline.Value
import Idealize.ShloMosaic.Lib.ValueLayout
import Idealize.ShloMosaic.PureOps.Ideal.Laws

noncomputable section

namespace Cert.Proof.Payload

open Cert.KernelIdeal Cert.KernelIdeal.Gen Idealize.ShloMosaic Idealize.ShloMosaic.ValueIdx Idealize.SL.Sem

/-- Row r of the [1, 1024] result with lane j put back is the tile's index (0, r, j). -/
theorem lane_lift (r : Fin 1024) (j : Fin 512) :
    reduces_S1x1024x512_S1x1024.lift (ix2 (0 : Fin 1) r) j = ix3 (0 : Fin 1) r j :=
  funext fun c => Fin.ext (by match c with | ⟨0, _⟩ => rfl | ⟨1, _⟩ => rfl | ⟨2, _⟩ => rfl)

/-- The lane maximum of a [1, 1024, 512] tile at row r: the fold of `max` over the 512 lanes, from the value of the word
    the reduction starts from (the word of -∞). -/
theorem lane_max_apply (s : FVec Ideal S1x1024x512 .f32) (r : Fin 1024) :
    multiReduction (F := Ideal) .maximumf [2] S1x1024 s 0xFF800000#32 reduces_S1x1024x512_S1x1024 (.inl rfl) rfl (ix2 (0 : Fin 1) r)
      = (Finset.univ : Finset (Fin 512)).fold max (Ideal.ofBits .f32 0xFF800000#32) (fun j => s (ix3 (0 : Fin 1) r j)) := by
  refine (Ideal.multiReduction_maximumf_single s 0xFF800000#32 reduces_S1x1024x512_S1x1024 (.inl rfl) rfl (ix2 (0 : Fin 1) r)).trans ?_
  show (Finset.univ : Finset (Fin 512)).fold max (Ideal.ofBits .f32 0xFF800000#32)
      (s ∘ reduces_S1x1024x512_S1x1024.lift (ix2 (0 : Fin 1) r)) = _
  exact congrArg (fun f : Fin 512 → EReal => (Finset.univ : Finset (Fin 512)).fold max (Ideal.ofBits .f32 0xFF800000#32) f)
    (funext fun j => congrArg s (lane_lift r j))

/-- The lane sum of a [1, 1024, 512] tile at row r: the sum over the 512 lanes. -/
theorem lane_sum_apply (s : FVec Ideal S1x1024x512 .f32) (r : Fin 1024) :
    multiReduction (F := Ideal) .add [2] S1x1024 s 0x00000000#32 reduces_S1x1024x512_S1x1024 (.inl rfl) rfl (ix2 (0 : Fin 1) r)
      = ∑ j : Fin 512, s (ix3 (0 : Fin 1) r j) := by
  refine (Ideal.multiReduction_add_single s 0x00000000#32 reduces_S1x1024x512_S1x1024 (.inl rfl) rfl (ix2 (0 : Fin 1) r)).trans ?_
  show ∑ j : Fin 512, s (reduces_S1x1024x512_S1x1024.lift (ix2 (0 : Fin 1) r) j) = _
  exact Finset.sum_congr rfl fun j _ => congrArg s (lane_lift r j)

/-- The word the lane maximum starts from is -∞. -/
theorem ofBits_neg_inf : Ideal.ofBits .f32 0xFF800000#32 = ⊥ := by
  simp [Ideal.ofBits, Ideal.ieee]

/-- THE NEW REFERENCE POINT at row r: the larger of the running point and the lane maximum of the scores, the lane maximum
    a fold of `max` over the 512 lanes starting from the value of the word 0xFF800000 (which is ⊥: `ofBits_neg_inf`). -/
theorem k1_pay10_apply (q : Vec Ideal S1x1024x1024 .bf16) (k : Vec Ideal S1x512x1024 .bf16) (m : Vec Ideal S1x1024x1 .f32)
    (r : Fin 1024) :
    k1_pay10 (F := Ideal) q k m (ix3 (0 : Fin 1) r (0 : Fin 1))
      = max (m (ix3 (0 : Fin 1) r (0 : Fin 1)))
          ((Finset.univ : Finset (Fin 512)).fold max (Ideal.ofBits .f32 0xFF800000#32)
            (fun j => k1_pay9 (F := Ideal) q k (ix3 (0 : Fin 1) r j))) := by
  unfold k1_pay10
  rw [maximumf_apply]
  refine congrArg (max (m (ix3 (0 : Fin 1) r (0 : Fin 1)))) ?_
  exact (shapeCast_1a_1a1_apply _ shapeCasts_S1x1024_S1x1024x1 0 r 0).trans (lane_max_apply (k1_pay9 (F := Ideal) q k) r)

/-- The same with the lane maximum written as the supremum over the 512 lanes in the extended reals (⊥ for no lane). -/
theorem k1_pay10_apply_sup (q : Vec Ideal S1x1024x1024 .bf16) (k : Vec Ideal S1x512x1024 .bf16) (m : Vec Ideal S1x1024x1 .f32)
    (r : Fin 1024) :
    k1_pay10 (F := Ideal) q k m (ix3 (0 : Fin 1) r (0 : Fin 1))
      = max (m (ix3 (0 : Fin 1) r (0 : Fin 1)))
          ((Finset.univ : Finset (Fin 512)).sup (fun j => k1_pay9 (F := Ideal) q k (ix3 (0 : Fin 1) r j))) := by
  rw [k1_pay10_apply, ofBits_neg_inf]
  rfl

/-- THE RESCALING FACTOR at row r: the exponential of the old point minus the new one. -/
theorem k1_pay11_apply (q : Vec Ideal S1x1024x1024 .bf16) (k : Vec Ideal S1x512x1024 .bf16) (m m' : Vec Ideal S1x1024x1 .f32)
    (r : Fin 1024) :
    k1_pay11 (F := Ideal) q k m m' (ix3 (0 : Fin 1) r (0 : Fin 1))
      = Ideal.exp (m' (ix3 (0 : Fin 1) r (0 : Fin 1)) - k1_pay10 (F := Ideal) q k m (ix3 (0 : Fin 1) r (0 : Fin 1))) := rfl

/-- THE WEIGHTS at (0, r, j): the exponential of the score minus the row's new point. -/
theorem k1_pay12_apply (q : Vec Ideal S1x1024x1024 .bf16) (k : Vec Ideal S1x512x1024 .bf16) (m : Vec Ideal S1x1024x1 .f32)
    (r : Fin 1024) (j : Fin 512) :
    k1_pay12 (F := Ideal) q k m (ix3 (0 : Fin 1) r j)
      = Ideal.exp (k1_pay9 (F := Ideal) q k (ix3 (0 : Fin 1) r j) - k1_pay10 (F := Ideal) q k m (ix3 (0 : Fin 1) r (0 : Fin 1))) := by
  unfold k1_pay12
  show Ideal.exp (k1_pay9 (F := Ideal) q k (ix3 (0 : Fin 1) r j)
      - broadcastTo S1x1024x512 (k1_pay10 (F := Ideal) q k m) broadcasts_S1x1024x1_S1x1024x512 (ix3 (0 : Fin 1) r j)) = _
  rw [broadcastTo_1a1_1ab_apply]

/-- THE NEW DENOMINATOR at row r: the rescaled running denominator plus the lane sum of the weights. -/
theorem k1_pay13_apply (q : Vec Ideal S1x1024x1024 .bf16) (k : Vec Ideal S1x512x1024 .bf16) (m m' l : Vec Ideal S1x1024x1 .f32)
    (r : Fin 1024) :
    k1_pay13 (F := Ideal) q k m m' l (ix3 (0 : Fin 1) r (0 : Fin 1))
      = k1_pay11 (F := Ideal) q k m m' (ix3 (0 : Fin 1) r (0 : Fin 1)) * l (ix3 (0 : Fin 1) r (0 : Fin 1))
        + ∑ j : Fin 512, k1_pay12 (F := Ideal) q k m (ix3 (0 : Fin 1) r j) := by
  unfold k1_pay13
  rw [addf_apply, mulf_apply]
  refine congrArg (k1_pay11 (F := Ideal) q k m m' (ix3 (0 : Fin 1) r (0 : Fin 1)) * l (ix3 (0 : Fin 1) r (0 : Fin 1)) + ·) ?_
  exact (shapeCast_1a_1a1_apply _ shapeCasts_S1x1024_S1x1024x1 0 r 0).trans (lane_sum_apply (k1_pay12 (F := Ideal) q k m) r)

end Cert.Proof.Payload

end
-- ==== Proof.PayloadAcc.lean ====
/-
  The accumulator step and the final normalisation of the attention body, and the body's constant and pass-through
  stores, read at an index, over the extended reals.

  With a the rescaling factor (one value per row, kept as a column), p the weights of the tile's 512 keys, v the tile's
  value rows and acc the running numerator:

      acc' (0, r, e) = a r · acc (0, r, e) + ∑ j, p (0, r, j) · v (0, j, e)
      out  (0, r, e) = acc (0, r, e) / l r                                   (the extended reals' division).

  The weights change float format on the way into the product (the identity on the extended reals) and the product is
  accumulated into a zero tile. The first grid step stores -∞ for the reference point and 0 for the denominator and the
  numerator; three stores pass a value through a cast to its own shape.
-/
import proofs.«159669_j21612275434249_2_alg».proof.Proof.Gen.KernelIdeal.Skeleton
import proofs.«159669_j21612275434249_2_alg».proof.Proof.PayloadLayout
import Idealize.ShloMosaic.Lib.ValueIdx
import Idealize.ShloMosaic.Lib.Pipeline.Value
import Idealize.ShloMosaic.Lib.ValueLayout
import Idealize.ShloMosaic.PureOps.Ideal.Laws

noncomputable section

namespace Cert.Proof.Payload

open Cert.KernelIdeal Cert.KernelIdeal.Gen Idealize.ShloMosaic Idealize.ShloMosaic.ValueIdx Idealize.SL.Sem

/-- The contraction index of the weights–values product is the one contracted key. -/
abbrev accContr : dot_S1x1024x512_S1x512x1024_S1x1024x1024_2_1_1_2_0_0.contr.Idx ≃ Fin 512 :=
  contrEquiv1 dot_S1x1024x512_S1x512x1024_S1x1024x1024_2_1_1_2_0_0 512 rfl rfl

/-- The weights operand's coordinates at a result index and a contraction index: the batch … -/
theorem acc_lhs_0 (i : S1x1024x1024.Idx) (c : dot_S1x1024x512_S1x512x1024_S1x1024x1024_2_1_1_2_0_0.contr.Idx) :
    (dot_S1x1024x512_S1x512x1024_S1x1024x1024_2_1_1_2_0_0.lhsIdx i c 0).val = (i 0).val := by
  unfold DotDims.lhsIdx
  rw [dif_pos (show (0 : Fin S1x1024x512.rank) ∈ dot_S1x1024x512_S1x512x1024_S1x1024x1024_2_1_1_2_0_0.lhsBatch by decide)]
  rfl
/-- … the query row … -/
theorem acc_lhs_1 (i : S1x1024x1024.Idx) (c : dot_S1x1024x512_S1x512x1024_S1x1024x1024_2_1_1_2_0_0.contr.Idx) :
    (dot_S1x1024x512_S1x512x1024_S1x1024x1024_2_1_1_2_0_0.lhsIdx i c 1).val = (i 1).val := by
  unfold DotDims.lhsIdx
  rw [dif_neg (show ¬(1 : Fin S1x1024x512.rank) ∈ dot_S1x1024x512_S1x512x1024_S1x1024x1024_2_1_1_2_0_0.lhsBatch by decide),
    dif_pos (show (1 : Fin S1x1024x512.rank) ∈ dot_S1x1024x512_S1x512x1024_S1x1024x1024_2_1_1_2_0_0.lhsNonContracting by decide)]
  rfl
/-- … and the contracted key. -/
theorem acc_lhs_2 (i : S1x1024x1024.Idx) (c : dot_S1x1024x512_S1x512x1024_S1x1024x1024_2_1_1_2_0_0.contr.Idx) :
    (dot_S1x1024x512_S1x512x1024_S1x1024x1024_2_1_1_2_0_0.lhsIdx i c 2).val = (c ⟨0, by decide⟩).val :=
  dot_S1x1024x512_S1x512x1024_S1x1024x1024_2_1_1_2_0_0.lhsIdx_val_of_single rfl i c
/-- The values operand's coordinates: the batch … -/
theorem acc_rhs_0 (i : S1x1024x1024.Idx) (c : dot_S1x1024x512_S1x512x1024_S1x1024x1024_2_1_1_2_0_0.contr.Idx) :
    (dot_S1x1024x512_S1x512x1024_S1x1024x1024_2_1_1_2_0_0.rhsIdx i c 0).val = (i 0).val := by
  unfold DotDims.rhsIdx
  rw [dif_pos (show (0 : Fin S1x512x1024.rank) ∈ dot_S1x1024x512_S1x512x1024_S1x1024x1024_2_1_1_2_0_0.rhsBatch by decide)]
  rfl
/-- … the contracted key … -/
theorem acc_rhs_1 (i : S1x1024x1024.Idx) (c : dot_S1x1024x512_S1x512x1024_S1x1024x1024_2_1_1_2_0_0.contr.Idx) :
    (dot_S1x1024x512_S1x512x1024_S1x1024x1024_2_1_1_2_0_0.rhsIdx i c 1).val = (c ⟨0, by decide⟩).val :=
  dot_S1x1024x512_S1x512x1024_S1x1024x1024_2_1_1_2_0_0.rhsIdx_val_of_single rfl i c
/-- … and the feature, which is the result's last coordinate. -/
theorem acc_rhs_2 (i : S1x1024x1024.Idx) (c : dot_S1x1024x512_S1x512x1024_S1x1024x1024_2_1_1_2_0_0.contr.Idx) :
    (dot_S1x1024x512_S1x512x1024_S1x1024x1024_2_1_1_2_0_0.rhsIdx i c 2).val = (i 2).val := by
  unfold DotDims.rhsIdx
  rw [dif_neg (show ¬(2 : Fin S1x512x1024.rank) ∈ dot_S1x1024x512_S1x512x1024_S1x1024x1024_2_1_1_2_0_0.rhsBatch by decide),
    dif_pos (show (2 : Fin S1x512x1024.rank) ∈ dot_S1x1024x512_S1x512x1024_S1x1024x1024_2_1_1_2_0_0.rhsNonContracting by decide)]
  rfl

/-- The weights operand's index at result (0, r, e) and contracted key j is (0, r, j). -/
theorem acc_lhsIdx (r : Fin 1024) (e : Fin 1024) (j : Fin 512) :
    dot_S1x1024x512_S1x512x1024_S1x1024x1024_2_1_1_2_0_0.lhsIdx (ix3 (0 : Fin 1) r e) (accContr.symm j) = ix3 (0 : Fin 1) r j := by
  have hj := contrEquiv1_symm_val dot_S1x1024x512_S1x512x1024_S1x1024x1024_2_1_1_2_0_0 512 rfl rfl j
  refine funext fun a => Fin.ext ?_
  match a with
  | ⟨0, _⟩ => exact acc_lhs_0 _ _
  | ⟨1, _⟩ => exact acc_lhs_1 _ _
  | ⟨2, _⟩ => exact (acc_lhs_2 _ _).trans hj

/-- The values operand's index at result (0, r, e) and contracted key j is (0, j, e). -/
theorem acc_rhsIdx (r : Fin 1024) (e : Fin 1024) (j : Fin 512) :
    dot_S1x1024x512_S1x512x1024_S1x1024x1024_2_1_1_2_0_0.rhsIdx (ix3 (0 : Fin 1) r e) (accContr.symm j) = ix3 (0 : Fin 1) j e := by
  have hj := contrEquiv1_symm_val dot_S1x1024x512_S1x512x1024_S1x1024x1024_2_1_1_2_0_0 512 rfl rfl j
  refine funext fun a => Fin.ext ?_
  match a with
  | ⟨0, _⟩ => exact acc_rhs_0 _ _
  | ⟨1, _⟩ => exact (acc_rhs_1 _ _).trans hj
  | ⟨2, _⟩ => exact acc_rhs_2 _ _

/-- The weights–values product into a zero tile, read at (0, r, e): the sum over the contracted key. -/
theorem acc_matmul_apply (p : FVec Ideal S1x1024x512 .bf16) (v : FVec Ideal S1x512x1024 .bf16) (r : Fin 1024) (e : Fin 1024) :
    matmul dot_S1x1024x512_S1x512x1024_S1x1024x1024_2_1_1_2_0_0 none p v (constant (F := Ideal) S1x1024x1024 .f32 0x00000000#32)
        (ix3 (0 : Fin 1) r e)
      = ∑ j : Fin 512, p (ix3 (0 : Fin 1) r j) * v (ix3 (0 : Fin 1) j e) := by
  refine (Ideal.matmul_constant_zero_apply dot_S1x1024x512_S1x512x1024_S1x1024x1024_2_1_1_2_0_0 none p v (ix3 (0 : Fin 1) r e)).trans ?_
  rw [← Equiv.sum_comp accContr.symm]
  refine Finset.sum_congr rfl fun j _ => ?_
  rw [acc_lhsIdx, acc_rhsIdx]

/-- THE NEW NUMERATOR at (0, r, e): the rescaled running numerator plus the weighted sum of the tile's value rows. -/
theorem k1_pay2_apply (v8 : FVec Ideal S1x512x1024 .bf16) (a : FVec Ideal S1x1024x1 .f32) (p : FVec Ideal S1x1024x512 .f32)
    (acc : Vec Ideal S1x1024x1024 .f32) (r : Fin 1024) (e : Fin 1024) :
    k1_pay2 (F := Ideal) v8 a p acc (ix3 (0 : Fin 1) r e)
      = a (ix3 (0 : Fin 1) r (0 : Fin 1)) * acc (ix3 (0 : Fin 1) r e)
        + ∑ j : Fin 512, p (ix3 (0 : Fin 1) r j) * v8 (ix3 (0 : Fin 1) j e) := by
  unfold k1_pay2
  rw [shapeCast_self, addf_apply, mulf_apply, broadcastTo_1a1_1ab_apply, acc_matmul_apply]
  rfl

/-- THE RESULT at (0, r, e): the numerator divided by the row's denominator. -/
theorem k1_pay4_apply (acc : Vec Ideal S1x1024x1024 .f32) (l : Vec Ideal S1x1024x1 .f32) (r : Fin 1024) (e : Fin 1024) :
    k1_pay4 (F := Ideal) acc l (ix3 (0 : Fin 1) r e)
      = Ideal.div (acc (ix3 (0 : Fin 1) r e)) (l (ix3 (0 : Fin 1) r (0 : Fin 1))) := by
  unfold k1_pay4
  rw [divf_apply, broadcastTo_1a1_1ab_apply]

/-- The stored denominator is the computed one (a cast to its own shape). -/
theorem k1_pay1_eq (v : FVec Ideal S1x1024x1 .f32) : k1_pay1 (F := Ideal) v = v :=
  shapeCast_self v shapeCasts_S1x1024x1_S1x1024x1
theorem k1_pay1_apply (v : FVec Ideal S1x1024x1 .f32) (i : S1x1024x1.Idx) : k1_pay1 (F := Ideal) v i = v i :=
  congrFun (k1_pay1_eq v) i

/-- The stored reference point is the computed one. -/
theorem k1_pay3_eq (v : FVec Ideal S1x1024x1 .f32) : k1_pay3 (F := Ideal) v = v :=
  shapeCast_self v shapeCasts_S1x1024x1_S1x1024x1
theorem k1_pay3_apply (v : FVec Ideal S1x1024x1 .f32) (i : S1x1024x1.Idx) : k1_pay3 (F := Ideal) v i = v i :=
  congrFun (k1_pay3_eq v) i

/-- The value tile passed on to the product is the loaded one. -/
theorem k1_pay8_eq (v : Vec Ideal S1x512x1024 .bf16) : k1_pay8 (F := Ideal) v = v :=
  shapeCast_self v shapeCasts_S1x512x1024_S1x512x1024
theorem k1_pay8_apply (v : Vec Ideal S1x512x1024 .bf16) (i : S1x512x1024.Idx) : k1_pay8 (F := Ideal) v i = v i :=
  congrFun (k1_pay8_eq v) i

/-- The first grid step's reference point is -∞ everywhere (the word 0xFF800000). -/
theorem k1_pay5_apply (i : S1x1024x1.Idx) : k1_pay5 (F := Ideal) i = ⊥ := by
  unfold k1_pay5
  rw [shapeCast_self]
  show Ideal.ofBits .f32 0xFF800000#32 = ⊥
  simp [Ideal.ofBits, Ideal.ieee]

/-- The first grid step's denominator is 0 everywhere. -/
theorem k1_pay6_apply (i : S1x1024x1.Idx) : k1_pay6 (F := Ideal) i = 0 := by
  unfold k1_pay6
  rw [shapeCast_self]
  exact Ideal.ofBits_zero_f32

/-- The first grid step's numerator is 0 everywhere. -/
theorem k1_pay7_apply (i : S1x1024x1024.Idx) : k1_pay7 (F := Ideal) i = 0 := by
  unfold k1_pay7
  rw [shapeCast_self]
  exact Ideal.ofBits_zero_f32

end Cert.Proof.Payload

end
-- ==== Proof.FlashGroup.lean ====
/-
  The four key tiles of one query tile, composed, over the extended reals: the stored result is the specification's
  softmax-weighted sum.

  For real-valued query, key and value tiles, fix a query row r and a feature e. The row's scaled scores against tile j
  are the reals `scoreR Qr Kr r j k = (∑ d, Qr r d · Kr j k d) · (1/32)`. Read at row r, the state after each key tile
  follows exactly the one-row recurrences of the online softmax (the module on one query row), started from (-∞, 0, 0);
  so the final quotient is the softmax-weighted sum of the 2048 scores against the feature column of the values.
-/
import proofs.«159669_j21612275434249_2_alg».proof.Proof.FlashGroupDefs
import proofs.«159669_j21612275434249_2_alg».proof.Proof.FlashRow
import proofs.«159669_j21612275434249_2_alg».proof.Proof.PayloadScore
import proofs.«159669_j21612275434249_2_alg».proof.Proof.PayloadSoftmax
import proofs.«159669_j21612275434249_2_alg».proof.Proof.PayloadAcc

noncomputable section

namespace Cert.Proof.FlashGroup

open Cert.KernelIdeal Cert.KernelIdeal.Gen Idealize.ShloMosaic Idealize.ShloMosaic.ValueIdx
open Cert.Proof.Payload Cert.Proof.FlashRow

/-! ## One step and the two ends, read at an index -/

/-- The reset reference point is -∞ … -/
theorem init_fst (i : S1x1024x1.Idx) : (init (F := Ideal)).1 i = ⊥ := k1_pay5_apply i
/-- … the reset denominator 0 … -/
theorem init_snd (i : S1x1024x1.Idx) : (init (F := Ideal)).2.1 i = 0 := k1_pay6_apply i
/-- … and the reset numerator 0. -/
theorem init_thd (i : S1x1024x1024.Idx) : (init (F := Ideal)).2.2 i = 0 := k1_pay7_apply i

/-- The new reference point of a step. -/
theorem step_fst (q : Vec Ideal S1x1024x1024 .bf16) (k v : Vec Ideal S1x512x1024 .bf16) (st : St Ideal) (i : S1x1024x1.Idx) :
    (step q k v st).1 i = k1_pay10 (F := Ideal) q k st.1 i := by
  show k1_pay3 (F := Ideal) (k1_pay10 (F := Ideal) q k st.1) i = _
  exact k1_pay3_apply (k1_pay10 (F := Ideal) q k st.1) i

/-- The new denominator of a step, at row r. -/
theorem step_snd (q : Vec Ideal S1x1024x1024 .bf16) (k v : Vec Ideal S1x512x1024 .bf16) (st : St Ideal) (r : Fin 1024) :
    (step q k v st).2.1 (ix3 (0 : Fin 1) r (0 : Fin 1))
      = Ideal.exp (st.1 (ix3 (0 : Fin 1) r (0 : Fin 1)) - k1_pay10 (F := Ideal) q k st.1 (ix3 (0 : Fin 1) r (0 : Fin 1)))
          * st.2.1 (ix3 (0 : Fin 1) r (0 : Fin 1))
        + ∑ j : Fin 512, Ideal.exp (k1_pay9 (F := Ideal) q k (ix3 (0 : Fin 1) r j)
            - k1_pay10 (F := Ideal) q k st.1 (ix3 (0 : Fin 1) r (0 : Fin 1))) := by
  show k1_pay1 (F := Ideal) (k1_pay13 (F := Ideal) q k st.1 st.1 st.2.1) (ix3 (0 : Fin 1) r (0 : Fin 1)) = _
  rw [k1_pay1_apply, k1_pay13_apply, k1_pay11_apply]
  simp only [k1_pay12_apply]

/-- The new numerator of a step, at row r and feature e. -/
theorem step_thd (q : Vec Ideal S1x1024x1024 .bf16) (k v : Vec Ideal S1x512x1024 .bf16) (st : St Ideal) (r e : Fin 1024) :
    (step q k v st).2.2 (ix3 (0 : Fin 1) r e)
      = Ideal.exp (st.1 (ix3 (0 : Fin 1) r (0 : Fin 1)) - k1_pay10 (F := Ideal) q k st.1 (ix3 (0 : Fin 1) r (0 : Fin 1)))
          * st.2.2 (ix3 (0 : Fin 1) r e)
        + ∑ j : Fin 512, Ideal.exp (k1_pay9 (F := Ideal) q k (ix3 (0 : Fin 1) r j)
            - k1_pay10 (F := Ideal) q k st.1 (ix3 (0 : Fin 1) r (0 : Fin 1))) * v (ix3 (0 : Fin 1) j e) := by
  show k1_pay2 (F := Ideal) (k1_pay8 (F := Ideal) v) (k1_pay11 (F := Ideal) q k st.1 st.1) (k1_pay12 (F := Ideal) q k st.1) st.2.2
      (ix3 (0 : Fin 1) r e) = _
  rw [k1_pay2_apply, k1_pay11_apply]
  simp only [k1_pay12_apply, k1_pay8_apply]

/-- The stored result at row r and feature e. -/
theorem fin_apply (st : St Ideal) (r e : Fin 1024) :
    fin st (ix3 (0 : Fin 1) r e) = Ideal.div (st.2.2 (ix3 (0 : Fin 1) r e)) (st.2.1 (ix3 (0 : Fin 1) r (0 : Fin 1))) := by
  show k1_pay4 (F := Ideal) st.2.2 st.2.1 (ix3 (0 : Fin 1) r e) = _
  exact k1_pay4_apply st.2.2 st.2.1 r e

/-! ## The state after j key tiles -/

section Run

variable (xq : Fin 4 → Vec Ideal S1x1024x1024 .bf16) (xk xv : Fin 4 → Vec Ideal S1x512x1024 .bf16)

/-- The state after the first `j` key tiles (constant from 4 on). -/
def stateN : ℕ → St Ideal
  | 0 => init
  | j + 1 => if h : j < 4 then step (xq ⟨j, h⟩) (xk ⟨j, h⟩) (xv ⟨j, h⟩) (stateN j) else stateN j

theorem stateN_zero : stateN xq xk xv 0 = init := rfl
theorem stateN_succ (j : ℕ) (h : j < 4) :
    stateN xq xk xv (j + 1) = step (xq ⟨j, h⟩) (xk ⟨j, h⟩) (xv ⟨j, h⟩) (stateN xq xk xv j) := by
  show (if h : j < 4 then step (xq ⟨j, h⟩) (xk ⟨j, h⟩) (xv ⟨j, h⟩) (stateN xq xk xv j) else stateN xq xk xv j) = _
  rw [dif_pos h]

/-- After four tiles: the four steps written out. -/
theorem stateN_four : stateN xq xk xv 4
    = step (xq 3) (xk 3) (xv 3) (step (xq 2) (xk 2) (xv 2) (step (xq 1) (xk 1) (xv 1) (step (xq 0) (xk 0) (xv 0) init))) := by
  rw [stateN_succ xq xk xv 3 (by norm_num), stateN_succ xq xk xv 2 (by norm_num), stateN_succ xq xk xv 1 (by norm_num),
    stateN_succ xq xk xv 0 (by norm_num), stateN_zero]
  rfl

/-- Row r's reference point, denominator and (at feature e) numerator after `j` key tiles. -/
def rowM (r : Fin 1024) (j : ℕ) : EReal := (stateN xq xk xv j).1 (ix3 (0 : Fin 1) r (0 : Fin 1))
def rowL (r : Fin 1024) (j : ℕ) : EReal := (stateN xq xk xv j).2.1 (ix3 (0 : Fin 1) r (0 : Fin 1))
def rowAcc (r e : Fin 1024) (j : ℕ) : EReal := (stateN xq xk xv j).2.2 (ix3 (0 : Fin 1) r e)

theorem rowM_zero (r : Fin 1024) : rowM xq xk xv r 0 = ⊥ := init_fst _
theorem rowL_zero (r : Fin 1024) : rowL xq xk xv r 0 = 0 := init_snd _
theorem rowAcc_zero (r e : Fin 1024) : rowAcc xq xk xv r e 0 = 0 := init_thd _

/-! ## Real-valued tiles -/

variable (Qr : Fin 1024 → Fin 1024 → ℝ) (Kr Vr : Fin 4 → Fin 512 → Fin 1024 → ℝ)

/-- Row r's scaled score against key k of tile j. -/
def scoreR (r : Fin 1024) : Fin 4 → Fin 512 → ℝ := fun j k => (∑ d : Fin 1024, Qr r d * Kr j k d) * (1 / 32 : ℝ)

/-- The body's scaled scores are those reals. -/
theorem score_coe (hq : ∀ (j : Fin 4) (r d : Fin 1024), xq j (ix3 (0 : Fin 1) r d) = ((Qr r d : ℝ) : EReal))
    (hk : ∀ (j : Fin 4) (k : Fin 512) (d : Fin 1024), xk j (ix3 (0 : Fin 1) k d) = ((Kr j k d : ℝ) : EReal))
    (j : Fin 4) (r : Fin 1024) (k : Fin 512) :
    k1_pay9 (F := Ideal) (xq j) (xk j) (ix3 (0 : Fin 1) r k) = ((scoreR Qr Kr r j k : ℝ) : EReal) := by
  rw [k1_pay9_apply, ofBits_scale]
  simp only [hq, hk]
  unfold scoreR
  rw [EReal.coe_mul, RefValue.coe_sum]
  simp only [EReal.coe_mul]

/-- Row r's reference point moves as the one-row recurrence says. -/
theorem rowM_succ (hq : ∀ (j : Fin 4) (r d : Fin 1024), xq j (ix3 (0 : Fin 1) r d) = ((Qr r d : ℝ) : EReal))
    (hk : ∀ (j : Fin 4) (k : Fin 512) (d : Fin 1024), xk j (ix3 (0 : Fin 1) k d) = ((Kr j k d : ℝ) : EReal))
    (r : Fin 1024) (j : ℕ) (hj : j < 4) :
    rowM xq xk xv r (j + 1) = max (rowM xq xk xv r j)
      ((Finset.univ : Finset (Fin 512)).fold max (⊥ : EReal) fun k => ((scoreR Qr Kr r ⟨j, hj⟩ k : ℝ) : EReal)) := by
  unfold rowM
  rw [stateN_succ xq xk xv j hj, step_fst, k1_pay10_apply, ofBits_neg_inf]
  simp only [score_coe xq xk Qr Kr hq hk]

/-- The new reference point is the step's. -/
theorem rowM_succ_eq (r : Fin 1024) (j : ℕ) (hj : j < 4) :
    rowM xq xk xv r (j + 1)
      = k1_pay10 (F := Ideal) (xq ⟨j, hj⟩) (xk ⟨j, hj⟩) (stateN xq xk xv j).1 (ix3 (0 : Fin 1) r (0 : Fin 1)) := by
  unfold rowM
  rw [stateN_succ xq xk xv j hj, step_fst]

/-- Row r's denominator moves as the one-row recurrence says. -/
theorem rowL_succ (hq : ∀ (j : Fin 4) (r d : Fin 1024), xq j (ix3 (0 : Fin 1) r d) = ((Qr r d : ℝ) : EReal))
    (hk : ∀ (j : Fin 4) (k : Fin 512) (d : Fin 1024), xk j (ix3 (0 : Fin 1) k d) = ((Kr j k d : ℝ) : EReal))
    (r : Fin 1024) (j : ℕ) (hj : j < 4) :
    rowL xq xk xv r (j + 1)
      = Ideal.exp (rowM xq xk xv r j - rowM xq xk xv r (j + 1)) * rowL xq xk xv r j
        + ∑ k : Fin 512, Ideal.exp (((scoreR Qr Kr r ⟨j, hj⟩ k : ℝ) : EReal) - rowM xq xk xv r (j + 1)) := by
  rw [rowM_succ_eq xq xk xv r j hj]
  unfold rowL rowM
  rw [stateN_succ xq xk xv j hj, step_snd]
  simp only [score_coe xq xk Qr Kr hq hk]

/-- Row r's numerator at feature e moves as the one-row recurrence says. -/
theorem rowAcc_succ (hq : ∀ (j : Fin 4) (r d : Fin 1024), xq j (ix3 (0 : Fin 1) r d) = ((Qr r d : ℝ) : EReal))
    (hk : ∀ (j : Fin 4) (k : Fin 512) (d : Fin 1024), xk j (ix3 (0 : Fin 1) k d) = ((Kr j k d : ℝ) : EReal))
    (hv : ∀ (j : Fin 4) (k : Fin 512) (e : Fin 1024), xv j (ix3 (0 : Fin 1) k e) = ((Vr j k e : ℝ) : EReal))
    (r e : Fin 1024) (j : ℕ) (hj : j < 4) :
    rowAcc xq xk xv r e (j + 1)
      = Ideal.exp (rowM xq xk xv r j - rowM xq xk xv r (j + 1)) * rowAcc xq xk xv r e j
        + ∑ k : Fin 512, Ideal.exp (((scoreR Qr Kr r ⟨j, hj⟩ k : ℝ) : EReal) - rowM xq xk xv r (j + 1))
            * ((Vr ⟨j, hj⟩ k e : ℝ) : EReal) := by
  rw [rowM_succ_eq xq xk xv r j hj]
  unfold rowAcc rowM
  rw [stateN_succ xq xk xv j hj, step_thd]
  simp only [score_coe xq xk Qr Kr hq hk, hv]

/-- THE RESULT of the four key tiles at row r and feature e, for any untiled score row `s` and value column `v` that
    the tiles are the pieces of. -/
theorem result_of (hq : ∀ (j : Fin 4) (r d : Fin 1024), xq j (ix3 (0 : Fin 1) r d) = ((Qr r d : ℝ) : EReal))
    (hk : ∀ (j : Fin 4) (k : Fin 512) (d : Fin 1024), xk j (ix3 (0 : Fin 1) k d) = ((Kr j k d : ℝ) : EReal))
    (hv : ∀ (j : Fin 4) (k : Fin 512) (e : Fin 1024), xv j (ix3 (0 : Fin 1) k e) = ((Vr j k e : ℝ) : EReal))
    (r e : Fin 1024) (s v : Fin 2048 → ℝ)
    (hs : ∀ (j : Fin 4) (k : Fin 512), s (keyEquiv (j, k)) = scoreR Qr Kr r j k)
    (hv' : ∀ (j : Fin 4) (k : Fin 512), v (keyEquiv (j, k)) = Vr j k e) (M : ℝ) :
    fin (step (xq 3) (xk 3) (xv 3) (step (xq 2) (xk 2) (xv 2) (step (xq 1) (xk 1) (xv 1) (step (xq 0) (xk 0) (xv 0) init))))
        (ix3 (0 : Fin 1) r e)
      = ((Attention.Spec.weighted s v M : ℝ) : EReal) := by
  rw [← stateN_four, fin_apply]
  exact FlashRow.result (scoreR Qr Kr r) (fun j k => Vr j k e) (rowM xq xk xv r) (rowL xq xk xv r) (rowAcc xq xk xv r e)
    (rowM_zero xq xk xv r) (rowL_zero xq xk xv r) (rowAcc_zero xq xk xv r e)
    (rowM_succ xq xk xv Qr Kr hq hk r) (rowL_succ xq xk xv Qr Kr hq hk r) (rowAcc_succ xq xk xv Qr Kr Vr hq hk hv r e)
    s v hs hv' M

/-- THE RESULT with the untiled row and column written out: key k of the row is key `(keyEquiv.symm k).2` of tile
    `(keyEquiv.symm k).1`. -/
theorem result (hq : ∀ (j : Fin 4) (r d : Fin 1024), xq j (ix3 (0 : Fin 1) r d) = ((Qr r d : ℝ) : EReal))
    (hk : ∀ (j : Fin 4) (k : Fin 512) (d : Fin 1024), xk j (ix3 (0 : Fin 1) k d) = ((Kr j k d : ℝ) : EReal))
    (hv : ∀ (j : Fin 4) (k : Fin 512) (e : Fin 1024), xv j (ix3 (0 : Fin 1) k e) = ((Vr j k e : ℝ) : EReal))
    (r e : Fin 1024) (M : ℝ) :
    fin (step (xq 3) (xk 3) (xv 3) (step (xq 2) (xk 2) (xv 2) (step (xq 1) (xk 1) (xv 1) (step (xq 0) (xk 0) (xv 0) init))))
        (ix3 (0 : Fin 1) r e)
      = ((Attention.Spec.weighted
            (fun k => (∑ d : Fin 1024, Qr r d * Kr (keyEquiv.symm k).1 (keyEquiv.symm k).2 d) * (1 / 32 : ℝ))
            (fun k => Vr (keyEquiv.symm k).1 (keyEquiv.symm k).2 e) M : ℝ) : EReal) :=
  result_of xq xk xv Qr Kr Vr hq hk hv r e _ _
    (fun j k => by show (∑ d : Fin 1024, Qr r d * Kr (keyEquiv.symm (keyEquiv (j, k))).1 (keyEquiv.symm (keyEquiv (j, k))).2 d) * (1 / 32 : ℝ) = _
                   rw [Equiv.symm_apply_apply]; rfl)
    (fun j k => by show Vr (keyEquiv.symm (keyEquiv (j, k))).1 (keyEquiv.symm (keyEquiv (j, k))).2 e = _
                   rw [Equiv.symm_apply_apply])
    M

end Run

end Cert.Proof.FlashGroup

end
-- ==== Proof.FlashValue.lean ====
/-
  The attention region's output array as the specification's softmax-weighted sum.

  The region runs the attention body over a grid (batch n, query tile, key tile), the key tile fastest: four
  consecutive points form a group that serves one tile of 1024 query rows of one batch. Across a group the body carries
  (m, l, acc): the first point resets it, every point updates it from its query, key and value tiles, and the last
  point stores acc / l into the output tile, which is written back there and only there.

  * Unrolling: what the last point of a group stores is the four updates composed from the reset state, then the
    quotient, over the twelve tiles the four points read.
  * The tiles are blocks of the three input arrays: the query tile of point t is rows 1024·(t/4 mod 2) … of batch
    t/8, the key and value tiles rows 512·(t mod 4) … of the same batch.
  * The 8 groups' output tiles cover the result array [4, 2048, 1024]: index (n, q, e) is in the tile written at point
    8·n + 4·(q / 1024) + 3, at row q mod 1024.
  * Over the reals, one group's composed updates are the softmax-weighted sum of the value column with the scaled
    scores of the query row against all 2048 keys (the key index split as 512·j + k over the four key tiles).
-/
import proofs.«159669_j21612275434249_2_alg».proof.Proof.FlashRegionIdeal
import proofs.«159669_j21612275434249_2_alg».proof.Proof.FlashPieces
import proofs.«159669_j21612275434249_2_alg».proof.Proof.FlashGroupDefs
import proofs.«159669_j21612275434249_2_alg».proof.Proof.FlashGroup
import proofs.«159669_j21612275434249_2_alg».proof.Proof.Spec
import Idealize.ShloMosaic.Lib.Pipeline.Value
import Idealize.ShloMosaic.Lib.ValueIdx

set_option maxRecDepth 16384

noncomputable section
namespace Cert.Proof.FlashValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Proof.FlashIdeal Cert.Proof.FlashPieces Cert.Proof.FlashGroup

section Unroll
variable {F : FTy → Type} [FloatOps F]
variable (V : (c : Dev nD) → (b : Ref sig .tc) → Buf (Elt F) ((c : Thread nD τ).loc b))

/-- The carried (m, l, acc) after position n. -/
def carry (c : Dev nD) (n : ℕ) (hn : n < cfg1.N) : St F := (stateAt V c n hn).2

/-- The carried state depends on the position only. -/
theorem carry_congr (c : Dev nD) (n m : ℕ) (h : n = m) (hn : n < cfg1.N) (hm : m < cfg1.N) :
    carry V c n hn = carry V c m hm := by subst h; rfl

/-- At the first point of a group the carried state is one update from the reset state. -/
theorem carry_first (c : Dev nD) (t : Fin cfg1.N) (h0 : t.val % 4 = 0) :
    carry V c t.val t.isLt = step (blockAt1 V c 0 t) (blockAt1 V c 1 t) (blockAt1 V c 2 t) init := by
  unfold carry
  rw [stateAt_first V c t h0 (by omega)]
  dsimp only
  rw [mFirst_eq, lFirst_eq, aFirst_eq]
  rfl

/-- At a middle point it is one update from what the point before left. -/
theorem carry_middle (c : Dev nD) (t : Fin cfg1.N) (h0 : ¬t.val % 4 = 0) (h3 : ¬t.val % 4 = 3) :
    carry V c t.val t.isLt = step (blockAt1 V c 0 t) (blockAt1 V c 1 t) (blockAt1 V c 2 t)
      (carry V c (t.val - 1) (Nat.lt_of_le_of_lt (Nat.sub_le _ _) t.isLt)) := by
  unfold carry
  rw [stateAt_middle V c t h0 h3]
  dsimp only
  rw [mMiddle_eq, lMiddle_eq, aMiddle_eq]
  rfl

/-- At the last point the stored tile is the quotient of one more update from what the point before left. -/
theorem out_last (c : Dev nD) (t : Fin cfg1.N) (h3 : t.val % 4 = 3) :
    (stateAt V c t.val t.isLt).1 = fin (step (blockAt1 V c 0 t) (blockAt1 V c 1 t) (blockAt1 V c 2 t)
      (carry V c (t.val - 1) (Nat.lt_of_le_of_lt (Nat.sub_le _ _) t.isLt))) := by
  unfold carry
  rw [stateAt_last V c t (by omega) h3]
  dsimp only
  rw [oLast_eq]
  rfl

/-- The point k positions before t. -/
abbrev back (t : Fin cfg1.N) (k : ℕ) : Fin cfg1.N := ⟨t.val - k, Nat.lt_of_le_of_lt (Nat.sub_le _ _) t.isLt⟩

/-- The query, key and value tiles of the four points of the group that ends at t, first key tile first. -/
def tilesQ (c : Dev nD) (t : Fin cfg1.N) : Fin 4 → Vec F S1x1024x1024 .bf16 := fun j => match j with
  | 0 => blockAt1 V c 0 (back t 3) | 1 => blockAt1 V c 0 (back t 2) | 2 => blockAt1 V c 0 (back t 1) | 3 => blockAt1 V c 0 t
def tilesK (c : Dev nD) (t : Fin cfg1.N) : Fin 4 → Vec F S1x512x1024 .bf16 := fun j => match j with
  | 0 => blockAt1 V c 1 (back t 3) | 1 => blockAt1 V c 1 (back t 2) | 2 => blockAt1 V c 1 (back t 1) | 3 => blockAt1 V c 1 t
def tilesV (c : Dev nD) (t : Fin cfg1.N) : Fin 4 → Vec F S1x512x1024 .bf16 := fun j => match j with
  | 0 => blockAt1 V c 2 (back t 3) | 1 => blockAt1 V c 2 (back t 2) | 2 => blockAt1 V c 2 (back t 1) | 3 => blockAt1 V c 2 t

/-- What the group that ends at t stores: the four key tiles' steps from the reset state, then the quotient. -/
def groupOut (c : Dev nD) (t : Fin cfg1.N) : FVec F S1x1024x1024 .f32 :=
  fin (step (tilesQ V c t 3) (tilesK V c t 3) (tilesV V c t 3) (step (tilesQ V c t 2) (tilesK V c t 2) (tilesV V c t 2)
    (step (tilesQ V c t 1) (tilesK V c t 1) (tilesV V c t 1) (step (tilesQ V c t 0) (tilesK V c t 0) (tilesV V c t 0) init))))

/-- THE UNROLLING: at the last point of a group the stored tile is the group's composed updates. -/
theorem out_group (c : Dev nD) (t : Fin cfg1.N) (h3 : t.val % 4 = 3) :
    (stateAt V c t.val t.isLt).1 = groupOut V c t := by
  have e1 := carry_middle V c (back t 1) (by show ¬(t.val - 1) % 4 = 0; omega) (by show ¬(t.val - 1) % 4 = 3; omega)
  have e2 : carry V c ((back t 1).val - 1) (Nat.lt_of_le_of_lt (Nat.sub_le _ _) (back t 1).isLt) = carry V c (back t 2).val (back t 2).isLt :=
    carry_congr V c _ _ (by show t.val - 1 - 1 = t.val - 2; omega) _ _
  have e3 := carry_middle V c (back t 2) (by show ¬(t.val - 2) % 4 = 0; omega) (by show ¬(t.val - 2) % 4 = 3; omega)
  have e4 : carry V c ((back t 2).val - 1) (Nat.lt_of_le_of_lt (Nat.sub_le _ _) (back t 2).isLt) = carry V c (back t 3).val (back t 3).isLt :=
    carry_congr V c _ _ (by show t.val - 2 - 1 = t.val - 3; omega) _ _
  have e5 := carry_first V c (back t 3) (by show (t.val - 3) % 4 = 0; omega)
  rw [out_last V c t h3]
  have e0 : carry V c (t.val - 1) (Nat.lt_of_le_of_lt (Nat.sub_le _ _) t.isLt) = carry V c (back t 1).val (back t 1).isLt := rfl
  rw [e0, e1, e2, e3, e4, e5]
  rfl

end Unroll

section AtIdeal
open Attention.Spec Cert.Proof.FlashRow
variable (V : (c : Dev nD) → (b : Ref sig .tc) → Buf (Elt Ideal) ((c : Thread nD τ).loc b))

/-- The grid has 32 points. -/
theorem lt32 (t : Fin cfg1.N) : t.val < 32 := Nat.lt_of_lt_of_eq t.isLt (show cfg1.N = 32 from N_1)

/-- The printed index maps over the 32 points: the batch is t / 8, the query tile t / 4 mod 2, the key tile t mod 4;
    every window spans the whole feature axis. -/
theorem index_facts : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = t.val / 4 % 2 ∧ win1_3.index t (2 : Fin 3) = 0 :=
  (by decide +kernel : ∀ t : Fin grid1.N, _)

/-- The batch of point t, the query row r of its query tile, the key row k of its key tile. -/
abbrev batchOf (t : Fin cfg1.N) : Fin 4 := ⟨t.val / 8, by have := lt32 t; omega⟩
abbrev qRow (t : Fin cfg1.N) (r : Fin 1024) : Fin 2048 := ⟨1024 * (t.val / 4 % 2) + r.val, by omega⟩
abbrev kRow (t : Fin cfg1.N) (k : Fin 512) : Fin 2048 := ⟨512 * (t.val % 4) + k.val, by omega⟩

/-- The query tile of point t at (0, r, d) is the query array at batch t / 8, row 1024·(t / 4 mod 2) + r. -/
theorem blockQ_apply (c : Dev nD) (t : Fin cfg1.N) (r d : Fin 1024) :
    blockAt1 V c 0 t (ix3 (0 : Fin 1) r d) = V c main_v8 (ix3 (batchOf t) (qRow t r) d) := by
  obtain ⟨e0, e1, e2, -⟩ := index_facts t
  show V c main_v8 (((cfg1.win 0).blk t).view.emb (ix3 (0 : Fin 1) r d)) = _
  refine congrArg (V c main_v8) ?_
  funext a; apply Fin.ext
  match a with
  | ⟨0, _⟩ => show win1_0.index t (0 : Fin 3) * 1 + 1 * 0 = t.val / 8; omega
  | ⟨1, _⟩ => show win1_0.index t (1 : Fin 3) * 1024 + 1 * r.val = 1024 * (t.val / 4 % 2) + r.val; omega
  | ⟨2, _⟩ => show win1_0.index t (2 : Fin 3) * 1024 + 1 * d.val = d.val; omega

/-- The key tile of point t at (0, k, d) is the key array at batch t / 8, row 512·(t mod 4) + k. -/
theorem blockK_apply (c : Dev nD) (t : Fin cfg1.N) (k : Fin 512) (d : Fin 1024) :
    blockAt1 V c 1 t (ix3 (0 : Fin 1) k d) = V c main_v9 (ix3 (batchOf t) (kRow t k) d) := by
  obtain ⟨-, -, -, e0, e1, e2, -⟩ := index_facts t
  show V c main_v9 (((cfg1.win 1).blk t).view.emb (ix3 (0 : Fin 1) k d)) = _
  refine congrArg (V c main_v9) ?_
  funext a; apply Fin.ext
  match a with
  | ⟨0, _⟩ => show win1_1.index t (0 : Fin 3) * 1 + 1 * 0 = t.val / 8; omega
  | ⟨1, _⟩ => show win1_1.index t (1 : Fin 3) * 512 + 1 * k.val = 512 * (t.val % 4) + k.val; omega
  | ⟨2, _⟩ => show win1_1.index t (2 : Fin 3) * 1024 + 1 * d.val = d.val; omega

/-- The value tile of point t at (0, k, d) is the value array at batch t / 8, row 512·(t mod 4) + k. -/
theorem blockV_apply (c : Dev nD) (t : Fin cfg1.N) (k : Fin 512) (d : Fin 1024) :
    blockAt1 V c 2 t (ix3 (0 : Fin 1) k d) = V c main_v10 (ix3 (batchOf t) (kRow t k) d) := by
  obtain ⟨-, -, -, -, -, -, e0, e1, e2, -⟩ := index_facts t
  show V c main_v10 (((cfg1.win 2).blk t).view.emb (ix3 (0 : Fin 1) k d)) = _
  refine congrArg (V c main_v10) ?_
  funext a; apply Fin.ext
  match a with
  | ⟨0, _⟩ => show win1_2.index t (0 : Fin 3) * 1 + 1 * 0 = t.val / 8; omega
  | ⟨1, _⟩ => show win1_2.index t (1 : Fin 3) * 512 + 1 * k.val = 512 * (t.val % 4) + k.val; omega
  | ⟨2, _⟩ => show win1_2.index t (2 : Fin 3) * 1024 + 1 * d.val = d.val; omega

/-- The last point of the group that computes query row q of batch n. -/
abbrev lastPt (n : Fin 4) (q : Fin 2048) : Fin cfg1.N :=
  ⟨8 * n.val + 4 * (q.val / 1024) + 3, by rw [show cfg1.N = 32 from N_1]; omega⟩

/-- The whole-array function: at (n, q, e), what the group of (n, q / 1024) stores at its row q mod 1024. -/
def attnArr (c : Dev nD) : S4x2048x1024.Idx → EReal := fun i =>
  groupOut V c (lastPt (i 0) (i 1)) (ix3 (0 : Fin 1) (⟨(i 1).val % 1024, Nat.mod_lt _ (by norm_num)⟩ : Fin 1024) (i 2))

/-- WHAT A LAST POINT WRITES BACK is its block of the whole-array function. -/
theorem flushed_eq (c : Dev nD) (t : Fin cfg1.N) (h3 : t.val % 4 = 3) :
    (flashData (F := Ideal) V c).flushed 3 t = ((cfg1.win 3).blk t).view.read (Elt Ideal) (attnArr V c) := by
  show (cfg1.win 3).cut (grid1.coords t) ((flashData (F := Ideal) V c).after 3 t) = _
  rw [after1_o, out_group V c t h3]
  funext j
  obtain ⟨-, -, -, -, -, -, -, -, -, e0, e1, e2⟩ := index_facts t
  have ht := lt32 t
  have hj0 : j 0 = (0 : Fin 1) := Fin.ext (by have h : (j 0).val < 1 := (j 0).isLt; show (j 0).val = 0; omega)
  obtain ⟨r, e, rfl⟩ : ∃ (r e : Fin 1024), j = ix3 (0 : Fin 1) r e :=
    ⟨j 1, j 2, (eq_ix3 j).trans (congrArg (fun a => ix3 a (j 1) (j 2)) hj0)⟩
  show groupOut V c t (ix3 (0 : Fin 1) r e) = attnArr V c (((cfg1.win 3).blk t).view.emb (ix3 (0 : Fin 1) r e))
  unfold attnArr
  have hpt : lastPt (((cfg1.win 3).blk t).view.emb (ix3 (0 : Fin 1) r e) 0) (((cfg1.win 3).blk t).view.emb (ix3 (0 : Fin 1) r e) 1) = t := by
    apply Fin.ext
    show 8 * (win1_3.index t (0 : Fin 3) * 1 + 1 * 0) + 4 * ((win1_3.index t (1 : Fin 3) * 1024 + 1 * r.val) / 1024) + 3 = t.val
    omega
  have hr : (⟨(((cfg1.win 3).blk t).view.emb (ix3 (0 : Fin 1) r e) 1).val % 1024, Nat.mod_lt _ (by norm_num)⟩ : Fin 1024) = r := by
    apply Fin.ext
    show (win1_3.index t (1 : Fin 3) * 1024 + 1 * r.val) % 1024 = r.val
    omega
  have he : ((cfg1.win 3).blk t).view.emb (ix3 (0 : Fin 1) r e) 2 = e := by
    apply Fin.ext
    show win1_3.index t (2 : Fin 3) * 1024 + 1 * e.val = e.val
    omega
  rw [hpt, hr, he]

/-- An index of the result array is in point t's block iff each coordinate is in the block's range on its axis. -/
theorem mem_blk (t : Fin cfg1.N) (i : S4x2048x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v11).slice (win1_3.rect t)).set ↔ _
  rw [View.set_slice_whole, Rect.mem_set_unit]
  exact Iff.rfl

/-- Index (n, q, e) is in the block of the last point of the group of (n, q / 1024), which writes it back. -/
theorem cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  refine ⟨lastPt (i 0) (i 1), (flush1_3 _).mpr (by show (8 * (i 0).val + 4 * ((i 1).val / 1024) + 3) % 4 = 3; omega), ?_⟩
  rw [mem_blk]
  obtain ⟨-, -, -, -, -, -, -, -, -, e0, e1, e2⟩ := index_facts (lastPt (i 0) (i 1))
  have e0' : win1_3.index (lastPt (i 0) (i 1)) (0 : Fin 3) = (8 * (i 0).val + 4 * ((i 1).val / 1024) + 3) / 8 := e0
  have e1' : win1_3.index (lastPt (i 0) (i 1)) (1 : Fin 3) = (8 * (i 0).val + 4 * ((i 1).val / 1024) + 3) / 4 % 2 := e1
  intro a
  match a with
  | ⟨0, _⟩ =>
    show win1_3.index (lastPt (i 0) (i 1)) (0 : Fin 3) * 1 ≤ (i 0).val
      ∧ (i 0).val < win1_3.index (lastPt (i 0) (i 1)) (0 : Fin 3) * 1 + 1
    omega
  | ⟨1, _⟩ =>
    show win1_3.index (lastPt (i 0) (i 1)) (1 : Fin 3) * 1024 ≤ (i 1).val
      ∧ (i 1).val < win1_3.index (lastPt (i 0) (i 1)) (1 : Fin 3) * 1024 + 1024
    omega
  | ⟨2, _⟩ =>
    show win1_3.index (lastPt (i 0) (i 1)) (2 : Fin 3) * 1024 ≤ (i 2).val
      ∧ (i 2).val < win1_3.index (lastPt (i 0) (i 1)) (2 : Fin 3) * 1024 + 1024
    omega

/-- THE RESULT ARRAY after the region. -/
theorem final (c : Dev nD) : (flashData (F := Ideal) V c).arrAt 3 cfg1.N = attnArr V c :=
  (flashData (F := Ideal) V c).arrAt_eq_of_cover 3 _ (fun t hf => flushed_eq V c t ((flush1_3 t).mp hf)) cover

/-- THE RESULT ARRAY over the reals: when the query, key and value arrays hold (the coercions of) reals, element
    (n, q, e) is the softmax-weighted sum of the value column e with the scaled scores of query row q against every
    key of batch n. -/
theorem out_array (c : Dev nD) (Q K Vv : Act)
    (hq : ∀ (n : Fin 4) (s : Fin 2048) (d : Fin 1024), V c main_v8 (ix3 n s d) = ((Q n s d : ℝ) : EReal))
    (hk : ∀ (n : Fin 4) (s : Fin 2048) (d : Fin 1024), V c main_v9 (ix3 n s d) = ((K n s d : ℝ) : EReal))
    (hv : ∀ (n : Fin 4) (s : Fin 2048) (d : Fin 1024), V c main_v10 (ix3 n s d) = ((Vv n s d : ℝ) : EReal))
    (n : Fin 4) (q : Fin 2048) (e : Fin 1024) :
    (flashData (F := Ideal) V c).arrAt 3 cfg1.N (ix3 n q e)
      = ((weighted (fun k => score Q K n q k) (fun k => Vv n k e) (rowMax Q K n q) : ℝ) : EReal) := by
  rw [final]
  have hq1 : q.val < 2048 := q.isLt
  have hn : n.val < 4 := n.isLt
  show groupOut V c (lastPt n q) (ix3 (0 : Fin 1) (⟨q.val % 1024, Nat.mod_lt _ (by norm_num)⟩ : Fin 1024) e) = _
  unfold groupOut
  have keyQ : ∀ (k : ℕ) (hk3 : k ≤ 3) (r d : Fin 1024), blockAt1 V c 0 (back (lastPt n q) k) (ix3 (0 : Fin 1) r d)
      = ((Q n (⟨1024 * (q.val / 1024) + r.val, by omega⟩ : Fin 2048) d : ℝ) : EReal) := by
    intro k hk3 r d
    rw [blockQ_apply, hq]
    have hb : batchOf (back (lastPt n q) k) = n :=
      Fin.ext (by show (8 * n.val + 4 * (q.val / 1024) + 3 - k) / 8 = n.val; omega)
    have hr : qRow (back (lastPt n q) k) r = (⟨1024 * (q.val / 1024) + r.val, by omega⟩ : Fin 2048) :=
      Fin.ext (by show 1024 * ((8 * n.val + 4 * (q.val / 1024) + 3 - k) / 4 % 2) + r.val = 1024 * (q.val / 1024) + r.val; omega)
    rw [hb, hr]
  have keyK : ∀ (k : ℕ) (hk3 : k ≤ 3) (j : Fin 4) (hj : j.val = 3 - k) (kk : Fin 512) (d : Fin 1024),
      blockAt1 V c 1 (back (lastPt n q) k) (ix3 (0 : Fin 1) kk d)
        = ((K n (⟨512 * j.val + kk.val, by omega⟩ : Fin 2048) d : ℝ) : EReal) := by
    intro k hk3 j hj kk d
    rw [blockK_apply, hk]
    have hb : batchOf (back (lastPt n q) k) = n :=
      Fin.ext (by show (8 * n.val + 4 * (q.val / 1024) + 3 - k) / 8 = n.val; omega)
    have hr : kRow (back (lastPt n q) k) kk = (⟨512 * j.val + kk.val, by omega⟩ : Fin 2048) :=
      Fin.ext (by show 512 * ((8 * n.val + 4 * (q.val / 1024) + 3 - k) % 4) + kk.val = 512 * j.val + kk.val; omega)
    rw [hb, hr]
  have keyV : ∀ (k : ℕ) (hk3 : k ≤ 3) (j : Fin 4) (hj : j.val = 3 - k) (kk : Fin 512) (d : Fin 1024),
      blockAt1 V c 2 (back (lastPt n q) k) (ix3 (0 : Fin 1) kk d)
        = ((Vv n (⟨512 * j.val + kk.val, by omega⟩ : Fin 2048) d : ℝ) : EReal) := by
    intro k hk3 j hj kk d
    rw [blockV_apply, hv]
    have hb : batchOf (back (lastPt n q) k) = n :=
      Fin.ext (by show (8 * n.val + 4 * (q.val / 1024) + 3 - k) / 8 = n.val; omega)
    have hr : kRow (back (lastPt n q) k) kk = (⟨512 * j.val + kk.val, by omega⟩ : Fin 2048) :=
      Fin.ext (by show 512 * ((8 * n.val + 4 * (q.val / 1024) + 3 - k) % 4) + kk.val = 512 * j.val + kk.val; omega)
    rw [hb, hr]
  refine result_of (tilesQ V c (lastPt n q)) (tilesK V c (lastPt n q)) (tilesV V c (lastPt n q))
    (fun r d => Q n (⟨1024 * (q.val / 1024) + r.val, by omega⟩ : Fin 2048) d)
    (fun j k d => K n (⟨512 * j.val + k.val, by omega⟩ : Fin 2048) d)
    (fun j k d => Vv n (⟨512 * j.val + k.val, by omega⟩ : Fin 2048) d)
    ?hq ?hk ?hv _ e _ _ ?hs ?hv' _
  case hq =>
    intro j r d
    match j with
    | 0 => exact keyQ 3 (by omega) r d
    | 1 => exact keyQ 2 (by omega) r d
    | 2 => exact keyQ 1 (by omega) r d
    | 3 => exact keyQ 0 (by omega) r d
  case hk =>
    intro j kk d
    match j with
    | 0 => exact keyK 3 (by omega) 0 rfl kk d
    | 1 => exact keyK 2 (by omega) 1 rfl kk d
    | 2 => exact keyK 1 (by omega) 2 rfl kk d
    | 3 => exact keyK 0 (by omega) 3 rfl kk d
  case hv =>
    intro j kk d
    match j with
    | 0 => exact keyV 3 (by omega) 0 rfl kk d
    | 1 => exact keyV 2 (by omega) 1 rfl kk d
    | 2 => exact keyV 1 (by omega) 2 rfl kk d
    | 3 => exact keyV 0 (by omega) 3 rfl kk d
  case hs =>
    intro j k
    have hkk : keyEquiv (j, k) = (⟨512 * j.val + k.val, by have := j.isLt; have := k.isLt; omega⟩ : Fin 2048) := Fin.ext (keyEquiv_val j k)
    have hqq : (⟨1024 * (q.val / 1024) + q.val % 1024, by omega⟩ : Fin 2048) = q := Fin.ext (by show 1024 * (q.val / 1024) + q.val % 1024 = q.val; omega)
    show score Q K n q (keyEquiv (j, k)) = (∑ d : Fin 1024, Q n (⟨1024 * (q.val / 1024) + q.val % 1024, by omega⟩ : Fin 2048) d
      * K n (⟨512 * j.val + k.val, by have := j.isLt; have := k.isLt; omega⟩ : Fin 2048) d) * (1 / 32 : ℝ)
    rw [hkk, hqq]
    rfl
  case hv' =>
    intro j k
    have hkk : keyEquiv (j, k) = (⟨512 * j.val + k.val, by have := j.isLt; have := k.isLt; omega⟩ : Fin 2048) := Fin.ext (keyEquiv_val j k)
    show Vv n (keyEquiv (j, k)) e = Vv n (⟨512 * j.val + k.val, by have := j.isLt; have := k.isLt; omega⟩ : Fin 2048) e
    rw [hkk]

end AtIdeal
end Cert.Proof.FlashValue
end
-- ==== Proof.KernelValue.lean ====
/-
  The kernel's result, index by index, on real inputs.

  Reading the run backwards: the result is what the attention region's pipeline leaves in its output array; that
  region's three input arrays are the reshaped projection arrays; those are the projection region's outputs, each
  x · Wᵀ + b of the reshaped x, the transposed weight and the bias. On real inputs each projection array is the
  coerced spec projection, and the attention region's output is then the spec's softmax-weighted sum.
-/
import proofs.«159669_j21612275434249_2_alg».proof.Proof.HostReads
import proofs.«159669_j21612275434249_2_alg».proof.Proof.ProjValue
import proofs.«159669_j21612275434249_2_alg».proof.Proof.FlashValue

noncomputable section

namespace Cert.Proof.KernelValue

open Cert.KernelIdeal Cert.KernelIdeal.Gen
open Idealize.ShloMosaic Idealize.ShloMosaic.TcCoe Idealize.ShloMosaic.ValueIdx Idealize.SL.Sem
open Attention.Spec

variable (m : (ℓ : Loc nD τ sig) → Buf (Elt Ideal) ℓ) (ρ : Dev nD → PrngReg)

/-- The queries the attention region reads are the coerced spec projection of x by (Wq, bq). -/
theorem q_entry (c : Dev nD) (xr : Act) (Wq : Wt) (bq : Bias)
    (h0 : ∀ (n : Fin 4) (s : Fin 2048) (d : Fin 1024), (m ((c : Thread nD τ).loc main_arg0) : S4x2048x1024.Idx → EReal) (ix3 n s d) = ((xr n s d : ℝ) : EReal))
    (hW : ∀ (e d : Fin 1024), (m ((c : Thread nD τ).loc main_arg1) : S1024x1024.Idx → EReal) (ix2 e d) = ((Wq e d : ℝ) : EReal))
    (hB : ∀ (e : Fin 1024), (m ((c : Thread nD τ).loc main_arg2) : S1024.Idx → EReal) (ix1 e) = ((bq e : ℝ) : EReal))
    (n : Fin 4) (s : Fin 2048) (d : Fin 1024) :
    (Cert.Proof.RunIdeal.V3 m ρ c main_v8 : S4x2048x1024.Idx → EReal) (ix3 n s d) = ((proj xr Wq bq n s d : ℝ) : EReal) := by
  have hlt : 2048 * n.val + s.val < 8192 := by have := n.isLt; have := s.isLt; omega
  rw [Cert.Proof.HostReads.q_rows m ρ c n s d hlt]
  have hA : Cert.Proof.RunIdeal.V2 m ρ c main_v7_0 = (Cert.Proof.ProjIdeal.projData (F := Ideal) (Cert.Proof.RunIdeal.V1 m ρ) c).arrAt 7 cfg0.N := Cert.Proof.RunIdeal.W2_arr m ρ c 7
  rw [hA]
  exact Cert.Proof.ProjValue.q_array (Cert.Proof.RunIdeal.V1 m ρ) c xr Wq bq
    (fun n s d => (Cert.Proof.HostReads.x_rows m ρ c n s d _).trans (h0 n s d))
    (fun d e => (Cert.Proof.HostReads.wq_T m ρ c d e).trans (hW e d))
    (fun e => by rw [Cert.Proof.HostReads.bq_kept]; exact hB e) n s d

/-- The keys, by (Wk, bk). -/
theorem k_entry (c : Dev nD) (xr : Act) (Wk : Wt) (bk : Bias)
    (h0 : ∀ (n : Fin 4) (s : Fin 2048) (d : Fin 1024), (m ((c : Thread nD τ).loc main_arg0) : S4x2048x1024.Idx → EReal) (ix3 n s d) = ((xr n s d : ℝ) : EReal))
    (hW : ∀ (e d : Fin 1024), (m ((c : Thread nD τ).loc main_arg3) : S1024x1024.Idx → EReal) (ix2 e d) = ((Wk e d : ℝ) : EReal))
    (hB : ∀ (e : Fin 1024), (m ((c : Thread nD τ).loc main_arg4) : S1024.Idx → EReal) (ix1 e) = ((bk e : ℝ) : EReal))
    (n : Fin 4) (s : Fin 2048) (d : Fin 1024) :
    (Cert.Proof.RunIdeal.V3 m ρ c main_v9 : S4x2048x1024.Idx → EReal) (ix3 n s d) = ((proj xr Wk bk n s d : ℝ) : EReal) := by
  have hlt : 2048 * n.val + s.val < 8192 := by have := n.isLt; have := s.isLt; omega
  rw [Cert.Proof.HostReads.k_rows m ρ c n s d hlt]
  have hA : Cert.Proof.RunIdeal.V2 m ρ c main_v7_1 = (Cert.Proof.ProjIdeal.projData (F := Ideal) (Cert.Proof.RunIdeal.V1 m ρ) c).arrAt 8 cfg0.N := Cert.Proof.RunIdeal.W2_arr m ρ c 8
  rw [hA]
  exact Cert.Proof.ProjValue.k_array (Cert.Proof.RunIdeal.V1 m ρ) c xr Wk bk
    (fun n s d => (Cert.Proof.HostReads.x_rows m ρ c n s d _).trans (h0 n s d))
    (fun d e => (Cert.Proof.HostReads.wk_T m ρ c d e).trans (hW e d))
    (fun e => by rw [Cert.Proof.HostReads.bk_kept]; exact hB e) n s d

/-- The values, by (Wv, bv). -/
theorem v_entry (c : Dev nD) (xr : Act) (Wv : Wt) (bv : Bias)
    (h0 : ∀ (n : Fin 4) (s : Fin 2048) (d : Fin 1024), (m ((c : Thread nD τ).loc main_arg0) : S4x2048x1024.Idx → EReal) (ix3 n s d) = ((xr n s d : ℝ) : EReal))
    (hW : ∀ (e d : Fin 1024), (m ((c : Thread nD τ).loc main_arg5) : S1024x1024.Idx → EReal) (ix2 e d) = ((Wv e d : ℝ) : EReal))
    (hB : ∀ (e : Fin 1024), (m ((c : Thread nD τ).loc main_arg6) : S1024.Idx → EReal) (ix1 e) = ((bv e : ℝ) : EReal))
    (n : Fin 4) (s : Fin 2048) (d : Fin 1024) :
    (Cert.Proof.RunIdeal.V3 m ρ c main_v10 : S4x2048x1024.Idx → EReal) (ix3 n s d) = ((proj xr Wv bv n s d : ℝ) : EReal) := by
  have hlt : 2048 * n.val + s.val < 8192 := by have := n.isLt; have := s.isLt; omega
  rw [Cert.Proof.HostReads.v_rows m ρ c n s d hlt]
  have hA : Cert.Proof.RunIdeal.V2 m ρ c main_v7_2 = (Cert.Proof.ProjIdeal.projData (F := Ideal) (Cert.Proof.RunIdeal.V1 m ρ) c).arrAt 9 cfg0.N := Cert.Proof.RunIdeal.W2_arr m ρ c 9
  rw [hA]
  exact Cert.Proof.ProjValue.v_array (Cert.Proof.RunIdeal.V1 m ρ) c xr Wv bv
    (fun n s d => (Cert.Proof.HostReads.x_rows m ρ c n s d _).trans (h0 n s d))
    (fun d e => (Cert.Proof.HostReads.wv_T m ρ c d e).trans (hW e d))
    (fun e => by rw [Cert.Proof.HostReads.bv_kept]; exact hB e) n s d

/-- THE KERNEL'S RESULT on real inputs: entry (n, q, e) of the array the run ends with is the coerced spec attention. -/
theorem kernel_value (c : Dev nD) (xr : Act) (Wq : Wt) (bq : Bias) (Wk : Wt) (bk : Bias) (Wv : Wt) (bv : Bias)
    (h0 : ∀ (n : Fin 4) (s : Fin 2048) (d : Fin 1024), (m ((c : Thread nD τ).loc main_arg0) : S4x2048x1024.Idx → EReal) (ix3 n s d) = ((xr n s d : ℝ) : EReal))
    (h1 : ∀ (e d : Fin 1024), (m ((c : Thread nD τ).loc main_arg1) : S1024x1024.Idx → EReal) (ix2 e d) = ((Wq e d : ℝ) : EReal))
    (h2 : ∀ (e : Fin 1024), (m ((c : Thread nD τ).loc main_arg2) : S1024.Idx → EReal) (ix1 e) = ((bq e : ℝ) : EReal))
    (h3 : ∀ (e d : Fin 1024), (m ((c : Thread nD τ).loc main_arg3) : S1024x1024.Idx → EReal) (ix2 e d) = ((Wk e d : ℝ) : EReal))
    (h4 : ∀ (e : Fin 1024), (m ((c : Thread nD τ).loc main_arg4) : S1024.Idx → EReal) (ix1 e) = ((bk e : ℝ) : EReal))
    (h5 : ∀ (e d : Fin 1024), (m ((c : Thread nD τ).loc main_arg5) : S1024x1024.Idx → EReal) (ix2 e d) = ((Wv e d : ℝ) : EReal))
    (h6 : ∀ (e : Fin 1024), (m ((c : Thread nD τ).loc main_arg6) : S1024.Idx → EReal) (ix1 e) = ((bv e : ℝ) : EReal))
    (n : Fin 4) (q : Fin 2048) (e : Fin 1024) :
    (Cert.Proof.RunIdeal.W4 m ρ c (Proc.devRef .tc main_v11) : S4x2048x1024.Idx → EReal) (ix3 n q e)
      = ((out xr Wq bq Wk bk Wv bv n q e : ℝ) : EReal) := by
  rw [Cert.Proof.RunIdeal.end_result]
  exact Cert.Proof.FlashValue.out_array (Cert.Proof.RunIdeal.V3 m ρ) c (proj xr Wq bq) (proj xr Wk bk) (proj xr Wv bv)
    (q_entry m ρ c xr Wq bq h0 h1 h2) (k_entry m ρ c xr Wk bk h0 h3 h4) (v_entry m ρ c xr Wv bv h0 h5 h6) n q e

end Cert.Proof.KernelValue

end
-- ==== Proof.RefValueProj.lean ====
/-
  The three linear layers of the reference program, read at an index.

  Each of the queries, keys and values is a `dot_general` of the activations [4, 2048, 1024] against a weight
  [1024, 1024] stored [out, in], contracting the last axis of both, plus the bias broadcast along the first two
  axes. When the inputs hold (the coercions of) real numbers, the element at (n, s, e) is the coercion of

      (∑ d, x n s d · W e d) + b e,

  the specification's `proj`.
-/
import proofs.«159669_j21612275434249_2_alg».proof.Proof.Spec
import proofs.«159669_j21612275434249_2_alg».proof.Proof.RefValueBasics
import proofs.«159669_j21612275434249_2_alg».proof.Proof.Gen.ReferenceIdeal.Read

noncomputable section

namespace Cert.Proof.RefValue

open Cert.ReferenceIdeal Cert.ReferenceIdeal.Gen Cert.ReferenceIdeal.Read Idealize.ShloMosaic Idealize.ShloMosaic.ValueIdx
open Attention.Spec

/-- The common arithmetic of the three layers: a sum of products of coerced reals plus a coerced real is the
    coercion of the layer's value. -/
theorem proj_core (xr : Act) (W : Wt) (b : Bias)
    (x0 : (⟨S4x2048x1024, .f32⟩ : BufTy).Contents (Elt Ideal)) (w : (⟨S1024x1024, .f32⟩ : BufTy).Contents (Elt Ideal))
    (c : (⟨S1024, .f32⟩ : BufTy).Contents (Elt Ideal))
    (h0 : ∀ (n : Fin 4) (s : Fin 2048) (d : Fin 1024), x0 (ix3 n s d) = ((xr n s d : ℝ) : EReal))
    (h1 : ∀ (e d : Fin 1024), w (ix2 e d) = ((W e d : ℝ) : EReal))
    (h2 : ∀ (e : Fin 1024), c (ix1 e) = ((b e : ℝ) : EReal))
    (n : Fin 4) (s : Fin 2048) (e : Fin 1024) :
    (∑ k : Fin 1024, x0 (ix3 n s k) * w (ix2 e k)) + c (ix1 e) = ((proj xr W b n s e : ℝ) : EReal) := by
  simp only [h0, h1, h2]
  unfold proj
  rw [EReal.coe_add, coe_sum]
  simp only [EReal.coe_mul]

/-- The queries: element (n, s, e) of the first layer. -/
theorem val_v3 (xr : Act) (Wq : Wt) (bq : Bias)
    (x0 : (⟨S4x2048x1024, .f32⟩ : BufTy).Contents (Elt Ideal)) (x1 : (⟨S1024x1024, .f32⟩ : BufTy).Contents (Elt Ideal))
    (x2 : (⟨S1024, .f32⟩ : BufTy).Contents (Elt Ideal))
    (h0 : ∀ (n : Fin 4) (s : Fin 2048) (d : Fin 1024), x0 (ix3 n s d) = ((xr n s d : ℝ) : EReal))
    (h1 : ∀ (e d : Fin 1024), x1 (ix2 e d) = ((Wq e d : ℝ) : EReal))
    (h2 : ∀ (e : Fin 1024), x2 (ix1 e) = ((bq e : ℝ) : EReal))
    (n : Fin 4) (s : Fin 2048) (e : Fin 1024) :
    val_main_v3 (F := Ideal) x0 x1 x2 (ix3 n s e) = ((proj xr Wq bq n s e : ℝ) : EReal) := by
  rw [val_main_v3_apply, val_main_v0_apply, val_main_v2_apply, val_main_v1_apply, Ideal.addf_def]
  have hl : ∀ k : Fin 1024, lidx_main_v0 (ix3 n s e) k = ix3 n s k := fun k => by
    funext a; match a with | ⟨0, _⟩ => rfl | ⟨1, _⟩ => rfl | ⟨2, _⟩ => rfl
  have hr : ∀ k : Fin 1024, ridx_main_v0 (ix3 n s e) k = ix2 e k := fun k => by
    funext a; match a with | ⟨0, _⟩ => rfl | ⟨1, _⟩ => rfl
  have hb : idx_main_v1 (idx_main_v2 (ix3 n s e)) = ix1 e := by
    funext a; match a with | ⟨0, _⟩ => rfl
  simp only [hl, hr, hb]
  exact proj_core xr Wq bq x0 x1 x2 h0 h1 h2 n s e

/-- The keys: element (n, s, e) of the second layer. -/
theorem val_v7 (xr : Act) (Wk : Wt) (bk : Bias)
    (x0 : (⟨S4x2048x1024, .f32⟩ : BufTy).Contents (Elt Ideal)) (x3 : (⟨S1024x1024, .f32⟩ : BufTy).Contents (Elt Ideal))
    (x4 : (⟨S1024, .f32⟩ : BufTy).Contents (Elt Ideal))
    (h0 : ∀ (n : Fin 4) (s : Fin 2048) (d : Fin 1024), x0 (ix3 n s d) = ((xr n s d : ℝ) : EReal))
    (h3 : ∀ (e d : Fin 1024), x3 (ix2 e d) = ((Wk e d : ℝ) : EReal))
    (h4 : ∀ (e : Fin 1024), x4 (ix1 e) = ((bk e : ℝ) : EReal))
    (n : Fin 4) (s : Fin 2048) (e : Fin 1024) :
    val_main_v7 (F := Ideal) x0 x3 x4 (ix3 n s e) = ((proj xr Wk bk n s e : ℝ) : EReal) := by
  rw [val_main_v7_apply, val_main_v4_apply, val_main_v6_apply, val_main_v5_apply, Ideal.addf_def]
  have hl : ∀ k : Fin 1024, lidx_main_v4 (ix3 n s e) k = ix3 n s k := fun k => by
    funext a; match a with | ⟨0, _⟩ => rfl | ⟨1, _⟩ => rfl | ⟨2, _⟩ => rfl
  have hr : ∀ k : Fin 1024, ridx_main_v4 (ix3 n s e) k = ix2 e k := fun k => by
    funext a; match a with | ⟨0, _⟩ => rfl | ⟨1, _⟩ => rfl
  have hb : idx_main_v5 (idx_main_v6 (ix3 n s e)) = ix1 e := by
    funext a; match a with | ⟨0, _⟩ => rfl
  simp only [hl, hr, hb]
  exact proj_core xr Wk bk x0 x3 x4 h0 h3 h4 n s e

/-- The values: element (n, s, e) of the third layer. -/
theorem val_v11 (xr : Act) (Wv : Wt) (bv : Bias)
    (x0 : (⟨S4x2048x1024, .f32⟩ : BufTy).Contents (Elt Ideal)) (x5 : (⟨S1024x1024, .f32⟩ : BufTy).Contents (Elt Ideal))
    (x6 : (⟨S1024, .f32⟩ : BufTy).Contents (Elt Ideal))
    (h0 : ∀ (n : Fin 4) (s : Fin 2048) (d : Fin 1024), x0 (ix3 n s d) = ((xr n s d : ℝ) : EReal))
    (h5 : ∀ (e d : Fin 1024), x5 (ix2 e d) = ((Wv e d : ℝ) : EReal))
    (h6 : ∀ (e : Fin 1024), x6 (ix1 e) = ((bv e : ℝ) : EReal))
    (n : Fin 4) (s : Fin 2048) (e : Fin 1024) :
    val_main_v11 (F := Ideal) x0 x5 x6 (ix3 n s e) = ((proj xr Wv bv n s e : ℝ) : EReal) := by
  rw [val_main_v11_apply, val_main_v8_apply, val_main_v10_apply, val_main_v9_apply, Ideal.addf_def]
  have hl : ∀ k : Fin 1024, lidx_main_v8 (ix3 n s e) k = ix3 n s k := fun k => by
    funext a; match a with | ⟨0, _⟩ => rfl | ⟨1, _⟩ => rfl | ⟨2, _⟩ => rfl
  have hr : ∀ k : Fin 1024, ridx_main_v8 (ix3 n s e) k = ix2 e k := fun k => by
    funext a; match a with | ⟨0, _⟩ => rfl | ⟨1, _⟩ => rfl
  have hb : idx_main_v9 (idx_main_v10 (ix3 n s e)) = ix1 e := by
    funext a; match a with | ⟨0, _⟩ => rfl
  simp only [hl, hr, hb]
  exact proj_core xr Wv bv x0 x5 x6 h0 h5 h6 n s e

end Cert.Proof.RefValue

end
-- ==== Proof.RefValueScore.lean ====
/-
  The scaled scores of the reference program and their row maximum, read at an index.

  The scores are a `dot_general` of the queries against the keys (batch axis 0, contracting the last axis of both)
  divided by the square root of 1024, which is 32; dividing by 32 is multiplying by 1/32, so element (n, q, k) is
  the coercion of the specification's `score`. The row maximum is a reduction with body `max` from minus
  infinity over the last axis, followed by one more `max` with minus infinity: the coercion of the supremum of
  the row's scores, the specification's `rowMax`.
-/
import proofs.«159669_j21612275434249_2_alg».proof.Proof.RefValueProj

noncomputable section

namespace Cert.Proof.RefValue

open Cert.ReferenceIdeal Cert.ReferenceIdeal.Gen Cert.ReferenceIdeal.Read Idealize.ShloMosaic Idealize.ShloMosaic.ValueIdx
open Attention.Spec

/-- The common arithmetic of a score: a sum of products of coerced reals, times the coercion of 1/32. -/
theorem score_core (Q K : Act) (a b : (⟨S4x2048x1024, .f32⟩ : BufTy).Contents (Elt Ideal))
    (ha : ∀ (n : Fin 4) (s : Fin 2048) (d : Fin 1024), a (ix3 n s d) = ((Q n s d : ℝ) : EReal))
    (hb : ∀ (n : Fin 4) (s : Fin 2048) (d : Fin 1024), b (ix3 n s d) = ((K n s d : ℝ) : EReal))
    (n : Fin 4) (q k : Fin 2048) :
    (∑ d : Fin 1024, a (ix3 n q d) * b (ix3 n k d)) * ((1 / 32 : ℝ) : EReal) = ((score Q K n q k : ℝ) : EReal) := by
  simp only [ha, hb]
  unfold score
  rw [EReal.coe_mul, coe_sum]
  simp only [EReal.coe_mul]

/-- The divisor of the scores: the square root of the constant 1024 is 32. -/
theorem val_v14 (i : S4x2048x2048.Idx) : val_main_v14 (F := Ideal) i = ((32 : ℝ) : EReal) := by
  rw [val_main_v14_apply, val_main_v12_apply, val_main_cst_apply, Ideal.hostUnary_sqrt_def, Ideal.ofBits_def,
    ofBits_1024, sqrt_1024]

/-- The scores: element (n, q, k). -/
theorem val_v15 (xr : Act) (Wq : Wt) (bq : Bias) (Wk : Wt) (bk : Bias)
    (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal))
    (h0 : ∀ (n : Fin 4) (s : Fin 2048) (d : Fin 1024), x0 (ix3 n s d) = ((xr n s d : ℝ) : EReal))
    (h1 : ∀ (e d : Fin 1024), x1 (ix2 e d) = ((Wq e d : ℝ) : EReal))
    (h2 : ∀ (e : Fin 1024), x2 (ix1 e) = ((bq e : ℝ) : EReal))
    (h3 : ∀ (e d : Fin 1024), x3 (ix2 e d) = ((Wk e d : ℝ) : EReal))
    (h4 : ∀ (e : Fin 1024), x4 (ix1 e) = ((bk e : ℝ) : EReal))
    (n : Fin 4) (q k : Fin 2048) :
    val_main_v15 (F := Ideal) x0 x1 x2 x3 x4 (ix3 n q k)
      = ((score (proj xr Wq bq) (proj xr Wk bk) n q k : ℝ) : EReal) := by
  rw [val_main_v15_apply, val_main_v13_apply, val_v14, Ideal.hostDivf_def,
    Ideal.div_coe (by norm_num : (32 : ℝ) ≠ 0)]
  have hl : ∀ d : Fin 1024, lidx_main_v13 (ix3 n q k) d = ix3 n q d := fun d => by
    funext a; match a with | ⟨0, _⟩ => rfl | ⟨1, _⟩ => rfl | ⟨2, _⟩ => rfl
  have hr : ∀ d : Fin 1024, ridx_main_v13 (ix3 n q k) d = ix3 n k d := fun d => by
    funext a; match a with | ⟨0, _⟩ => rfl | ⟨1, _⟩ => rfl | ⟨2, _⟩ => rfl
  simp only [hl, hr]
  exact score_core (proj xr Wq bq) (proj xr Wk bk) _ _
    (fun n s d => val_v3 xr Wq bq x0 x1 x2 h0 h1 h2 n s d)
    (fun n s d => val_v7 xr Wk bk x0 x3 x4 h0 h3 h4 n s d) n q k

/-- The reduction's witness at the literal shapes. -/
theorem reduces_d2 : S4x2048x2048.Reduces [2] S4x2048 := by decide

/-- The row index (n, q) with the coordinate `k` put back on the last axis is (n, q, k). -/
theorem lift_ix3 (n : Fin 4) (q : Fin 2048) (k : Fin (S4x2048x2048.size 2)) :
    reduces_d2.lift (ix2 n q) k = ix3 n q (⟨k.val, k.isLt⟩ : Fin 2048) := by
  funext c; apply Fin.ext
  fin_cases c <;> rfl

/-- The maximum-reduction over the last axis, from minus infinity: at (n, q), the fold of `max` over the row. -/
theorem val_v16_fold (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 4) (q : Fin 2048) :
    val_main_v16 (F := Ideal) x0 x1 x2 x3 x4 (ix2 n q)
      = (Finset.univ : Finset (Fin 2048)).fold max (⊥ : EReal)
          (fun k => val_main_v15 (F := Ideal) x0 x1 x2 x3 x4 (ix3 n q k)) := by
  unfold val_main_v16
  rw [Host.reduce_eq_fold_single FloatOps.maximumf _ _ reducesTo_S4x2048x2048_S4x2048_d2 reduces_d2 h_S_]
  have hf : (val_main_v15 (F := Ideal) x0 x1 x2 x3 x4 ∘ reduces_d2.lift (ix2 n q))
      = fun k : Fin 2048 => val_main_v15 (F := Ideal) x0 x1 x2 x3 x4 (ix3 n q k) :=
    funext fun k => congrArg (val_main_v15 (F := Ideal) x0 x1 x2 x3 x4) (lift_ix3 n q k)
  rw [hf, val_main_cst_0_apply, Ideal.ofBits_def, ofBits_neg_inf]
  rfl

/-- The row maximum: element (n, q). -/
theorem val_v18 (xr : Act) (Wq : Wt) (bq : Bias) (Wk : Wt) (bk : Bias)
    (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal))
    (h0 : ∀ (n : Fin 4) (s : Fin 2048) (d : Fin 1024), x0 (ix3 n s d) = ((xr n s d : ℝ) : EReal))
    (h1 : ∀ (e d : Fin 1024), x1 (ix2 e d) = ((Wq e d : ℝ) : EReal))
    (h2 : ∀ (e : Fin 1024), x2 (ix1 e) = ((bq e : ℝ) : EReal))
    (h3 : ∀ (e d : Fin 1024), x3 (ix2 e d) = ((Wk e d : ℝ) : EReal))
    (h4 : ∀ (e : Fin 1024), x4 (ix1 e) = ((bk e : ℝ) : EReal))
    (n : Fin 4) (q : Fin 2048) :
    val_main_v18 (F := Ideal) x0 x1 x2 x3 x4 (ix2 n q)
      = ((rowMax (proj xr Wq bq) (proj xr Wk bk) n q : ℝ) : EReal) := by
  rw [val_main_v18_apply, val_main_v17_apply, val_main_cst_1_apply, Ideal.ofBits_def, ofBits_neg_inf,
    Ideal.maximumf_def, max_eq_right bot_le, val_v16_fold]
  simp only [val_v15 xr Wq bq Wk bk x0 x1 x2 x3 x4 h0 h1 h2 h3 h4]
  unfold rowMax
  exact fold_max_coe Finset.univ_nonempty _

end Cert.Proof.RefValue

end
-- ==== Proof.RefValueOut.lean ====
/-
  The softmax weights of the reference program and its output, read at an index.

  With s k the score of row (n, q) against key k and M the row's maximum, the reference computes
  exp (s k − M), sums it over k (from the constant zero), divides, and contracts the weights with the values:

      out n q e = ∑ k, exp (s k − M) / (∑ j, exp (s j − M)) · V n k e.

  Every intermediate is the coercion of a real: a difference of coerced reals is the coerced difference, the
  exponential of a coerced real is the coerced exponential, the sum of exponentials is positive, hence nonzero,
  so the quotient of the two coerced reals is the coerced quotient.
-/
import proofs.«159669_j21612275434249_2_alg».proof.Proof.RefValueScore

noncomputable section

namespace Cert.Proof.RefValue

open Cert.ReferenceIdeal Cert.ReferenceIdeal.Gen Cert.ReferenceIdeal.Read Idealize.ShloMosaic Idealize.ShloMosaic.ValueIdx
open Attention.Spec

/-- A sum of exponentials over the 2048 keys is not zero. -/
theorem sum_exp_ne_zero (s : Fin 2048 → ℝ) (M : ℝ) : (∑ j, Real.exp (s j - M)) ≠ 0 :=
  ne_of_gt (Finset.sum_pos (fun j _ => Real.exp_pos _) Finset.univ_nonempty)

/-- The exponentials: element (n, q, k) is exp (score − row maximum). -/
theorem val_v22 (xr : Act) (Wq : Wt) (bq : Bias) (Wk : Wt) (bk : Bias)
    (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal))
    (h0 : ∀ (n : Fin 4) (s : Fin 2048) (d : Fin 1024), x0 (ix3 n s d) = ((xr n s d : ℝ) : EReal))
    (h1 : ∀ (e d : Fin 1024), x1 (ix2 e d) = ((Wq e d : ℝ) : EReal))
    (h2 : ∀ (e : Fin 1024), x2 (ix1 e) = ((bq e : ℝ) : EReal))
    (h3 : ∀ (e d : Fin 1024), x3 (ix2 e d) = ((Wk e d : ℝ) : EReal))
    (h4 : ∀ (e : Fin 1024), x4 (ix1 e) = ((bk e : ℝ) : EReal))
    (n : Fin 4) (q k : Fin 2048) :
    val_main_v22 (F := Ideal) x0 x1 x2 x3 x4 (ix3 n q k)
      = ((Real.exp (score (proj xr Wq bq) (proj xr Wk bk) n q k - rowMax (proj xr Wq bq) (proj xr Wk bk) n q) : ℝ) : EReal) := by
  rw [val_main_v22_apply, val_main_v21_apply, val_main_v20_apply, val_main_v19_apply]
  have hi : idx_main_v19 (idx_main_v20 (ix3 n q k)) = ix2 n q := by
    funext a; match a with | ⟨0, _⟩ => rfl | ⟨1, _⟩ => rfl
  rw [hi, val_v15 xr Wq bq Wk bk x0 x1 x2 x3 x4 h0 h1 h2 h3 h4, val_v18 xr Wq bq Wk bk x0 x1 x2 x3 x4 h0 h1 h2 h3 h4,
    Ideal.subf_def, Ideal.hostUnary_exp_def, ← EReal.coe_sub, Ideal.exp_coe]

/-- The row sums: element (n, q) is the sum over the keys of the exponentials. -/
theorem val_v23 (xr : Act) (Wq : Wt) (bq : Bias) (Wk : Wt) (bk : Bias)
    (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal))
    (h0 : ∀ (n : Fin 4) (s : Fin 2048) (d : Fin 1024), x0 (ix3 n s d) = ((xr n s d : ℝ) : EReal))
    (h1 : ∀ (e d : Fin 1024), x1 (ix2 e d) = ((Wq e d : ℝ) : EReal))
    (h2 : ∀ (e : Fin 1024), x2 (ix1 e) = ((bq e : ℝ) : EReal))
    (h3 : ∀ (e d : Fin 1024), x3 (ix2 e d) = ((Wk e d : ℝ) : EReal))
    (h4 : ∀ (e : Fin 1024), x4 (ix1 e) = ((bk e : ℝ) : EReal))
    (n : Fin 4) (q : Fin 2048) :
    val_main_v23 (F := Ideal) x0 x1 x2 x3 x4 (ix2 n q)
      = ((∑ j : Fin 2048, Real.exp (score (proj xr Wq bq) (proj xr Wk bk) n q j - rowMax (proj xr Wq bq) (proj xr Wk bk) n q) : ℝ) : EReal) := by
  rw [val_main_v23_apply, val_main_cst_2_apply, Ideal.ofBits_def, ofBits_zero, zero_add]
  have hi : ∀ j : Fin 2048, idx_main_v23 (ix2 n q) j = ix3 n q j := fun j => by
    funext a; match a with | ⟨0, _⟩ => rfl | ⟨1, _⟩ => rfl | ⟨2, _⟩ => rfl
  simp only [hi, val_v22 xr Wq bq Wk bk x0 x1 x2 x3 x4 h0 h1 h2 h3 h4]
  rw [coe_sum]

/-- The softmax weights: element (n, q, k). -/
theorem val_v26 (xr : Act) (Wq : Wt) (bq : Bias) (Wk : Wt) (bk : Bias)
    (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal))
    (h0 : ∀ (n : Fin 4) (s : Fin 2048) (d : Fin 1024), x0 (ix3 n s d) = ((xr n s d : ℝ) : EReal))
    (h1 : ∀ (e d : Fin 1024), x1 (ix2 e d) = ((Wq e d : ℝ) : EReal))
    (h2 : ∀ (e : Fin 1024), x2 (ix1 e) = ((bq e : ℝ) : EReal))
    (h3 : ∀ (e d : Fin 1024), x3 (ix2 e d) = ((Wk e d : ℝ) : EReal))
    (h4 : ∀ (e : Fin 1024), x4 (ix1 e) = ((bk e : ℝ) : EReal))
    (n : Fin 4) (q k : Fin 2048) :
    val_main_v26 (F := Ideal) x0 x1 x2 x3 x4 (ix3 n q k)
      = ((Real.exp (score (proj xr Wq bq) (proj xr Wk bk) n q k - rowMax (proj xr Wq bq) (proj xr Wk bk) n q)
          / (∑ j : Fin 2048, Real.exp (score (proj xr Wq bq) (proj xr Wk bk) n q j - rowMax (proj xr Wq bq) (proj xr Wk bk) n q)) : ℝ) : EReal) := by
  rw [val_main_v26_apply, val_main_v25_apply, val_main_v24_apply]
  have hi : idx_main_v24 (idx_main_v25 (ix3 n q k)) = ix2 n q := by
    funext a; match a with | ⟨0, _⟩ => rfl | ⟨1, _⟩ => rfl
  rw [hi, val_v22 xr Wq bq Wk bk x0 x1 x2 x3 x4 h0 h1 h2 h3 h4, val_v23 xr Wq bq Wk bk x0 x1 x2 x3 x4 h0 h1 h2 h3 h4,
    Ideal.hostDivf_def, div_coe_coe _ _ (sum_exp_ne_zero _ _)]

/-- THE REFERENCE'S VALUE: on inputs holding (the coercions of) reals, element (n, q, e) of the reference's result is
    the coercion of the specification's self-attention. -/
theorem ref_value (xr : Act) (Wq : Wt) (bq : Bias) (Wk : Wt) (bk : Bias) (Wv : Wt) (bv : Bias)
    (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h0 : ∀ (n : Fin 4) (s : Fin 2048) (d : Fin 1024), x0 (ix3 n s d) = ((xr n s d : ℝ) : EReal))
    (h1 : ∀ (e d : Fin 1024), x1 (ix2 e d) = ((Wq e d : ℝ) : EReal))
    (h2 : ∀ (e : Fin 1024), x2 (ix1 e) = ((bq e : ℝ) : EReal))
    (h3 : ∀ (e d : Fin 1024), x3 (ix2 e d) = ((Wk e d : ℝ) : EReal))
    (h4 : ∀ (e : Fin 1024), x4 (ix1 e) = ((bk e : ℝ) : EReal))
    (h5 : ∀ (e d : Fin 1024), x5 (ix2 e d) = ((Wv e d : ℝ) : EReal))
    (h6 : ∀ (e : Fin 1024), x6 (ix1 e) = ((bv e : ℝ) : EReal))
    (n : Fin 4) (q : Fin 2048) (e : Fin 1024) :
    val_main_v27 (F := Ideal) x0 x1 x2 x3 x4 x5 x6 (ix3 n q e)
      = ((Attention.Spec.out xr Wq bq Wk bk Wv bv n q e : ℝ) : EReal) := by
  rw [val_main_v27_apply]
  have hl : ∀ k : Fin 2048, lidx_main_v27 (ix3 n q e) k = ix3 n q k := fun k => by
    funext a; match a with | ⟨0, _⟩ => rfl | ⟨1, _⟩ => rfl | ⟨2, _⟩ => rfl
  have hr : ∀ k : Fin 2048, ridx_main_v27 (ix3 n q e) k = ix3 n k e := fun k => by
    funext a; match a with | ⟨0, _⟩ => rfl | ⟨1, _⟩ => rfl | ⟨2, _⟩ => rfl
  simp only [hl, hr, val_v26 xr Wq bq Wk bk x0 x1 x2 x3 x4 h0 h1 h2 h3 h4, val_v11 xr Wv bv x0 x5 x6 h0 h5 h6]
  unfold Attention.Spec.out weighted
  rw [coe_sum]
  simp only [EReal.coe_mul]

end Cert.Proof.RefValue

end
-- ==== Proof.FiniteOfPre.lean ====
/-
  Finiteness out of the precondition.

  The precondition is a printed predicate: for each of the seven input arrays, "every entry has absolute value
  below plus infinity" (a comparison against the pattern of plus infinity, reduced by `and` from the constant 1 over
  all axes), the seven conjoined by `and`. When the predicate is 1, every entry of every array is (the coercion of) a
  real number: an extended real whose absolute value max x (−x) is below ⊤ is neither ⊤ nor ⊥. The reals are then
  collected into the seven real arrays the specification is stated over.
-/
import proofs.«159669_j21612275434249_2_alg».proof.Pre_finite_inputs
import proofs.«159669_j21612275434249_2_alg».proof.Proof.Spec
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.ValueIdx
open Cert.Pre_finite_inputs (S4x2048x1024 S1024x1024 S1024 S_)

/-- The scalar shape has one index. -/
instance : Subsingleton S_.Idx := ⟨fun a b => funext fun d => d.elim0⟩

/-- The pattern `0x7F800000` denotes plus infinity. -/
theorem ofBits_pos_inf : Ideal.ofBits .f32 0x7F800000#32 = (⊤ : EReal) := by
  simp [Ideal.ofBits, Ideal.ieee]

/-- An extended real whose absolute value compares below plus infinity is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_pos_inf] at h'
  unfold Ideal.cmp at h'
  have hlt : max x (-x) < (⊤ : EReal) := by
    by_contra hn
    simp [hn] at h'
  induction x using EReal.rec with
  | bot => simp at hlt
  | top => simp at hlt
  | coe r => exact ⟨r, rfl⟩

/-- One array's `all (|x| < +inf)`: when the reduction by `and` over all axes is 1, every entry is a real. -/
theorem all_real {s : Shape} {axes : List (Fin s.rank)}
    (hb : S_.BroadcastsInDim s (![] : Fin 0 → Fin s.rank)) (hr : s.ReducesTo axes S_) (hu : 0 < S_.numel)
    (x : FVec Ideal s .f32)
    (h : Host.reduce IntOp.andi (cmpf .olt (Host.absf x) (broadcastInDim s ![] hb (constant S_ .f32 0x7F800000#32)))
          (constantI S_ 1 1#1) hr hu ix0 = 1#1)
    (i : s.Idx) : ∃ r : ℝ, x i = (r : EReal) :=
  real_of_abs_lt_inf (x i) (Host.reduce_andi_all _ _ hr hu ix0 h i)

/-- FINITENESS OUT OF THE PRECONDITION: when the printed predicate is 1 on the seven arrays, they hold the
    coercions of seven real arrays. -/
theorem finite_of_pre [Cert.Pre_finite_inputs.Facts]
    (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h : Cert.Pre_finite_inputs.fn (F := Ideal) x0 x1 x2 x3 x4 x5 x6 = (fun _ => 1#1)) :
    ∃ (xr : Attention.Spec.Act) (Wq : Attention.Spec.Wt) (bq : Attention.Spec.Bias) (Wk : Attention.Spec.Wt)
      (bk : Attention.Spec.Bias) (Wv : Attention.Spec.Wt) (bv : Attention.Spec.Bias),
      (∀ (n : Fin 4) (s : Fin 2048) (d : Fin 1024), x0 (ix3 n s d) = ((xr n s d : ℝ) : EReal))
      ∧ (∀ (e d : Fin 1024), x1 (ix2 e d) = ((Wq e d : ℝ) : EReal))
      ∧ (∀ (e : Fin 1024), x2 (ix1 e) = ((bq e : ℝ) : EReal))
      ∧ (∀ (e d : Fin 1024), x3 (ix2 e d) = ((Wk e d : ℝ) : EReal))
      ∧ (∀ (e : Fin 1024), x4 (ix1 e) = ((bk e : ℝ) : EReal))
      ∧ (∀ (e d : Fin 1024), x5 (ix2 e d) = ((Wv e d : ℝ) : EReal))
      ∧ (∀ (e : Fin 1024), x6 (ix1 e) = ((bv e : ℝ) : EReal)) := by
  have e := congrFun h ix0
  dsimp only [Cert.Pre_finite_inputs.fn, Cert.Pre_finite_inputs.fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  choose xr hxr using fun (n : Fin 4) (s : Fin 2048) (d : Fin 1024) => all_real _ _ _ x0 e0 (ix3 n s d)
  choose Wq hWq using fun (a d : Fin 1024) => all_real _ _ _ x1 e1 (ix2 a d)
  choose bq hbq using fun (a : Fin 1024) => all_real _ _ _ x2 e2 (ix1 a)
  choose Wk hWk using fun (a d : Fin 1024) => all_real _ _ _ x3 e3 (ix2 a d)
  choose bk hbk using fun (a : Fin 1024) => all_real _ _ _ x4 e4 (ix1 a)
  choose Wv hWv using fun (a d : Fin 1024) => all_real _ _ _ x5 e5 (ix2 a d)
  choose bv hbv using fun (a : Fin 1024) => all_real _ _ _ x6 e6 (ix1 a)
  exact ⟨xr, Wq, bq, Wk, bk, Wv, bv, hxr, hWq, hbq, hWk, hbk, hWv, hbv⟩

end Cert.Proof.Finite

end
-- ==== Proof.Algebraic.lean ====
/-
  The value claim: on finite inputs the kernel and the reference end with the same array.

  The kernel's run ends with the result at what the attention region leaves (Proof/RunIdeal.lean); the reference's
  run ends with its result at the operations' composed term. Finite inputs are coerced reals (Proof/FiniteOfPre.lean);
  on them the reference's term is the coerced spec attention index by index (Proof/RefValueOut.lean) and so is the
  kernel's array (Proof/KernelValue.lean).
-/
import proofs.«159669_j21612275434249_2_alg».proof.Defs
import proofs.«159669_j21612275434249_2_alg».proof.Proof.KernelValue
import proofs.«159669_j21612275434249_2_alg».proof.Proof.RefValueOut
import proofs.«159669_j21612275434249_2_alg».proof.Proof.FiniteOfPre
import proofs.«159669_j21612275434249_2_alg».proof.Proof.Gen.ReferenceIdeal.Run
import proofs.«159669_j21612275434249_2_alg».proof.Proof.Gen.ReferenceIdeal.Read

noncomputable section

open Idealize.ShloMosaic Idealize.ShloMosaic.TcCoe Idealize.ShloMosaic.ValueIdx Idealize.SL.Sem

namespace Cert.Proof.Algebraic

/-- Both programs run; the kernel's result array and the reference's are one array; the arguments are unchanged. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Proof.RunIdeal.W4 m ρ c (Proc.devRef .tc Cert.KernelIdeal.main_v11), ?_, ?_⟩
  · -- the kernel: the run's last boundary, read at the result and at the seven arguments
    exact (θ_run Cert.KernelIdeal.defs _ _).mono (fun r h c =>
      ⟨h c _ (Cert.Proof.RunIdeal.mem_uc Cert.KernelIdeal.main_v11 (by decide)),
       (h c _ (Cert.Proof.RunIdeal.mem_uc Cert.KernelIdeal.main_arg0 (by decide))).trans (Cert.Proof.RunIdeal.end_main_arg0 m ρ c),
       (h c _ (Cert.Proof.RunIdeal.mem_uc Cert.KernelIdeal.main_arg1 (by decide))).trans (Cert.Proof.RunIdeal.end_main_arg1 m ρ c),
       (h c _ (Cert.Proof.RunIdeal.mem_uc Cert.KernelIdeal.main_arg2 (by decide))).trans (Cert.Proof.RunIdeal.end_main_arg2 m ρ c),
       (h c _ (Cert.Proof.RunIdeal.mem_uc Cert.KernelIdeal.main_arg3 (by decide))).trans (Cert.Proof.RunIdeal.end_main_arg3 m ρ c),
       (h c _ (Cert.Proof.RunIdeal.mem_uc Cert.KernelIdeal.main_arg4 (by decide))).trans (Cert.Proof.RunIdeal.end_main_arg4 m ρ c),
       (h c _ (Cert.Proof.RunIdeal.mem_uc Cert.KernelIdeal.main_arg5 (by decide))).trans (Cert.Proof.RunIdeal.end_main_arg5 m ρ c),
       (h c _ (Cert.Proof.RunIdeal.mem_uc Cert.KernelIdeal.main_arg6 (by decide))).trans (Cert.Proof.RunIdeal.end_main_arg6 m ρ c)⟩)
      (Cert.Proof.RunIdeal.run_all (F := Ideal) m ρ)
  · -- the reference: its result term, on arguments that agree with the kernel's, index by index
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq, (hagree c).1, (hagree c).2.1, (hagree c).2.2.1, (hagree c).2.2.2.1, (hagree c).2.2.2.2.1,
      (hagree c).2.2.2.2.2.1, (hagree c).2.2.2.2.2.2]
    obtain ⟨xr, Wq, bq, Wk, bk, Wv, bv, h0, h1, h2, h3, h4, h5, h6⟩ := Cert.Proof.Finite.finite_of_pre _ _ _ _ _ _ _ (hpre c)
    funext i
    obtain ⟨n, q, e, rfl⟩ : ∃ (n : Fin 4) (q : Fin 2048) (e : Fin 1024), i = ix3 n q e := ⟨i 0, i 1, i 2, eq_ix3 i⟩
    rw [Cert.Proof.RefValue.ref_value xr Wq bq Wk bk Wv bv _ _ _ _ _ _ _ h0 h1 h2 h3 h4 h5 h6 n q e]
    exact (Cert.Proof.KernelValue.kernel_value m ρ c xr Wq bq Wk bk Wv bv h0 h1 h2 h3 h4 h5 h6 n q e).symm

end Cert.Proof.Algebraic

end
-- ==== Proof.lean ====
/-
  Self-attention on [4, 2048, 1024]: three linear projections (x · Wᵀ + b for queries, keys, values), scores
  q · k scaled by 1/√1024, a softmax over the keys, and the weighted sum of the values.

  The kernel computes the projections in one grid of row tiles, then the attention in a second grid over
  (batch, query tile, key tile) by the online softmax: per query row it carries a reference point, a denominator and
  a numerator across the four key tiles and divides at the last one. The reference computes the same scores, the
  two-pass softmax and one matrix product. Over the extended reals with finite inputs the two agree: the scale
  2⁻⁵ is exactly 1/√1024; moving the reference point of a sum of exponentials multiplies it by exp of the shift
  (Proof/LibOnlineSoftmax.lean), so the carried sums are the sums over all keys seen; and dividing a finite sum by a
  nonzero real distributes over its terms.

  The kernel's run is followed through @main's five boundaries (Proof/RunIdeal.lean, Proof/RunBits.lean): it gives the
  two kernel frames (Proof/KernelFrames.lean) and names the result array. The reference's frame is its run with the
  result dropped (Proof/Reference.lean). The value equation is Proof/Algebraic.lean.
-/
import proofs.«159669_j21612275434249_2_alg».proof.Defs
import proofs.«159669_j21612275434249_2_alg».proof.Proof.Gen.Kernel
import proofs.«159669_j21612275434249_2_alg».proof.Proof.Gen.KernelIdeal
import proofs.«159669_j21612275434249_2_alg».proof.Proof.Gen.ReferenceIdeal
import proofs.«159669_j21612275434249_2_alg».proof.Proof.Gen.Pre_finite_inputs
import proofs.«159669_j21612275434249_2_alg».proof.Proof.Reference
import proofs.«159669_j21612275434249_2_alg».proof.Proof.KernelFrames
import proofs.«159669_j21612275434249_2_alg».proof.Proof.Algebraic
import Idealize.ShloMosaic.Adequacy
import Idealize.ShloMosaic.Init

noncomputable section

namespace Cert.Proof

/-- The idealization is the kernel's own text read over the extended reals: no operation was rewritten. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    Cert.Proof.KernelFrames.frame_k, Cert.Proof.KernelFrames.frame_ki, Cert.Proof.Reference.frame_ri, preserves,
    Cert.Proof.Algebraic.algebraic⟩

end Cert.Proof

end
